-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8x4096x1024 : Shape := ⟨3, ![8, 4096, 1024]⟩
abbrev S1024x1024 : Shape := ⟨2, ![1024, 1024]⟩
abbrev S1024 : Shape := ⟨1, ![1024]⟩
abbrev S1x1024 : Shape := ⟨2, ![1, 1024]⟩
abbrev S8x1x1024 : Shape := ⟨3, ![8, 1, 1024]⟩
abbrev S1x512x1024 : Shape := ⟨3, ![1, 512, 1024]⟩
abbrev S1x1x1024 : Shape := ⟨3, ![1, 1, 1024]⟩
abbrev S512x1024 : Shape := ⟨2, ![512, 1024]⟩

abbrev nBuf : Space → Nat
  | .hbm => 21
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S8x4096x1024, .f32⟩
  | .hbm, ⟨18, _⟩ => ⟨S8x1x1024, .f32⟩
  | .hbm, ⟨19, _⟩ => ⟨S8x1x1024, .f32⟩
  | .hbm, ⟨20, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1024x1024, .bf16⟩
  | .local _ .vmem, ⟨23, _⟩ => ⟨S1x1024, .f32⟩
  | .local _ .vmem, ⟨24, _⟩ => ⟨S1x512x1024, .f32⟩
  | .local _ .vmem, ⟨25, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v57 : BitVec 1 := Scalar.cmpi .eq arg1 c7_i32
  let v58 : BitVec 32 := Scalar.extui v57
  let c0_i32_34 : BitVec 32 := 0#32
  let v59 : BitVec 1 := Scalar.cmpi .ne v58 c0_i32_34
  v59

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S1024_S1x1024 : S1024.ShapeCasts S1x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S512x1024 : S1x1024.Broadcasts S512x1024
  reduces_S512x1024_S1024 : S512x1024.Reduces [0] S1024
  shapeCasts_S512x1024_S1x512x1024 : S512x1024.ShapeCasts S1x512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S8x4096x1024.size a
  hwx0_7 : ∀ i : grid0.Coords, EltTy.bits .f32 = 32 ∨ (Rect.block (s := S8x4096x1024) S1x512x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024.size a ≤ S8x1x1024.size a
  hwx0_8 : ∀ i : grid0.Coords, EltTy.bits .f32 = 32 ∨ (Rect.block (s := S8x1x1024) S1x1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1024.size a ≤ S8x1x1024.size a
  hwx0_9 : ∀ i : grid0.Coords, EltTy.bits .f32 = 32 ∨ (Rect.block (s := S8x1x1024) S1x1x1024.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x4096x1024.size a
  hwx1_0 : ∀ i : grid1.Coords, EltTy.bits .f32 = 32 ∨ (Rect.block (s := S8x4096x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024.size a ≤ S8x1x1024.size a
  hwx1_1 : ∀ i : grid1.Coords, EltTy.bits .f32 = 32 ∨ (Rect.block (s := S8x1x1024) S1x1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S8x1x1024.size a
  hwx1_2 : ∀ i : grid1.Coords, EltTy.bits .f32 = 32 ∨ (Rect.block (s := S8x1x1024) S1x1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S8x4096x1024.size a
  hwx1_5 : ∀ i : grid1.Coords, EltTy.bits .f32 = 32 ∨ (Rect.block (s := S8x4096x1024) S1x512x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S1x512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S1x1x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_2) S1x1x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v8_0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S1x1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S1x1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x1024 : Shape := ⟨2, ![8, 1024]⟩
abbrev S8x1x1024 : Shape := ⟨3, ![8, 1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x4096x1024, .f32⟩
  | .hbm, ⟨10, _⟩ => ⟨S1x1x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S1x1x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096x1024, .f32⟩
  | .hbm, ⟨23, _⟩ => ⟨S8x4096x1024, .i1⟩
  | .hbm, ⟨24, _⟩ => ⟨S_, .f32⟩
  | .hbm, ⟨25, _⟩ => ⟨S8x4096x1024, .f32⟩
  | .hbm, ⟨26, _⟩ => ⟨S8x4096x1024, .i1⟩
  | .hbm, ⟨27, _⟩ => ⟨S_, .f32⟩
  | .hbm, ⟨28, _⟩ => ⟨S_, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x4096x1024, .f32⟩
  | .hbm, ⟨41, _⟩ => ⟨S8x4096x1024, .i1⟩
  | .hbm, ⟨42, _⟩ => ⟨S_, .f32⟩
  | .hbm, ⟨43, _⟩ => ⟨S8x4096x1024, .f32⟩
  | .hbm, ⟨44, _⟩ => ⟨S8x4096x1024, .i1⟩
  | .hbm, ⟨45, _⟩ => ⟨S_, .f32⟩
  | .hbm, ⟨46, _⟩ => ⟨S_, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S_, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S_, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x1024, .f32⟩
  | .hbm, ⟨60, _⟩ => ⟨S_, .f32⟩
  | .hbm, ⟨61, _⟩ => ⟨S8x1024, .f32⟩
  | .hbm, ⟨62, _⟩ => ⟨S8x1x1024, .f32⟩
  | .hbm, ⟨63, _⟩ => ⟨S8x4096x1024, .f32⟩
  | .hbm, ⟨64, _⟩ => ⟨S8x4096x1024, .f32⟩
  | .hbm, ⟨65, _⟩ => ⟨S_, .f32⟩
  | .hbm, ⟨66, _⟩ => ⟨S8x4096x1024, .f32⟩
  | .hbm, ⟨67, _⟩ => ⟨S8x4096x1024, .f32⟩
  | .hbm, ⟨68, _⟩ => ⟨S_, .f32⟩
  | .hbm, ⟨69, _⟩ => ⟨S8x4096x1024, .f32⟩
  | .hbm, ⟨70, _⟩ => ⟨S8x4096x1024, .f32⟩
  | .hbm, ⟨71, _⟩ => ⟨S8x1x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S1x1x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | .hbm, ⟨81, _⟩ => ⟨S_, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S_, .f32⟩
  | .hbm, ⟨86, _⟩ => ⟨S8x4096x1024, .f32⟩
  | .hbm, ⟨87, _⟩ => ⟨S8x4096x1024, .f32⟩
  | .hbm, ⟨88, _⟩ => ⟨S8x4096x1024, .f32⟩
  | .hbm, ⟨89, _⟩ => ⟨S_, .f32⟩
  | .hbm, ⟨90, _⟩ => ⟨S8x4096x1024, .f32⟩
  | .hbm, ⟨91, _⟩ => ⟨S8x4096x1024, .f32⟩
  | .hbm, ⟨92, _⟩ => ⟨S_, .f32⟩
  | .hbm, ⟨93, _⟩ => ⟨S8x4096x1024, .f32⟩
  | .hbm, ⟨94, _⟩ => ⟨S8x4096x1024, .f32⟩
  | .hbm, ⟨95, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_cst_1 : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_v4 : Ref sig .tc := ⟨.hbm, 30, rfl⟩
abbrev main_call0_v5 : Ref sig .tc := ⟨.hbm, 31, rfl⟩
abbrev main_call0_cst_2 : Ref sig .tc := ⟨.hbm, 32, rfl⟩
abbrev main_call0_v6 : Ref sig .tc := ⟨.hbm, 33, rfl⟩
abbrev main_call0_v7 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_cst_0 : Ref sig .tc := ⟨.hbm, 42, rfl⟩
abbrev main_call1_v2 : Ref sig .tc := ⟨.hbm, 43, rfl⟩
abbrev main_call1_v3 : Ref sig .tc := ⟨.hbm, 44, rfl⟩
abbrev main_call1_cst_1 : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_v4 : Ref sig .tc := ⟨.hbm, 48, rfl⟩
abbrev main_call1_v5 : Ref sig .tc := ⟨.hbm, 49, rfl⟩
abbrev main_call1_cst_2 : Ref sig .tc := ⟨.hbm, 50, rfl⟩
abbrev main_call1_v6 : Ref sig .tc := ⟨.hbm, 51, rfl⟩
abbrev main_call1_v7 : Ref sig .tc := ⟨.hbm, 52, rfl⟩
abbrev main_v15 : Ref sig .tc := ⟨.hbm, 53, rfl⟩
abbrev main_cst_0 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_1 : Ref sig .tc := ⟨.hbm, 58, rfl⟩
abbrev main_v19 : Ref sig .tc := ⟨.hbm, 59, rfl⟩
abbrev main_cst_2 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_3 : Ref sig .tc := ⟨.hbm, 65, rfl⟩
abbrev main_v24 : Ref sig .tc := ⟨.hbm, 66, rfl⟩
abbrev main_v25 : Ref sig .tc := ⟨.hbm, 67, rfl⟩
abbrev main_cst_4 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_5 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_6 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_7 : Ref sig .tc := ⟨.hbm, 89, rfl⟩
abbrev main_v44 : Ref sig .tc := ⟨.hbm, 90, rfl⟩
abbrev main_v45 : Ref sig .tc := ⟨.hbm, 91, rfl⟩
abbrev main_cst_8 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S_S8x4096x1024 : S_.BroadcastsInDim S8x4096x1024 (![] : Fin 0 → Fin S8x4096x1024.rank)
  reducesTo_S8x4096x1024_S8x1024_d1 : S8x4096x1024.ReducesTo [1] S8x1024
  h_S_ : 0 < S_.numel
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  dot_S8x4096x1024_S1024x1024_S8x4096x1024_2_0_01_1_n_n_wf : DotDims.WF S8x4096x1024 S1024x1024 S8x4096x1024 [2] [0] [0, 1] [1] [] []

variable [Facts₀]

def dot_S8x4096x1024_S1024x1024_S8x4096x1024_2_0_01_1_n_n : DotDims S8x4096x1024 S1024x1024 S8x4096x1024 where
  lhsContracting := [2]
  rhsContracting := [0]
  lhsNonContracting := [0, 1]
  rhsNonContracting := [1]
  lhsBatch := []
  rhsBatch := []
  wf := dot_S8x4096x1024_S1024x1024_S8x4096x1024_2_0_01_1_n_n_wf

class Facts : Prop extends Facts₀ where

variable [Facts]
-- ==== Proof.KRegion0Body.lean ====
/-
  The first kernel region's body (the statistics kernel) on whole staging memrefs, case by case.
  Its grid has 64 points (batch n, sequence tile s), eight tiles per batch. At a point the body projects its tile of
  x three ways (queries, keys, values: a matrix product into a zero accumulator plus a bias row), applies the feature
  map φ(t) = t + 1 for t > 0 and exp t otherwise to the queries and the keys, stores the tile of φ(q), and adds to two
  row accumulators kept in scratch memory across the tiles of one batch: the column sums of φ(k) · v and of φ(k).
  At the first tile of a batch it zeroes both accumulators before adding; at the last tile it also copies them out
  to its two small results. So three cases, by the tile: first, middle, last.
  In each case: from the seven inputs' buffers at their read contents, the results' and scratches' as stated, the
  body runs to its return leaving the inputs as they were, the query tile at `outQ`, each accumulator at
  `accKV` / `accKs` of what it held (zero rows at a first tile), and at a last tile the two small results at the
  accumulators' new contents; at the other tiles the two small results' buffers are untouched.
-/
import proofs.«165790_j9397388444314_1_alg».proof.Proof.Gen.Kernel.Launch
import proofs.«165790_j9397388444314_1_alg».proof.Proof.Gen.Kernel.Skeleton
import proofs.«165790_j9397388444314_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body's two conditions, from the grid coordinates: the first sequence tile, the last sequence tile. -/
abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

/-! The body's accesses: each a whole buffer. -/
abbrev rA0 : Rect S1x512x1024 := Rect.unit (s := S1x512x1024) ![0, 0, 0] S1x512x1024.size inb_S1x512x1024_S1x512x1024_0_0_0
abbrev rB0 : Rect S1x1x1024 := Rect.unit (s := S1x1x1024) ![0, 0, 0] S1x1x1024.size inb_S1x1x1024_S1x1x1024_0_0_0
abbrev rW0 : Rect S1024x1024 := Rect.unit (s := S1024x1024) ![0, 0] S1024x1024.size inb_S1024x1024_S1024x1024_0_0
abbrev rV0 : Rect S1x1024 := Rect.unit (s := S1x1024) ![0, 0] S1x1024.size inb_S1x1024_S1x1024_0_0
theorem hz3 : (![0, 0, 0] : Fin 3 → Nat) = fun _ => 0 := by funext a; fin_cases a <;> rfl
theorem hz2 : (![0, 0] : Fin 2 → Nat) = fun _ => 0 := by funext a; fin_cases a <;> rfl

/-- The key sums' accumulator after a point: what it held plus this tile's column sums of φ(k) · v. -/
def accKV (x : Vec F S1x512x1024 .f32) (wk : Vec F S1024x1024 .bf16) (bk : Vec F S1x1024 .f32) (wv : Vec F S1024x1024 .bf16) (bv : Vec F S1x1024 .f32)
    (prev : Vec F S1x1024 .f32) : Vec F S1x1024 .f32 :=
  k0_pay2 (k0_pay10 x wk bk) (k0_pay11 x wv bv) (k0_pay13 (F := F)) prev
/-- The normaliser's accumulator after a point: what it held plus this tile's column sums of φ(k). -/
def accKs (x : Vec F S1x512x1024 .f32) (wk : Vec F S1024x1024 .bf16) (bk : Vec F S1x1024 .f32) (prev : Vec F S1x1024 .f32) : Vec F S1x1024 .f32 :=
  k0_pay3 (k0_pay10 x wk bk) (k0_pay13 (F := F)) prev
/-- The tile of feature-mapped queries the body stores. -/
def outQ (x : Vec F S1x512x1024 .f32) (wq : Vec F S1024x1024 .bf16) (bq : Vec F S1x1024 .f32) : Vec F S1x512x1024 .f32 :=
  k0_pay4 (k0_pay12 x wq bq)

/-- One whole-buffer store covers its buffer; so does a list that ends with one (the last store is listed first). -/
theorem coverA0 (p : Vec F S1x512x1024 .f32) (y : S1x512x1024.Idx) :
    ∃ pc ∈ ([⟨rA0, p⟩] : List (View.Piece (Elt F) S1x512x1024 .f32)), y ∈ pc.1.set :=
  ⟨_, List.mem_singleton_self _, View.mem_set_unit_zero hz3 inb_S1x512x1024_S1x512x1024_0_0_0 y⟩
theorem coverB0 (p : Vec F S1x1x1024 .f32) (y : S1x1x1024.Idx) :
    ∃ pc ∈ ([⟨rB0, p⟩] : List (View.Piece (Elt F) S1x1x1024 .f32)), y ∈ pc.1.set :=
  ⟨_, List.mem_singleton_self _, View.mem_set_unit_zero hz3 inb_S1x1x1024_S1x1x1024_0_0_0 y⟩
theorem coverV0 (p : Vec F S1x1024 .f32) (L : List (View.Piece (Elt F) S1x1024 .f32)) (y : S1x1024.Idx) :
    ∃ pc ∈ ((⟨rV0, p⟩ : View.Piece (Elt F) S1x1024 .f32) :: L), y ∈ pc.1.set :=
  ⟨_, List.mem_cons_self, View.mem_set_unit_zero hz2 inb_S1x1024_S1x1024_0_0 y⟩

set_option maxHeartbeats 4000000 in
theorem sound_kernel0_A (c : Dev nD) (E : Set ℕ) (i : grid0.Coords) (arg2 : Memref sig .tc .vmem S1x512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole)
    (hc0 : cond0_0 i) (hc1 : ¬cond0_1 i)
    (x : Vec F S1x512x1024 .f32) (wq : Vec F S1024x1024 .bf16) (bq : Vec F S1x1024 .f32) (wk : Vec F S1024x1024 .bf16) (bk : Vec F S1x1024 .f32)
    (wv : Vec F S1024x1024 .bf16) (bv : Vec F S1x1024 .f32) (y10 y11 : Vec F S1x1x1024 .f32) (p0 p1 : Vec F S1x1024 .f32) (K : PUnit → sProp 𝕄) :
    iprop(owns (c : Thread nD τ) arg2 fullShare x ∗ owns (c : Thread nD τ) arg3 fullShare wq ∗ owns (c : Thread nD τ) arg4 fullShare bq
        ∗ owns (c : Thread nD τ) arg5 fullShare wk ∗ owns (c : Thread nD τ) arg6 fullShare bk ∗ owns (c : Thread nD τ) arg7 fullShare wv ∗ owns (c : Thread nD τ) arg8 fullShare bv
        ∗ (∃ d, owns (c : Thread nD τ) arg9 fullShare d) ∗ owns (c : Thread nD τ) arg10 fullShare y10 ∗ owns (c : Thread nD τ) arg11 fullShare y11 ∗ (∃ d, owns (c : Thread nD τ) arg12 fullShare d) ∗ (∃ d, owns (c : Thread nD τ) arg13 fullShare d)
        ∗ (iprop(owns (c : Thread nD τ) arg2 fullShare x ∗ owns (c : Thread nD τ) arg3 fullShare wq ∗ owns (c : Thread nD τ) arg4 fullShare bq
        ∗ owns (c : Thread nD τ) arg5 fullShare wk ∗ owns (c : Thread nD τ) arg6 fullShare bk ∗ owns (c : Thread nD τ) arg7 fullShare wv ∗ owns (c : Thread nD τ) arg8 fullShare bv
            ∗ owns (c : Thread nD τ) arg9 fullShare (outQ x wq bq) ∗ owns (c : Thread nD τ) arg10 fullShare y10 ∗ owns (c : Thread nD τ) arg11 fullShare y11 ∗ owns (c : Thread nD τ) arg12 fullShare (accKV x wk bk wv bv (k0_pay7 (F := F))) ∗ owns (c : Thread nD τ) arg13 fullShare (accKs x wk bk (k0_pay8 (F := F)))) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12 arg13 harg13) K := by
  simp only [cc0__stats_kernel_eq_skeleton]; unfold cc0__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%f10, %hf10, H10⟩, ⟨%f11, %hf11, H11⟩, ⟨%d12, %f12, -, H12⟩, ⟨%d13, %f13, -, H13⟩, Hk⟩
  subst hf2; subst hf3; subst hf4; subst hf5; subst hf6; subst hf7; subst hf8; subst hf10; subst hf11
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try sl_unfold_run_names
    rw [View.read_writes_eq_canon _ _ _ (coverA0 _), View.canon_unit_zero hz3]
    unfold outQ
    try sl_unfold_run_names
    simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try sl_unfold_run_names
    rw [View.read_writes_eq_canon _ _ _ (coverV0 _ _), View.canon_cons_unit_zero hz2]
    unfold accKV
    try sl_unfold_run_names
    simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]
  iexists _; isplitr
  swap; · iexact H13
  ipureintro
  try sl_unfold_run_names
  rw [View.read_writes_eq_canon _ _ _ (coverV0 _ _), View.canon_cons_unit_zero hz2]
  unfold accKs
  try sl_unfold_run_names
  simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]

set_option maxHeartbeats 4000000 in
theorem sound_kernel0_B (c : Dev nD) (E : Set ℕ) (i : grid0.Coords) (arg2 : Memref sig .tc .vmem S1x512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole)
    (hc0 : ¬cond0_0 i) (hc1 : ¬cond0_1 i)
    (x : Vec F S1x512x1024 .f32) (wq : Vec F S1024x1024 .bf16) (bq : Vec F S1x1024 .f32) (wk : Vec F S1024x1024 .bf16) (bk : Vec F S1x1024 .f32)
    (wv : Vec F S1024x1024 .bf16) (bv : Vec F S1x1024 .f32) (y10 y11 : Vec F S1x1x1024 .f32) (p0 p1 : Vec F S1x1024 .f32) (K : PUnit → sProp 𝕄) :
    iprop(owns (c : Thread nD τ) arg2 fullShare x ∗ owns (c : Thread nD τ) arg3 fullShare wq ∗ owns (c : Thread nD τ) arg4 fullShare bq
        ∗ owns (c : Thread nD τ) arg5 fullShare wk ∗ owns (c : Thread nD τ) arg6 fullShare bk ∗ owns (c : Thread nD τ) arg7 fullShare wv ∗ owns (c : Thread nD τ) arg8 fullShare bv
        ∗ (∃ d, owns (c : Thread nD τ) arg9 fullShare d) ∗ owns (c : Thread nD τ) arg10 fullShare y10 ∗ owns (c : Thread nD τ) arg11 fullShare y11 ∗ owns (c : Thread nD τ) arg12 fullShare p0 ∗ owns (c : Thread nD τ) arg13 fullShare p1
        ∗ (iprop(owns (c : Thread nD τ) arg2 fullShare x ∗ owns (c : Thread nD τ) arg3 fullShare wq ∗ owns (c : Thread nD τ) arg4 fullShare bq
        ∗ owns (c : Thread nD τ) arg5 fullShare wk ∗ owns (c : Thread nD τ) arg6 fullShare bk ∗ owns (c : Thread nD τ) arg7 fullShare wv ∗ owns (c : Thread nD τ) arg8 fullShare bv
            ∗ owns (c : Thread nD τ) arg9 fullShare (outQ x wq bq) ∗ owns (c : Thread nD τ) arg10 fullShare y10 ∗ owns (c : Thread nD τ) arg11 fullShare y11 ∗ owns (c : Thread nD τ) arg12 fullShare (accKV x wk bk wv bv p0) ∗ owns (c : Thread nD τ) arg13 fullShare (accKs x wk bk p1)) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12 arg13 harg13) K := by
  simp only [cc0__stats_kernel_eq_skeleton]; unfold cc0__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%f10, %hf10, H10⟩, ⟨%f11, %hf11, H11⟩, ⟨%f12, %hf12, H12⟩, ⟨%f13, %hf13, H13⟩, Hk⟩
  subst hf2; subst hf3; subst hf4; subst hf5; subst hf6; subst hf7; subst hf8; subst hf10; subst hf11; subst hf12; subst hf13
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try sl_unfold_run_names
    rw [View.read_writes_eq_canon _ _ _ (coverA0 _), View.canon_unit_zero hz3]
    unfold outQ
    try sl_unfold_run_names
    simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try sl_unfold_run_names
    rw [View.read_writes_eq_canon _ _ _ (coverV0 _ _), View.canon_cons_unit_zero hz2]
    unfold accKV
    try sl_unfold_run_names
    simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]
  iexists _; isplitr
  swap; · iexact H13
  ipureintro
  try sl_unfold_run_names
  rw [View.read_writes_eq_canon _ _ _ (coverV0 _ _), View.canon_cons_unit_zero hz2]
  unfold accKs
  try sl_unfold_run_names
  simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]

set_option maxHeartbeats 4000000 in
theorem sound_kernel0_C (c : Dev nD) (E : Set ℕ) (i : grid0.Coords) (arg2 : Memref sig .tc .vmem S1x512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole)
    (hc0 : ¬cond0_0 i) (hc1 : cond0_1 i)
    (x : Vec F S1x512x1024 .f32) (wq : Vec F S1024x1024 .bf16) (bq : Vec F S1x1024 .f32) (wk : Vec F S1024x1024 .bf16) (bk : Vec F S1x1024 .f32)
    (wv : Vec F S1024x1024 .bf16) (bv : Vec F S1x1024 .f32) (y10 y11 : Vec F S1x1x1024 .f32) (p0 p1 : Vec F S1x1024 .f32) (K : PUnit → sProp 𝕄) :
    iprop(owns (c : Thread nD τ) arg2 fullShare x ∗ owns (c : Thread nD τ) arg3 fullShare wq ∗ owns (c : Thread nD τ) arg4 fullShare bq
        ∗ owns (c : Thread nD τ) arg5 fullShare wk ∗ owns (c : Thread nD τ) arg6 fullShare bk ∗ owns (c : Thread nD τ) arg7 fullShare wv ∗ owns (c : Thread nD τ) arg8 fullShare bv
        ∗ (∃ d, owns (c : Thread nD τ) arg9 fullShare d) ∗ (∃ d, owns (c : Thread nD τ) arg10 fullShare d) ∗ (∃ d, owns (c : Thread nD τ) arg11 fullShare d) ∗ owns (c : Thread nD τ) arg12 fullShare p0 ∗ owns (c : Thread nD τ) arg13 fullShare p1
        ∗ (iprop(owns (c : Thread nD τ) arg2 fullShare x ∗ owns (c : Thread nD τ) arg3 fullShare wq ∗ owns (c : Thread nD τ) arg4 fullShare bq
        ∗ owns (c : Thread nD τ) arg5 fullShare wk ∗ owns (c : Thread nD τ) arg6 fullShare bk ∗ owns (c : Thread nD τ) arg7 fullShare wv ∗ owns (c : Thread nD τ) arg8 fullShare bv
            ∗ owns (c : Thread nD τ) arg9 fullShare (outQ x wq bq) ∗ owns (c : Thread nD τ) arg10 fullShare (k0_pay5 (accKV x wk bk wv bv p0)) ∗ owns (c : Thread nD τ) arg11 fullShare (k0_pay6 (accKs x wk bk p1)) ∗ owns (c : Thread nD τ) arg12 fullShare (accKV x wk bk wv bv p0) ∗ owns (c : Thread nD τ) arg13 fullShare (accKs x wk bk p1)) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12 arg13 harg13) K := by
  simp only [cc0__stats_kernel_eq_skeleton]; unfold cc0__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%d10, %f10, -, H10⟩, ⟨%d11, %f11, -, H11⟩, ⟨%f12, %hf12, H12⟩, ⟨%f13, %hf13, H13⟩, Hk⟩
  subst hf2; subst hf3; subst hf4; subst hf5; subst hf6; subst hf7; subst hf8; subst hf12; subst hf13
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try sl_unfold_run_names
    rw [View.read_writes_eq_canon _ _ _ (coverA0 _), View.canon_unit_zero hz3]
    unfold outQ
    try sl_unfold_run_names
    simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]
  isplitl [H10]
  · iexists _; isplitr
    swap; · iexact H10
    ipureintro
    try sl_unfold_run_names
    rw [View.read_writes_eq_canon _ _ _ (coverB0 _), View.canon_unit_zero hz3]
    unfold accKV
    try sl_unfold_run_names
    simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]
  isplitl [H11]
  · iexists _; isplitr
    swap; · iexact H11
    ipureintro
    try sl_unfold_run_names
    rw [View.read_writes_eq_canon _ _ _ (coverB0 _), View.canon_unit_zero hz3]
    unfold accKs
    try sl_unfold_run_names
    simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]
  isplitl [H12]
  · iexists _; isplitr
    swap; · iexact H12
    ipureintro
    try sl_unfold_run_names
    rw [View.read_writes_eq_canon _ _ _ (coverV0 _ _), View.canon_cons_unit_zero hz2]
    unfold accKV
    try sl_unfold_run_names
    simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]
  iexists _; isplitr
  swap; · iexact H13
  ipureintro
  try sl_unfold_run_names
  rw [View.read_writes_eq_canon _ _ _ (coverV0 _ _), View.canon_cons_unit_zero hz2]
  unfold accKs
  try sl_unfold_run_names
  simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]

end Cert.Kernel.Hand

end
-- ==== Proof.KRegion0.lean ====
/-
  The first kernel region (the statistics kernel) at the contents `V` the region is entered with: each window's
  block at a point; what each input's staging buffer holds when the body runs (its block, fetched there or not);
  the two conditions of the body in closed form over the grid (first tile of a batch: position ≡ 0 mod 8; last
  tile: ≡ 7 mod 8) and where the two small results' windows are idle (everywhere but the last tiles, where they are
  written back); the two accumulators after each point, by recursion on the point — restarted from zero rows at
  each first tile, otherwise continued from the point before; the region's invariant, which after a point holds the
  two scratch buffers at those accumulators; the proof data; and the body obligation at every point, by cases.
-/
import proofs.«165790_j9397388444314_1_alg».proof.Proof.KRegion0Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions over the grid, and the idle windows -/

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-! ## The scratch operands and the invariant's shape -/

abbrev scM0 : Memref sig .tc .vmem S1x1024 .f32 := Memref.whole cc0_scratch0
abbrev scM1 : Memref sig .tc .vmem S1x1024 .f32 := Memref.whole cc0_scratch1

/-- The scoped buffers that are neither a staging buffer of this region nor one of its two scratches, each at
    some contents: the second region's staging buffers. -/
def restScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class's invariant with the two scratch operands as memrefs owned at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d) ∗ restScoped0 c) ∗ (∃ r, prngReg c r)) := by
  unfold Pipeline.ΦA restScoped0; rw [scopedRest0_eq]; simp only [scM0, scM1, owns_whole]; try rfl

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The accumulators, point by point -/

/-- One point's step of the two accumulators from what they held: this tile's column sums added. -/
def stepAcc (c : Dev nD) (t : Fin cfg0.N) (p : Vec F S1x1024 .f32 × Vec F S1x1024 .f32) : Vec F S1x1024 .f32 × Vec F S1x1024 .f32 :=
  (accKV (iblk0 V c 0 t) (iblk0 V c 3 t) (iblk0 V c 4 t) (iblk0 V c 5 t) (iblk0 V c 6 t) p.1, accKs (iblk0 V c 0 t) (iblk0 V c 3 t) (iblk0 V c 4 t) p.2)

/-- What the two scratch buffers hold after the point at position `n`: at the first tile of a batch the step from
    zero rows, otherwise the step from what the point before left. -/
def accAt (c : Dev nD) : (n : ℕ) → n < cfg0.N → Vec F S1x1024 .f32 × Vec F S1x1024 .f32
  | 0, hn => stepAcc V c ⟨0, hn⟩ (k0_pay7 (F := F), k0_pay8 (F := F))
  | n + 1, hn =>
    if (n + 1) % 8 = 0 then stepAcc V c ⟨n + 1, hn⟩ (k0_pay7 (F := F), k0_pay8 (F := F))
    else stepAcc V c ⟨n + 1, hn⟩ (accAt c n (Nat.lt_of_succ_lt hn))

theorem accAt_first (c : Dev nD) (t : Fin cfg0.N) (h0 : t.val % 8 = 0) :
    accAt V c t.val t.isLt = stepAcc V c t (k0_pay7 (F := F), k0_pay8 (F := F)) := by
  obtain ⟨n, hn⟩ := t
  cases n with
  | zero => rfl
  | succ n => exact if_pos h0

theorem accAt_next (c : Dev nD) (t : Fin cfg0.N) (h0 : ¬t.val % 8 = 0) :
    accAt V c t.val t.isLt = stepAcc V c t (accAt V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: before the first point the class's (every scratch at anything);
    afterwards the two scratches at what the point before left in them, the other scoped buffers at anything, the
    generator register at some state. -/
def Phi0 (c : Dev nD) : (n : ℕ) → n ≤ cfg0.N → sProp 𝕄
  | 0, _ => Pipeline.ΦA spec0 c
  | n + 1, hn => iprop((owns (c : Thread nD τ) scM0 fullShare (accAt V c n hn).1 ∗ owns (c : Thread nD τ) scM1 fullShare (accAt V c n hn).2 ∗ restScoped0 c) ∗ (∃ r, prngReg c r))

theorem Phi0_zero' (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) scM0 fullShare (accAt V c n hn).1 ∗ owns (c : Thread nD τ) scM1 fullShare (accAt V c n hn).2 ∗ restScoped0 c) ∗ (∃ r, prngReg c r)) := rfl
theorem Phi0_pos (c : Dev nD) (n : ℕ) (h : n ≤ cfg0.N) (hz : n ≠ 0) :
    Phi0 V c n h = iprop((owns (c : Thread nD τ) scM0 fullShare (accAt V c (n - 1) (by omega)).1 ∗ owns (c : Thread nD τ) scM1 fullShare (accAt V c (n - 1) (by omega)).2 ∗ restScoped0 c) ∗ (∃ r, prngReg c r)) := by
  cases n with
  | zero => exact absurd rfl hz
  | succ n => rfl

/-! ## The proof data -/

/-- The proof data of this pipeline on core `c`: the arrays as the region finds them; after the body at point
    `t` each input's buffer at its block, the query tile's at `outQ` of the point's blocks, the two small results'
    at the accumulators after the point (read only where the window is live: the last tiles); the invariant
    `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outQ (iblk0 V c 0 t) (iblk0 V c 1 t) (iblk0 V c 2 t)
    | ⟨8, _⟩ => k0_pay5 (accAt V c t.val t.isLt).1
    | ⟨9, _⟩ => k0_pay6 (accAt V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = outQ (iblk0 V c 0 t) (iblk0 V c 1 t) (iblk0 V c 2 t) := by dsimp only [dat0]
theorem after0_8 (c : Dev nD) (t : Fin cfg0.N) : (dat0 V c).after 8 t = k0_pay5 (accAt V c t.val t.isLt).1 := by dsimp only [dat0]
theorem after0_9 (c : Dev nD) (t : Fin cfg0.N) : (dat0 V c).after 9 t = k0_pay6 (accAt V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 4000000 in
/-- The body at any point: the inputs' memrefs hold their blocks; the closed forms say which case the point is in;
    the invariant hands the body the two scratches at what the point before left (at anything before the first point)
    and takes them back at this point's accumulators; the two small results' buffers are handed back untouched at the
    points where their windows are idle. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t]]
  rw [show (dat0 V c).leavesExact 1 t = owns (c : Thread nD τ) (st0_1 t) fullShare ((dat0 V c).after 1 t) from by
    unfold Dat.leavesExact; rw [liveAt0_1 t]]
  rw [show (dat0 V c).leavesExact 2 t = owns (c : Thread nD τ) (st0_2 t) fullShare ((dat0 V c).after 2 t) from by
    unfold Dat.leavesExact; rw [liveAt0_2 t]]
  rw [show (dat0 V c).leavesExact 3 t = owns (c : Thread nD τ) (st0_3 t) fullShare ((dat0 V c).after 3 t) from by
    unfold Dat.leavesExact; rw [liveAt0_3 t]]
  rw [show (dat0 V c).leavesExact 4 t = owns (c : Thread nD τ) (st0_4 t) fullShare ((dat0 V c).after 4 t) from by
    unfold Dat.leavesExact; rw [liveAt0_4 t]]
  rw [show (dat0 V c).leavesExact 5 t = owns (c : Thread nD τ) (st0_5 t) fullShare ((dat0 V c).after 5 t) from by
    unfold Dat.leavesExact; rw [liveAt0_5 t]]
  rw [show (dat0 V c).leavesExact 6 t = owns (c : Thread nD τ) (st0_6 t) fullShare ((dat0 V c).after 6 t) from by
    unfold Dat.leavesExact; rw [liveAt0_6 t]]
  rw [show (dat0 V c).leavesExact 7 t = owns (c : Thread nD τ) (st0_7 t) fullShare ((dat0 V c).after 7 t) from by
    unfold Dat.leavesExact; rw [liveAt0_7 t]]
  rw [after0_0, after0_1, after0_2, after0_3, after0_4, after0_5, after0_6, after0_7]
  have hN : t.val < 64 := lt_of_lt_of_eq t.isLt (show cfg0.N = 64 from N_0)
  by_cases h0 : t.val % 8 = 0
  · -- a first tile: the accumulators restart
    have hc0 : cond0_0 (grid0.coords t) := (hcond0_0 t).mpr h0
    have hc1 : ¬cond0_1 (grid0.coords t) := fun h => by have := (hcond0_1 t).mp h; omega
    rw [Dat.leavesExact_idle (dat0 V c) 8 t (idleAt0_8 t hc1) (noFlush0_8 t hc1),
      Dat.leavesExact_idle (dat0 V c) 9 t (idleAt0_9 t hc1) (noFlush0_9 t hc1)]
    rw [accAt_first V c t h0]; unfold stepAcc; dsimp only
    have hΦ : (dat0 V c).Φ t.castSucc ⊢ iprop(((∃ d, owns (c : Thread nD τ) scM0 fullShare d) ∗ (∃ d, owns (c : Thread nD τ) scM1 fullShare d) ∗ restScoped0 c) ∗ (∃ r, prngReg c r)) := by
      rw [Phi0_castSucc V c t]
      by_cases hz : t.val = 0
      · rw [Phi0_zero' V c _ _ hz, PhiA0_eq]
      · rw [Phi0_pos V c _ _ hz]
        iintro ⟨⟨HS0, HS1, HR⟩, Hg⟩
        isplitr [Hg]
        · isplitl [HS0]; · iexists _; iexact HS0
          isplitl [HS1]; · iexists _; iexact HS1
          iexact HR
        iexact Hg
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HΦ' := hΦ $$ HΦ
    icases HΦ' with ⟨⟨HS0, HS1, HR⟩, Hg⟩
    iapply (sound_kernel0_A c Set.univ (grid0.coords t) _ _ _ _ _ _ _ _ _ _ _ _ _ _ _ _ _ _ _ _ scM0 (Memref.isWhole_whole _) scM1 (Memref.isWhole_whole _) hc0 hc1
      (iblk0 V c 0 t) (iblk0 V c 1 t) (iblk0 V c 2 t) (iblk0 V c 3 t) (iblk0 V c 4 t) (iblk0 V c 5 t) (iblk0 V c 6 t) ((dat0 V c).before 8 t d8) ((dat0 V c).before 9 t d9) (k0_pay7 (F := F)) (k0_pay8 (F := F)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 HR Hg]
    · isplitr [Hg]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · have hz : t.val ≠ 0 := fun h => h0 (by rw [h])
    have hc0 : ¬cond0_0 (grid0.coords t) := fun h => h0 ((hcond0_0 t).mp h)
    rw [accAt_next V c t h0]; unfold stepAcc; dsimp only
    rw [Phi0_castSucc V c t, Phi0_pos V c _ _ hz]
    by_cases h1 : t.val % 8 = 7
    · -- a last tile: the accumulators are copied out
      have hc1 : cond0_1 (grid0.coords t) := (hcond0_1 t).mpr h1
      rw [show (dat0 V c).leavesExact 8 t = owns (c : Thread nD τ) (st0_8 t) fullShare ((dat0 V c).after 8 t) from by
        unfold Dat.leavesExact; rw [liveAt0_8 t hc1]]
      rw [show (dat0 V c).leavesExact 9 t = owns (c : Thread nD τ) (st0_9 t) fullShare ((dat0 V c).after 9 t) from by
        unfold Dat.leavesExact; rw [liveAt0_9 t hc1]]
      rw [after0_8, after0_9, accAt_next V c t h0]; unfold stepAcc; dsimp only
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel0_C c Set.univ (grid0.coords t) _ _ _ _ _ _ _ _ _ _ _ _ _ _ _ _ _ _ _ _ scM0 (Memref.isWhole_whole _) scM1 (Memref.isWhole_whole _) hc0 hc1
        (iblk0 V c 0 t) (iblk0 V c 1 t) (iblk0 V c 2 t) (iblk0 V c 3 t) (iblk0 V c 4 t) (iblk0 V c 5 t) (iblk0 V c 6 t) ((dat0 V c).before 8 t d8) ((dat0 V c).before 9 t d9)
        (accAt V c (t.val - 1) (Nat.lt_of_le_of_lt (Nat.sub_le _ _) t.isLt)).1 (accAt V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle tile
      have hc1 : ¬cond0_1 (grid0.coords t) := fun h => h1 ((hcond0_1 t).mp h)
      rw [Dat.leavesExact_idle (dat0 V c) 8 t (idleAt0_8 t hc1) (noFlush0_8 t hc1),
        Dat.leavesExact_idle (dat0 V c) 9 t (idleAt0_9 t hc1) (noFlush0_9 t hc1)]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel0_B c Set.univ (grid0.coords t) _ _ _ _ _ _ _ _ _ _ _ _ _ _ _ _ _ _ _ _ scM0 (Memref.isWhole_whole _) scM1 (Memref.isWhole_whole _) hc0 hc1
        (iblk0 V c 0 t) (iblk0 V c 1 t) (iblk0 V c 2 t) (iblk0 V c 3 t) (iblk0 V c 4 t) (iblk0 V c 5 t) (iblk0 V c 6 t) ((dat0 V c).before 8 t d8) ((dat0 V c).before 9 t d9)
        (accAt V c (t.val - 1) (Nat.lt_of_le_of_lt (Nat.sub_le _ _) t.isLt)).1 (accAt V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the class's. -/
theorem Phi0_zero (c : Dev nD) : (dat0 V c).Φ 0 = Pipeline.ΦA spec0 c := rfl

/-- After the last point it gives the class's back: the scratches' named contents are forgotten. -/
theorem Phi0_last (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 64 := N_0; omega), PhiA0_eq]
  iintro ⟨⟨HS0, HS1, HR⟩, Hg⟩
  isplitr [Hg]
  · isplitl [HS0]; · iexists _; iexact HS0
    isplitl [HS1]; · iexists _; iexact HS1
    iexact HR
  iexact Hg

end Region0

end Cert.Kernel.Hand

end
-- ==== Proof.KRegion1.lean ====
/-
  The second kernel region (the output kernel) at the contents `V` the region is entered with.
  Its grid has 64 points (batch n, sequence tile s). At a point the body reads the whole blocks of its five
  inputs — the tile Q[n, 512 s .. 512 s + 511, ·] of the feature-mapped queries, the rows KV[n, ·] and Ks[n, ·],
  the output weights and the output bias — and stores ONE whole block of its result: the attention value
  (Q · KV) · (1 / (Q · Ks + ε)), projected by the weights plus the bias, through the tanh form of the
  Gaussian error linear unit. It keeps nothing between points and names no scratch.
  Here: each window's block at a point, what each input's staging buffer holds when the body runs (its block,
  fetched at that point or not), what the body leaves in the result's staging buffer as a function of the five
  blocks, the body's triple, and the obligation the pipeline rule asks of it at every point.
-/
import proofs.«165790_j9397388444314_1_alg».proof.Proof.Gen.Kernel.Launch
import proofs.«165790_j9397388444314_1_alg».proof.Proof.Gen.Kernel.Skeleton
import proofs.«165790_j9397388444314_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's current staging buffer holds its block at every point, whether the pipeline fetched it there
    or not (a block whose index did not move is still the one fetched earlier), for any proof data whose array
    is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! The body's accesses: each a whole buffer. -/
abbrev rA1 : Rect S1x512x1024 := Rect.unit (s := S1x512x1024) ![0, 0, 0] S1x512x1024.size inb_S1x512x1024_S1x512x1024_0_0_0
abbrev rB1 : Rect S1x1x1024 := Rect.unit (s := S1x1x1024) ![0, 0, 0] S1x1x1024.size inb_S1x1x1024_S1x1x1024_0_0_0
abbrev rW1 : Rect S1024x1024 := Rect.unit (s := S1024x1024) ![0, 0] S1024x1024.size inb_S1024x1024_S1024x1024_0_0
abbrev rV1 : Rect S1x1024 := Rect.unit (s := S1x1024) ![0, 0] S1x1024.size inb_S1x1024_S1x1024_0_0

/-- What the body leaves in the result's staging buffer, from the five input blocks: its one store. -/
def out1_5 (x0 : Vec F S1x512x1024 .f32) (x1 x2 : Vec F S1x1x1024 .f32) (x3 : Vec F S1024x1024 .bf16) (x4 : Vec F S1x1024 .f32) : Vec F S1x512x1024 .f32 :=
  View.canon [⟨rA1, k1_pay1 (k1_pay2 (View.ld x0 rA1) (View.ld x1 rB1) (View.ld x2 rB1) (View.ld x3 rW1) (View.ld x4 rV1))⟩]

/-- That store covers the buffer. -/
theorem cover1_5 (p0 : Vec F S1x512x1024 .f32) (y : S1x512x1024.Idx) :
    ∃ pc ∈ ([⟨rA1, p0⟩] : List (View.Piece (Elt F) S1x512x1024 .f32)), y ∈ pc.1.set :=
  View.cover_of_tiled [⟨rA1, p0⟩] S1x512x1024.size (by rfl) y

set_option maxHeartbeats 1000000 in
/-- The body on whole staging memrefs, the inputs' at read contents `x0 … x4` and the result's at anything, runs
    to its return leaving the inputs' as they were and the result's at `out1_5` of them. -/
theorem sound_kernel1 (c : Dev nD) (E : Set ℕ) (i : grid1.Coords)
    (arg2 : Memref sig .tc .vmem S1x512x1024 .f32) (harg2 : arg2.IsWhole) (arg3 : Memref sig .tc .vmem S1x1x1024 .f32) (harg3 : arg3.IsWhole)
    (arg4 : Memref sig .tc .vmem S1x1x1024 .f32) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x512x1024 .f32) (harg7 : arg7.IsWhole)
    (x0 : Vec F S1x512x1024 .f32) (x1 x2 : Vec F S1x1x1024 .f32) (x3 : Vec F S1024x1024 .bf16) (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__output_kernel i arg2 harg2 arg3 harg3 arg4 harg4 arg5 harg5 arg6 harg6 arg7 harg7) K := by
  simp only [cc1__output_kernel_eq_skeleton]; unfold cc1__output_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline on core `c`: the arrays as the region finds them; after the body at point
    `t` each input's buffer at its block and the result's at `out1_5` of the five blocks; the invariant the
    scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
/-
  The whole program's run, at any float instance: the entry function is eight host operations (four reshapes of
  the bias vectors to rows, four format changes of the weight matrices), the first kernel region and the second.
  The buffer contents at each boundary are a fold from the launch memory: after the host operations; after the
  first region (its arrays at what its write-backs leave, everything else as entered); after the second region.
  Every weakly fair execution from a memory with zero counters terminates, nothing faulting, and every final state
  holds every unscoped buffer at the last fold. Read at an argument array the fold walks back to the launch
  memory (no host operation and no region writes an argument); read at the result array it is what the second
  region's write-backs leave.
-/
import proofs.«165790_j9397388444314_1_alg».proof.Proof.KRegion0
import proofs.«165790_j9397388444314_1_alg».proof.Proof.KRegion1
import proofs.«165790_j9397388444314_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host operations: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### Each argument ends as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- The result array ends at what the second region's write-backs leave. -/
theorem W3_main_v9 (c : Dev nD) : W3 m ρ c (Proc.devRef .tc main_v9) = (dat1 (V2 m ρ) c).arrAt 5 cfg1.N :=
  W3_arr m ρ c 5

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state "every unscoped buffer at the boundary's contents, the generator register at
    some state, nothing owed": its arrays split out of the unscoped buffers on entry and put back at the exit
    contents; the generator register into the invariant and out; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0_zero (V1 m ρ) c]; unfold Pipeline.ΦA
    iintro ⟨Hp, -, Hr⟩
    isplitl [Hr]; · iexact Hr
    iexact Hp
  hout c := by
    rw [Pipeline.ownSems0_none]
    refine .trans (show (pdats m ρ 0 c).Φ (Fin.last _) ⊢ Pipeline.ΦA spec0 c from Phi0_last (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at
    some state, nothing owed": its arrays split out of the unscoped buffers on entry and put back at the exit
    contents; the generator register into the invariant and out; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine .trans (show (pdats m ρ 1 c).Φ (Fin.last _) ⊢ Pipeline.ΦA spec1 c from .rfl) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: every weakly fair execution terminates, nothing faulting, and every final state holds every unscoped
    buffer at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W3 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c b hb => h c _ (mem_uc b hb))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      (h c main_arg0 (by decide)).trans (W3_main_arg0 m ρ c), (h c main_arg1 (by decide)).trans (W3_main_arg1 m ρ c),
      (h c main_arg2 (by decide)).trans (W3_main_arg2 m ρ c), (h c main_arg3 (by decide)).trans (W3_main_arg3 m ρ c),
      (h c main_arg4 (by decide)).trans (W3_main_arg4 m ρ c), (h c main_arg5 (by decide)).trans (W3_main_arg5 m ρ c),
      (h c main_arg6 (by decide)).trans (W3_main_arg6 m ρ c), (h c main_arg7 (by decide)).trans (W3_main_arg7 m ρ c),
      (h c main_arg8 (by decide)).trans (W3_main_arg8 m ρ c)⟩) (run_all m ρ)

/-- THE RESULT: beside the frame, the result array ends at what the second region's write-backs leave. -/
theorem run_result : θ_run defs (onTc (τ := τ) (main (F := F))) ⟨m, fun _ => 0, ρ⟩ (fun r => ∀ c : Dev nD,
      r.2.mem ((c.tc : Thread nD τ).loc main_v9) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v9 (by decide)).trans (W3_main_v9 m ρ c),
      (h c main_arg0 (by decide)).trans (W3_main_arg0 m ρ c), (h c main_arg1 (by decide)).trans (W3_main_arg1 m ρ c),
      (h c main_arg2 (by decide)).trans (W3_main_arg2 m ρ c), (h c main_arg3 (by decide)).trans (W3_main_arg3 m ρ c),
      (h c main_arg4 (by decide)).trans (W3_main_arg4 m ρ c), (h c main_arg5 (by decide)).trans (W3_main_arg5 m ρ c),
      (h c main_arg6 (by decide)).trans (W3_main_arg6 m ρ c), (h c main_arg7 (by decide)).trans (W3_main_arg7 m ρ c),
      (h c main_arg8 (by decide)).trans (W3_main_arg8 m ρ c)⟩) (run_all m ρ)

end Cert.Kernel.Hand

end
-- ==== Proof.Region0Body.lean ====
/-
  The first kernel region's body (the statistics kernel) on whole staging memrefs, case by case.
  Its grid has 64 points (batch n, sequence tile s), eight tiles per batch. At a point the body projects its tile of
  x three ways (queries, keys, values: a matrix product into a zero accumulator plus a bias row), applies the feature
  map φ(t) = t + 1 for t > 0 and exp t otherwise to the queries and the keys, stores the tile of φ(q), and adds to two
  row accumulators kept in scratch memory across the tiles of one batch: the column sums of φ(k) · v and of φ(k).
  At the first tile of a batch it zeroes both accumulators before adding; at the last tile it also copies them out
  to its two small results. So three cases, by the tile: first, middle, last.
  In each case: from the seven inputs' buffers at their read contents, the results' and scratches' as stated, the
  body runs to its return leaving the inputs as they were, the query tile at `outQ`, each accumulator at
  `accKV` / `accKs` of what it held (zero rows at a first tile), and at a last tile the two small results at the
  accumulators' new contents; at the other tiles the two small results' buffers are untouched.
-/
import proofs.«165790_j9397388444314_1_alg».proof.Proof.Gen.KernelIdeal.Launch
import proofs.«165790_j9397388444314_1_alg».proof.Proof.Gen.KernelIdeal.Skeleton
import proofs.«165790_j9397388444314_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body's two conditions, from the grid coordinates: the first sequence tile, the last sequence tile. -/
abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

/-! The body's accesses: each a whole buffer. -/
abbrev rA0 : Rect S1x512x1024 := Rect.unit (s := S1x512x1024) ![0, 0, 0] S1x512x1024.size inb_S1x512x1024_S1x512x1024_0_0_0
abbrev rB0 : Rect S1x1x1024 := Rect.unit (s := S1x1x1024) ![0, 0, 0] S1x1x1024.size inb_S1x1x1024_S1x1x1024_0_0_0
abbrev rW0 : Rect S1024x1024 := Rect.unit (s := S1024x1024) ![0, 0] S1024x1024.size inb_S1024x1024_S1024x1024_0_0
abbrev rV0 : Rect S1x1024 := Rect.unit (s := S1x1024) ![0, 0] S1x1024.size inb_S1x1024_S1x1024_0_0
theorem hz3 : (![0, 0, 0] : Fin 3 → Nat) = fun _ => 0 := by funext a; fin_cases a <;> rfl
theorem hz2 : (![0, 0] : Fin 2 → Nat) = fun _ => 0 := by funext a; fin_cases a <;> rfl

/-- The key sums' accumulator after a point: what it held plus this tile's column sums of φ(k) · v. -/
def accKV (x : Vec F S1x512x1024 .f32) (wk : Vec F S1024x1024 .bf16) (bk : Vec F S1x1024 .f32) (wv : Vec F S1024x1024 .bf16) (bv : Vec F S1x1024 .f32)
    (prev : Vec F S1x1024 .f32) : Vec F S1x1024 .f32 :=
  k0_pay2 (k0_pay10 x wk bk) (k0_pay11 x wv bv) (k0_pay13 (F := F)) prev
/-- The normaliser's accumulator after a point: what it held plus this tile's column sums of φ(k). -/
def accKs (x : Vec F S1x512x1024 .f32) (wk : Vec F S1024x1024 .bf16) (bk : Vec F S1x1024 .f32) (prev : Vec F S1x1024 .f32) : Vec F S1x1024 .f32 :=
  k0_pay3 (k0_pay10 x wk bk) (k0_pay13 (F := F)) prev
/-- The tile of feature-mapped queries the body stores. -/
def outQ (x : Vec F S1x512x1024 .f32) (wq : Vec F S1024x1024 .bf16) (bq : Vec F S1x1024 .f32) : Vec F S1x512x1024 .f32 :=
  k0_pay4 (k0_pay12 x wq bq)

/-- One whole-buffer store covers its buffer; so does a list that ends with one (the last store is listed first). -/
theorem coverA0 (p : Vec F S1x512x1024 .f32) (y : S1x512x1024.Idx) :
    ∃ pc ∈ ([⟨rA0, p⟩] : List (View.Piece (Elt F) S1x512x1024 .f32)), y ∈ pc.1.set :=
  ⟨_, List.mem_singleton_self _, View.mem_set_unit_zero hz3 inb_S1x512x1024_S1x512x1024_0_0_0 y⟩
theorem coverB0 (p : Vec F S1x1x1024 .f32) (y : S1x1x1024.Idx) :
    ∃ pc ∈ ([⟨rB0, p⟩] : List (View.Piece (Elt F) S1x1x1024 .f32)), y ∈ pc.1.set :=
  ⟨_, List.mem_singleton_self _, View.mem_set_unit_zero hz3 inb_S1x1x1024_S1x1x1024_0_0_0 y⟩
theorem coverV0 (p : Vec F S1x1024 .f32) (L : List (View.Piece (Elt F) S1x1024 .f32)) (y : S1x1024.Idx) :
    ∃ pc ∈ ((⟨rV0, p⟩ : View.Piece (Elt F) S1x1024 .f32) :: L), y ∈ pc.1.set :=
  ⟨_, List.mem_cons_self, View.mem_set_unit_zero hz2 inb_S1x1024_S1x1024_0_0 y⟩

set_option maxHeartbeats 4000000 in
theorem sound_kernel0_A (c : Dev nD) (E : Set ℕ) (i : grid0.Coords) (arg2 : Memref sig .tc .vmem S1x512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole)
    (hc0 : cond0_0 i) (hc1 : ¬cond0_1 i)
    (x : Vec F S1x512x1024 .f32) (wq : Vec F S1024x1024 .bf16) (bq : Vec F S1x1024 .f32) (wk : Vec F S1024x1024 .bf16) (bk : Vec F S1x1024 .f32)
    (wv : Vec F S1024x1024 .bf16) (bv : Vec F S1x1024 .f32) (y10 y11 : Vec F S1x1x1024 .f32) (p0 p1 : Vec F S1x1024 .f32) (K : PUnit → sProp 𝕄) :
    iprop(owns (c : Thread nD τ) arg2 fullShare x ∗ owns (c : Thread nD τ) arg3 fullShare wq ∗ owns (c : Thread nD τ) arg4 fullShare bq
        ∗ owns (c : Thread nD τ) arg5 fullShare wk ∗ owns (c : Thread nD τ) arg6 fullShare bk ∗ owns (c : Thread nD τ) arg7 fullShare wv ∗ owns (c : Thread nD τ) arg8 fullShare bv
        ∗ (∃ d, owns (c : Thread nD τ) arg9 fullShare d) ∗ owns (c : Thread nD τ) arg10 fullShare y10 ∗ owns (c : Thread nD τ) arg11 fullShare y11 ∗ (∃ d, owns (c : Thread nD τ) arg12 fullShare d) ∗ (∃ d, owns (c : Thread nD τ) arg13 fullShare d)
        ∗ (iprop(owns (c : Thread nD τ) arg2 fullShare x ∗ owns (c : Thread nD τ) arg3 fullShare wq ∗ owns (c : Thread nD τ) arg4 fullShare bq
        ∗ owns (c : Thread nD τ) arg5 fullShare wk ∗ owns (c : Thread nD τ) arg6 fullShare bk ∗ owns (c : Thread nD τ) arg7 fullShare wv ∗ owns (c : Thread nD τ) arg8 fullShare bv
            ∗ owns (c : Thread nD τ) arg9 fullShare (outQ x wq bq) ∗ owns (c : Thread nD τ) arg10 fullShare y10 ∗ owns (c : Thread nD τ) arg11 fullShare y11 ∗ owns (c : Thread nD τ) arg12 fullShare (accKV x wk bk wv bv (k0_pay7 (F := F))) ∗ owns (c : Thread nD τ) arg13 fullShare (accKs x wk bk (k0_pay8 (F := F)))) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12 arg13 harg13) K := by
  simp only [cc0__stats_kernel_eq_skeleton]; unfold cc0__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%f10, %hf10, H10⟩, ⟨%f11, %hf11, H11⟩, ⟨%d12, %f12, -, H12⟩, ⟨%d13, %f13, -, H13⟩, Hk⟩
  subst hf2; subst hf3; subst hf4; subst hf5; subst hf6; subst hf7; subst hf8; subst hf10; subst hf11
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try sl_unfold_run_names
    rw [View.read_writes_eq_canon _ _ _ (coverA0 _), View.canon_unit_zero hz3]
    unfold outQ
    try sl_unfold_run_names
    simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try sl_unfold_run_names
    rw [View.read_writes_eq_canon _ _ _ (coverV0 _ _), View.canon_cons_unit_zero hz2]
    unfold accKV
    try sl_unfold_run_names
    simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]
  iexists _; isplitr
  swap; · iexact H13
  ipureintro
  try sl_unfold_run_names
  rw [View.read_writes_eq_canon _ _ _ (coverV0 _ _), View.canon_cons_unit_zero hz2]
  unfold accKs
  try sl_unfold_run_names
  simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]

set_option maxHeartbeats 4000000 in
theorem sound_kernel0_B (c : Dev nD) (E : Set ℕ) (i : grid0.Coords) (arg2 : Memref sig .tc .vmem S1x512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole)
    (hc0 : ¬cond0_0 i) (hc1 : ¬cond0_1 i)
    (x : Vec F S1x512x1024 .f32) (wq : Vec F S1024x1024 .bf16) (bq : Vec F S1x1024 .f32) (wk : Vec F S1024x1024 .bf16) (bk : Vec F S1x1024 .f32)
    (wv : Vec F S1024x1024 .bf16) (bv : Vec F S1x1024 .f32) (y10 y11 : Vec F S1x1x1024 .f32) (p0 p1 : Vec F S1x1024 .f32) (K : PUnit → sProp 𝕄) :
    iprop(owns (c : Thread nD τ) arg2 fullShare x ∗ owns (c : Thread nD τ) arg3 fullShare wq ∗ owns (c : Thread nD τ) arg4 fullShare bq
        ∗ owns (c : Thread nD τ) arg5 fullShare wk ∗ owns (c : Thread nD τ) arg6 fullShare bk ∗ owns (c : Thread nD τ) arg7 fullShare wv ∗ owns (c : Thread nD τ) arg8 fullShare bv
        ∗ (∃ d, owns (c : Thread nD τ) arg9 fullShare d) ∗ owns (c : Thread nD τ) arg10 fullShare y10 ∗ owns (c : Thread nD τ) arg11 fullShare y11 ∗ owns (c : Thread nD τ) arg12 fullShare p0 ∗ owns (c : Thread nD τ) arg13 fullShare p1
        ∗ (iprop(owns (c : Thread nD τ) arg2 fullShare x ∗ owns (c : Thread nD τ) arg3 fullShare wq ∗ owns (c : Thread nD τ) arg4 fullShare bq
        ∗ owns (c : Thread nD τ) arg5 fullShare wk ∗ owns (c : Thread nD τ) arg6 fullShare bk ∗ owns (c : Thread nD τ) arg7 fullShare wv ∗ owns (c : Thread nD τ) arg8 fullShare bv
            ∗ owns (c : Thread nD τ) arg9 fullShare (outQ x wq bq) ∗ owns (c : Thread nD τ) arg10 fullShare y10 ∗ owns (c : Thread nD τ) arg11 fullShare y11 ∗ owns (c : Thread nD τ) arg12 fullShare (accKV x wk bk wv bv p0) ∗ owns (c : Thread nD τ) arg13 fullShare (accKs x wk bk p1)) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12 arg13 harg13) K := by
  simp only [cc0__stats_kernel_eq_skeleton]; unfold cc0__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%f10, %hf10, H10⟩, ⟨%f11, %hf11, H11⟩, ⟨%f12, %hf12, H12⟩, ⟨%f13, %hf13, H13⟩, Hk⟩
  subst hf2; subst hf3; subst hf4; subst hf5; subst hf6; subst hf7; subst hf8; subst hf10; subst hf11; subst hf12; subst hf13
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try sl_unfold_run_names
    rw [View.read_writes_eq_canon _ _ _ (coverA0 _), View.canon_unit_zero hz3]
    unfold outQ
    try sl_unfold_run_names
    simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try sl_unfold_run_names
    rw [View.read_writes_eq_canon _ _ _ (coverV0 _ _), View.canon_cons_unit_zero hz2]
    unfold accKV
    try sl_unfold_run_names
    simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]
  iexists _; isplitr
  swap; · iexact H13
  ipureintro
  try sl_unfold_run_names
  rw [View.read_writes_eq_canon _ _ _ (coverV0 _ _), View.canon_cons_unit_zero hz2]
  unfold accKs
  try sl_unfold_run_names
  simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]

set_option maxHeartbeats 4000000 in
theorem sound_kernel0_C (c : Dev nD) (E : Set ℕ) (i : grid0.Coords) (arg2 : Memref sig .tc .vmem S1x512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole)
    (hc0 : ¬cond0_0 i) (hc1 : cond0_1 i)
    (x : Vec F S1x512x1024 .f32) (wq : Vec F S1024x1024 .bf16) (bq : Vec F S1x1024 .f32) (wk : Vec F S1024x1024 .bf16) (bk : Vec F S1x1024 .f32)
    (wv : Vec F S1024x1024 .bf16) (bv : Vec F S1x1024 .f32) (y10 y11 : Vec F S1x1x1024 .f32) (p0 p1 : Vec F S1x1024 .f32) (K : PUnit → sProp 𝕄) :
    iprop(owns (c : Thread nD τ) arg2 fullShare x ∗ owns (c : Thread nD τ) arg3 fullShare wq ∗ owns (c : Thread nD τ) arg4 fullShare bq
        ∗ owns (c : Thread nD τ) arg5 fullShare wk ∗ owns (c : Thread nD τ) arg6 fullShare bk ∗ owns (c : Thread nD τ) arg7 fullShare wv ∗ owns (c : Thread nD τ) arg8 fullShare bv
        ∗ (∃ d, owns (c : Thread nD τ) arg9 fullShare d) ∗ (∃ d, owns (c : Thread nD τ) arg10 fullShare d) ∗ (∃ d, owns (c : Thread nD τ) arg11 fullShare d) ∗ owns (c : Thread nD τ) arg12 fullShare p0 ∗ owns (c : Thread nD τ) arg13 fullShare p1
        ∗ (iprop(owns (c : Thread nD τ) arg2 fullShare x ∗ owns (c : Thread nD τ) arg3 fullShare wq ∗ owns (c : Thread nD τ) arg4 fullShare bq
        ∗ owns (c : Thread nD τ) arg5 fullShare wk ∗ owns (c : Thread nD τ) arg6 fullShare bk ∗ owns (c : Thread nD τ) arg7 fullShare wv ∗ owns (c : Thread nD τ) arg8 fullShare bv
            ∗ owns (c : Thread nD τ) arg9 fullShare (outQ x wq bq) ∗ owns (c : Thread nD τ) arg10 fullShare (k0_pay5 (accKV x wk bk wv bv p0)) ∗ owns (c : Thread nD τ) arg11 fullShare (k0_pay6 (accKs x wk bk p1)) ∗ owns (c : Thread nD τ) arg12 fullShare (accKV x wk bk wv bv p0) ∗ owns (c : Thread nD τ) arg13 fullShare (accKs x wk bk p1)) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12 arg13 harg13) K := by
  simp only [cc0__stats_kernel_eq_skeleton]; unfold cc0__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%d10, %f10, -, H10⟩, ⟨%d11, %f11, -, H11⟩, ⟨%f12, %hf12, H12⟩, ⟨%f13, %hf13, H13⟩, Hk⟩
  subst hf2; subst hf3; subst hf4; subst hf5; subst hf6; subst hf7; subst hf8; subst hf12; subst hf13
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try sl_unfold_run_names
    rw [View.read_writes_eq_canon _ _ _ (coverA0 _), View.canon_unit_zero hz3]
    unfold outQ
    try sl_unfold_run_names
    simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]
  isplitl [H10]
  · iexists _; isplitr
    swap; · iexact H10
    ipureintro
    try sl_unfold_run_names
    rw [View.read_writes_eq_canon _ _ _ (coverB0 _), View.canon_unit_zero hz3]
    unfold accKV
    try sl_unfold_run_names
    simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]
  isplitl [H11]
  · iexists _; isplitr
    swap; · iexact H11
    ipureintro
    try sl_unfold_run_names
    rw [View.read_writes_eq_canon _ _ _ (coverB0 _), View.canon_unit_zero hz3]
    unfold accKs
    try sl_unfold_run_names
    simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]
  isplitl [H12]
  · iexists _; isplitr
    swap; · iexact H12
    ipureintro
    try sl_unfold_run_names
    rw [View.read_writes_eq_canon _ _ _ (coverV0 _ _), View.canon_cons_unit_zero hz2]
    unfold accKV
    try sl_unfold_run_names
    simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]
  iexists _; isplitr
  swap; · iexact H13
  ipureintro
  try sl_unfold_run_names
  rw [View.read_writes_eq_canon _ _ _ (coverV0 _ _), View.canon_cons_unit_zero hz2]
  unfold accKs
  try sl_unfold_run_names
  simp only [View.readAt_eq_ld, View.ld_unit_zero (S := S1x512x1024) hz3, View.ld_unit_zero (S := S1024x1024) hz2, View.ld_unit_zero (S := S1x1024) hz2, View.ld_unit_zero (S := S1x1x1024) hz3, View.readCov_unit_zero (S := S1x1024) _ hz2]

end Cert.KernelIdeal.Hand

end
-- ==== Proof.Region0.lean ====
/-
  The first kernel region (the statistics kernel) at the contents `V` the region is entered with: each window's
  block at a point; what each input's staging buffer holds when the body runs (its block, fetched there or not);
  the two conditions of the body in closed form over the grid (first tile of a batch: position ≡ 0 mod 8; last
  tile: ≡ 7 mod 8) and where the two small results' windows are idle (everywhere but the last tiles, where they are
  written back); the two accumulators after each point, by recursion on the point — restarted from zero rows at
  each first tile, otherwise continued from the point before; the region's invariant, which after a point holds the
  two scratch buffers at those accumulators; the proof data; and the body obligation at every point, by cases.
-/
import proofs.«165790_j9397388444314_1_alg».proof.Proof.Region0Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions over the grid, and the idle windows -/

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-! ## The scratch operands and the invariant's shape -/

abbrev scM0 : Memref sig .tc .vmem S1x1024 .f32 := Memref.whole cc0_scratch0
abbrev scM1 : Memref sig .tc .vmem S1x1024 .f32 := Memref.whole cc0_scratch1

/-- The scoped buffers that are neither a staging buffer of this region nor one of its two scratches, each at
    some contents: the second region's staging buffers. -/
def restScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class's invariant with the two scratch operands as memrefs owned at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d) ∗ restScoped0 c) ∗ (∃ r, prngReg c r)) := by
  unfold Pipeline.ΦA restScoped0; rw [scopedRest0_eq]; simp only [scM0, scM1, owns_whole]; try rfl

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The accumulators, point by point -/

/-- One point's step of the two accumulators from what they held: this tile's column sums added. -/
def stepAcc (c : Dev nD) (t : Fin cfg0.N) (p : Vec F S1x1024 .f32 × Vec F S1x1024 .f32) : Vec F S1x1024 .f32 × Vec F S1x1024 .f32 :=
  (accKV (iblk0 V c 0 t) (iblk0 V c 3 t) (iblk0 V c 4 t) (iblk0 V c 5 t) (iblk0 V c 6 t) p.1, accKs (iblk0 V c 0 t) (iblk0 V c 3 t) (iblk0 V c 4 t) p.2)

/-- What the two scratch buffers hold after the point at position `n`: at the first tile of a batch the step from
    zero rows, otherwise the step from what the point before left. -/
def accAt (c : Dev nD) : (n : ℕ) → n < cfg0.N → Vec F S1x1024 .f32 × Vec F S1x1024 .f32
  | 0, hn => stepAcc V c ⟨0, hn⟩ (k0_pay7 (F := F), k0_pay8 (F := F))
  | n + 1, hn =>
    if (n + 1) % 8 = 0 then stepAcc V c ⟨n + 1, hn⟩ (k0_pay7 (F := F), k0_pay8 (F := F))
    else stepAcc V c ⟨n + 1, hn⟩ (accAt c n (Nat.lt_of_succ_lt hn))

theorem accAt_first (c : Dev nD) (t : Fin cfg0.N) (h0 : t.val % 8 = 0) :
    accAt V c t.val t.isLt = stepAcc V c t (k0_pay7 (F := F), k0_pay8 (F := F)) := by
  obtain ⟨n, hn⟩ := t
  cases n with
  | zero => rfl
  | succ n => exact if_pos h0

theorem accAt_next (c : Dev nD) (t : Fin cfg0.N) (h0 : ¬t.val % 8 = 0) :
    accAt V c t.val t.isLt = stepAcc V c t (accAt V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: before the first point the class's (every scratch at anything);
    afterwards the two scratches at what the point before left in them, the other scoped buffers at anything, the
    generator register at some state. -/
def Phi0 (c : Dev nD) : (n : ℕ) → n ≤ cfg0.N → sProp 𝕄
  | 0, _ => Pipeline.ΦA spec0 c
  | n + 1, hn => iprop((owns (c : Thread nD τ) scM0 fullShare (accAt V c n hn).1 ∗ owns (c : Thread nD τ) scM1 fullShare (accAt V c n hn).2 ∗ restScoped0 c) ∗ (∃ r, prngReg c r))

theorem Phi0_zero' (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) scM0 fullShare (accAt V c n hn).1 ∗ owns (c : Thread nD τ) scM1 fullShare (accAt V c n hn).2 ∗ restScoped0 c) ∗ (∃ r, prngReg c r)) := rfl
theorem Phi0_pos (c : Dev nD) (n : ℕ) (h : n ≤ cfg0.N) (hz : n ≠ 0) :
    Phi0 V c n h = iprop((owns (c : Thread nD τ) scM0 fullShare (accAt V c (n - 1) (by omega)).1 ∗ owns (c : Thread nD τ) scM1 fullShare (accAt V c (n - 1) (by omega)).2 ∗ restScoped0 c) ∗ (∃ r, prngReg c r)) := by
  cases n with
  | zero => exact absurd rfl hz
  | succ n => rfl

/-! ## The proof data -/

/-- The proof data of this pipeline on core `c`: the arrays as the region finds them; after the body at point
    `t` each input's buffer at its block, the query tile's at `outQ` of the point's blocks, the two small results'
    at the accumulators after the point (read only where the window is live: the last tiles); the invariant
    `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outQ (iblk0 V c 0 t) (iblk0 V c 1 t) (iblk0 V c 2 t)
    | ⟨8, _⟩ => k0_pay5 (accAt V c t.val t.isLt).1
    | ⟨9, _⟩ => k0_pay6 (accAt V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = outQ (iblk0 V c 0 t) (iblk0 V c 1 t) (iblk0 V c 2 t) := by dsimp only [dat0]
theorem after0_8 (c : Dev nD) (t : Fin cfg0.N) : (dat0 V c).after 8 t = k0_pay5 (accAt V c t.val t.isLt).1 := by dsimp only [dat0]
theorem after0_9 (c : Dev nD) (t : Fin cfg0.N) : (dat0 V c).after 9 t = k0_pay6 (accAt V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 4000000 in
/-- The body at any point: the inputs' memrefs hold their blocks; the closed forms say which case the point is in;
    the invariant hands the body the two scratches at what the point before left (at anything before the first point)
    and takes them back at this point's accumulators; the two small results' buffers are handed back untouched at the
    points where their windows are idle. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t]]
  rw [show (dat0 V c).leavesExact 1 t = owns (c : Thread nD τ) (st0_1 t) fullShare ((dat0 V c).after 1 t) from by
    unfold Dat.leavesExact; rw [liveAt0_1 t]]
  rw [show (dat0 V c).leavesExact 2 t = owns (c : Thread nD τ) (st0_2 t) fullShare ((dat0 V c).after 2 t) from by
    unfold Dat.leavesExact; rw [liveAt0_2 t]]
  rw [show (dat0 V c).leavesExact 3 t = owns (c : Thread nD τ) (st0_3 t) fullShare ((dat0 V c).after 3 t) from by
    unfold Dat.leavesExact; rw [liveAt0_3 t]]
  rw [show (dat0 V c).leavesExact 4 t = owns (c : Thread nD τ) (st0_4 t) fullShare ((dat0 V c).after 4 t) from by
    unfold Dat.leavesExact; rw [liveAt0_4 t]]
  rw [show (dat0 V c).leavesExact 5 t = owns (c : Thread nD τ) (st0_5 t) fullShare ((dat0 V c).after 5 t) from by
    unfold Dat.leavesExact; rw [liveAt0_5 t]]
  rw [show (dat0 V c).leavesExact 6 t = owns (c : Thread nD τ) (st0_6 t) fullShare ((dat0 V c).after 6 t) from by
    unfold Dat.leavesExact; rw [liveAt0_6 t]]
  rw [show (dat0 V c).leavesExact 7 t = owns (c : Thread nD τ) (st0_7 t) fullShare ((dat0 V c).after 7 t) from by
    unfold Dat.leavesExact; rw [liveAt0_7 t]]
  rw [after0_0, after0_1, after0_2, after0_3, after0_4, after0_5, after0_6, after0_7]
  have hN : t.val < 64 := lt_of_lt_of_eq t.isLt (show cfg0.N = 64 from N_0)
  by_cases h0 : t.val % 8 = 0
  · -- a first tile: the accumulators restart
    have hc0 : cond0_0 (grid0.coords t) := (hcond0_0 t).mpr h0
    have hc1 : ¬cond0_1 (grid0.coords t) := fun h => by have := (hcond0_1 t).mp h; omega
    rw [Dat.leavesExact_idle (dat0 V c) 8 t (idleAt0_8 t hc1) (noFlush0_8 t hc1),
      Dat.leavesExact_idle (dat0 V c) 9 t (idleAt0_9 t hc1) (noFlush0_9 t hc1)]
    rw [accAt_first V c t h0]; unfold stepAcc; dsimp only
    have hΦ : (dat0 V c).Φ t.castSucc ⊢ iprop(((∃ d, owns (c : Thread nD τ) scM0 fullShare d) ∗ (∃ d, owns (c : Thread nD τ) scM1 fullShare d) ∗ restScoped0 c) ∗ (∃ r, prngReg c r)) := by
      rw [Phi0_castSucc V c t]
      by_cases hz : t.val = 0
      · rw [Phi0_zero' V c _ _ hz, PhiA0_eq]
      · rw [Phi0_pos V c _ _ hz]
        iintro ⟨⟨HS0, HS1, HR⟩, Hg⟩
        isplitr [Hg]
        · isplitl [HS0]; · iexists _; iexact HS0
          isplitl [HS1]; · iexists _; iexact HS1
          iexact HR
        iexact Hg
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HΦ' := hΦ $$ HΦ
    icases HΦ' with ⟨⟨HS0, HS1, HR⟩, Hg⟩
    iapply (sound_kernel0_A c Set.univ (grid0.coords t) _ _ _ _ _ _ _ _ _ _ _ _ _ _ _ _ _ _ _ _ scM0 (Memref.isWhole_whole _) scM1 (Memref.isWhole_whole _) hc0 hc1
      (iblk0 V c 0 t) (iblk0 V c 1 t) (iblk0 V c 2 t) (iblk0 V c 3 t) (iblk0 V c 4 t) (iblk0 V c 5 t) (iblk0 V c 6 t) ((dat0 V c).before 8 t d8) ((dat0 V c).before 9 t d9) (k0_pay7 (F := F)) (k0_pay8 (F := F)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 HR Hg]
    · isplitr [Hg]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · have hz : t.val ≠ 0 := fun h => h0 (by rw [h])
    have hc0 : ¬cond0_0 (grid0.coords t) := fun h => h0 ((hcond0_0 t).mp h)
    rw [accAt_next V c t h0]; unfold stepAcc; dsimp only
    rw [Phi0_castSucc V c t, Phi0_pos V c _ _ hz]
    by_cases h1 : t.val % 8 = 7
    · -- a last tile: the accumulators are copied out
      have hc1 : cond0_1 (grid0.coords t) := (hcond0_1 t).mpr h1
      rw [show (dat0 V c).leavesExact 8 t = owns (c : Thread nD τ) (st0_8 t) fullShare ((dat0 V c).after 8 t) from by
        unfold Dat.leavesExact; rw [liveAt0_8 t hc1]]
      rw [show (dat0 V c).leavesExact 9 t = owns (c : Thread nD τ) (st0_9 t) fullShare ((dat0 V c).after 9 t) from by
        unfold Dat.leavesExact; rw [liveAt0_9 t hc1]]
      rw [after0_8, after0_9, accAt_next V c t h0]; unfold stepAcc; dsimp only
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel0_C c Set.univ (grid0.coords t) _ _ _ _ _ _ _ _ _ _ _ _ _ _ _ _ _ _ _ _ scM0 (Memref.isWhole_whole _) scM1 (Memref.isWhole_whole _) hc0 hc1
        (iblk0 V c 0 t) (iblk0 V c 1 t) (iblk0 V c 2 t) (iblk0 V c 3 t) (iblk0 V c 4 t) (iblk0 V c 5 t) (iblk0 V c 6 t) ((dat0 V c).before 8 t d8) ((dat0 V c).before 9 t d9)
        (accAt V c (t.val - 1) (Nat.lt_of_le_of_lt (Nat.sub_le _ _) t.isLt)).1 (accAt V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle tile
      have hc1 : ¬cond0_1 (grid0.coords t) := fun h => h1 ((hcond0_1 t).mp h)
      rw [Dat.leavesExact_idle (dat0 V c) 8 t (idleAt0_8 t hc1) (noFlush0_8 t hc1),
        Dat.leavesExact_idle (dat0 V c) 9 t (idleAt0_9 t hc1) (noFlush0_9 t hc1)]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel0_B c Set.univ (grid0.coords t) _ _ _ _ _ _ _ _ _ _ _ _ _ _ _ _ _ _ _ _ scM0 (Memref.isWhole_whole _) scM1 (Memref.isWhole_whole _) hc0 hc1
        (iblk0 V c 0 t) (iblk0 V c 1 t) (iblk0 V c 2 t) (iblk0 V c 3 t) (iblk0 V c 4 t) (iblk0 V c 5 t) (iblk0 V c 6 t) ((dat0 V c).before 8 t d8) ((dat0 V c).before 9 t d9)
        (accAt V c (t.val - 1) (Nat.lt_of_le_of_lt (Nat.sub_le _ _) t.isLt)).1 (accAt V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the class's. -/
theorem Phi0_zero (c : Dev nD) : (dat0 V c).Φ 0 = Pipeline.ΦA spec0 c := rfl

/-- After the last point it gives the class's back: the scratches' named contents are forgotten. -/
theorem Phi0_last (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 64 := N_0; omega), PhiA0_eq]
  iintro ⟨⟨HS0, HS1, HR⟩, Hg⟩
  isplitr [Hg]
  · isplitl [HS0]; · iexists _; iexact HS0
    isplitl [HS1]; · iexists _; iexact HS1
    iexact HR
  iexact Hg

end Region0

end Cert.KernelIdeal.Hand

end
-- ==== Proof.Region1.lean ====
/-
  The second kernel region (the output kernel) at the contents `V` the region is entered with.
  Its grid has 64 points (batch n, sequence tile s). At a point the body reads the whole blocks of its five
  inputs — the tile Q[n, 512 s .. 512 s + 511, ·] of the feature-mapped queries, the rows KV[n, ·] and Ks[n, ·],
  the output weights and the output bias — and stores ONE whole block of its result: the attention value
  (Q · KV) · (1 / (Q · Ks + ε)), projected by the weights plus the bias, through the tanh form of the
  Gaussian error linear unit. It keeps nothing between points and names no scratch.
  Here: each window's block at a point, what each input's staging buffer holds when the body runs (its block,
  fetched at that point or not), what the body leaves in the result's staging buffer as a function of the five
  blocks, the body's triple, and the obligation the pipeline rule asks of it at every point.
-/
import proofs.«165790_j9397388444314_1_alg».proof.Proof.Gen.KernelIdeal.Launch
import proofs.«165790_j9397388444314_1_alg».proof.Proof.Gen.KernelIdeal.Skeleton
import proofs.«165790_j9397388444314_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's current staging buffer holds its block at every point, whether the pipeline fetched it there
    or not (a block whose index did not move is still the one fetched earlier), for any proof data whose array
    is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! The body's accesses: each a whole buffer. -/
abbrev rA1 : Rect S1x512x1024 := Rect.unit (s := S1x512x1024) ![0, 0, 0] S1x512x1024.size inb_S1x512x1024_S1x512x1024_0_0_0
abbrev rB1 : Rect S1x1x1024 := Rect.unit (s := S1x1x1024) ![0, 0, 0] S1x1x1024.size inb_S1x1x1024_S1x1x1024_0_0_0
abbrev rW1 : Rect S1024x1024 := Rect.unit (s := S1024x1024) ![0, 0] S1024x1024.size inb_S1024x1024_S1024x1024_0_0
abbrev rV1 : Rect S1x1024 := Rect.unit (s := S1x1024) ![0, 0] S1x1024.size inb_S1x1024_S1x1024_0_0

/-- What the body leaves in the result's staging buffer, from the five input blocks: its one store. -/
def out1_5 (x0 : Vec F S1x512x1024 .f32) (x1 x2 : Vec F S1x1x1024 .f32) (x3 : Vec F S1024x1024 .bf16) (x4 : Vec F S1x1024 .f32) : Vec F S1x512x1024 .f32 :=
  View.canon [⟨rA1, k1_pay1 (k1_pay2 (View.ld x0 rA1) (View.ld x1 rB1) (View.ld x2 rB1) (View.ld x3 rW1) (View.ld x4 rV1))⟩]

/-- That store covers the buffer. -/
theorem cover1_5 (p0 : Vec F S1x512x1024 .f32) (y : S1x512x1024.Idx) :
    ∃ pc ∈ ([⟨rA1, p0⟩] : List (View.Piece (Elt F) S1x512x1024 .f32)), y ∈ pc.1.set :=
  View.cover_of_tiled [⟨rA1, p0⟩] S1x512x1024.size (by rfl) y

set_option maxHeartbeats 1000000 in
/-- The body on whole staging memrefs, the inputs' at read contents `x0 … x4` and the result's at anything, runs
    to its return leaving the inputs' as they were and the result's at `out1_5` of them. -/
theorem sound_kernel1 (c : Dev nD) (E : Set ℕ) (i : grid1.Coords)
    (arg2 : Memref sig .tc .vmem S1x512x1024 .f32) (harg2 : arg2.IsWhole) (arg3 : Memref sig .tc .vmem S1x1x1024 .f32) (harg3 : arg3.IsWhole)
    (arg4 : Memref sig .tc .vmem S1x1x1024 .f32) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x512x1024 .f32) (harg7 : arg7.IsWhole)
    (x0 : Vec F S1x512x1024 .f32) (x1 x2 : Vec F S1x1x1024 .f32) (x3 : Vec F S1024x1024 .bf16) (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__output_kernel i arg2 harg2 arg3 harg3 arg4 harg4 arg5 harg5 arg6 harg6 arg7 harg7) K := by
  simp only [cc1__output_kernel_eq_skeleton]; unfold cc1__output_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline on core `c`: the arrays as the region finds them; after the body at point
    `t` each input's buffer at its block and the result's at `out1_5` of the five blocks; the invariant the
    scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Run.lean ====
/-
  The whole program's run, at any float instance: the entry function is eight host operations (four reshapes of
  the bias vectors to rows, four format changes of the weight matrices), the first kernel region and the second.
  The buffer contents at each boundary are a fold from the launch memory: after the host operations; after the
  first region (its arrays at what its write-backs leave, everything else as entered); after the second region.
  Every weakly fair execution from a memory with zero counters terminates, nothing faulting, and every final state
  holds every unscoped buffer at the last fold. Read at an argument array the fold walks back to the launch
  memory (no host operation and no region writes an argument); read at the result array it is what the second
  region's write-backs leave.
-/
import proofs.«165790_j9397388444314_1_alg».proof.Proof.Region0
import proofs.«165790_j9397388444314_1_alg».proof.Proof.Region1
import proofs.«165790_j9397388444314_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host operations: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### Each argument ends as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- The result array ends at what the second region's write-backs leave. -/
theorem W3_main_v9 (c : Dev nD) : W3 m ρ c (Proc.devRef .tc main_v9) = (dat1 (V2 m ρ) c).arrAt 5 cfg1.N :=
  W3_arr m ρ c 5

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state "every unscoped buffer at the boundary's contents, the generator register at
    some state, nothing owed": its arrays split out of the unscoped buffers on entry and put back at the exit
    contents; the generator register into the invariant and out; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0_zero (V1 m ρ) c]; unfold Pipeline.ΦA
    iintro ⟨Hp, -, Hr⟩
    isplitl [Hr]; · iexact Hr
    iexact Hp
  hout c := by
    rw [Pipeline.ownSems0_none]
    refine .trans (show (pdats m ρ 0 c).Φ (Fin.last _) ⊢ Pipeline.ΦA spec0 c from Phi0_last (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at
    some state, nothing owed": its arrays split out of the unscoped buffers on entry and put back at the exit
    contents; the generator register into the invariant and out; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine .trans (show (pdats m ρ 1 c).Φ (Fin.last _) ⊢ Pipeline.ΦA spec1 c from .rfl) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: every weakly fair execution terminates, nothing faulting, and every final state holds every unscoped
    buffer at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W3 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c b hb => h c _ (mem_uc b hb))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      (h c main_arg0 (by decide)).trans (W3_main_arg0 m ρ c), (h c main_arg1 (by decide)).trans (W3_main_arg1 m ρ c),
      (h c main_arg2 (by decide)).trans (W3_main_arg2 m ρ c), (h c main_arg3 (by decide)).trans (W3_main_arg3 m ρ c),
      (h c main_arg4 (by decide)).trans (W3_main_arg4 m ρ c), (h c main_arg5 (by decide)).trans (W3_main_arg5 m ρ c),
      (h c main_arg6 (by decide)).trans (W3_main_arg6 m ρ c), (h c main_arg7 (by decide)).trans (W3_main_arg7 m ρ c),
      (h c main_arg8 (by decide)).trans (W3_main_arg8 m ρ c)⟩) (run_all m ρ)

/-- THE RESULT: beside the frame, the result array ends at what the second region's write-backs leave. -/
theorem run_result : θ_run defs (onTc (τ := τ) (main (F := F))) ⟨m, fun _ => 0, ρ⟩ (fun r => ∀ c : Dev nD,
      r.2.mem ((c.tc : Thread nD τ).loc main_v9) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v9 (by decide)).trans (W3_main_v9 m ρ c),
      (h c main_arg0 (by decide)).trans (W3_main_arg0 m ρ c), (h c main_arg1 (by decide)).trans (W3_main_arg1 m ρ c),
      (h c main_arg2 (by decide)).trans (W3_main_arg2 m ρ c), (h c main_arg3 (by decide)).trans (W3_main_arg3 m ρ c),
      (h c main_arg4 (by decide)).trans (W3_main_arg4 m ρ c), (h c main_arg5 (by decide)).trans (W3_main_arg5 m ρ c),
      (h c main_arg6 (by decide)).trans (W3_main_arg6 m ρ c), (h c main_arg7 (by decide)).trans (W3_main_arg7 m ρ c),
      (h c main_arg8 (by decide)).trans (W3_main_arg8 m ρ c)⟩) (run_all m ρ)

end Cert.KernelIdeal.Hand

end
-- ==== Proof.Spec.lean ====
/-
  The specification both programs are compared with: the result array as ONE function of the nine argument
  arrays over the extended reals, index by index.

  With x : [8, 4096, 1024] (batch n, position s, input channel d), four weight matrices [1024, 1024] and four
  bias vectors [1024]:
    a projection          lin x W b (n, s, h) = Σ_d x[n, s, d] · W[d, h] + b[h]
    the feature map       φ t = t + 1 if 0 < t, else exp t            (the exponential linear unit plus one)
    per batch and channel KV[n, h] = Σ_s φ(k[n, s, h]) · v[n, s, h],   Ks[n, h] = Σ_s φ(k[n, s, h])
    the attention value   a[n, s, h] = (φ(q) · KV) · (1 / (φ(q) · Ks + ε))
    the output projection y[n, s, o] = Σ_h a[n, s, h] · Wo[h, o] + bo[o]
    the result            (½ · y) · (1 + tanh (c₀ · (y + c₁ · ((y · y) · y))))
  Every literal is kept as the extended real its 32-bit word denotes; none is evaluated here.
-/
import Idealize.ShloMosaic.PureOps.Ideal
import Idealize.ShloMosaic.Lib.ValueIdx

noncomputable section

namespace Cert.Spec

open Idealize.ShloMosaic Idealize.ShloMosaic.ValueIdx

/-- The three kinds of array, as functions of their indices. -/
abbrev A3 : Type := (⟨3, ![8, 4096, 1024]⟩ : Shape).Idx → EReal
abbrev AW : Type := (⟨2, ![1024, 1024]⟩ : Shape).Idx → EReal
abbrev AB : Type := (⟨1, ![1024]⟩ : Shape).Idx → EReal

/-- The literals, each the extended real its word denotes: 1, the small ε ≈ 10⁻⁶, ½, c₁ ≈ 0.044715, c₀ ≈ √(2/π). -/
def one : EReal := Ideal.ofBits .f32 0x3F800000#32
def eps : EReal := Ideal.ofBits .f32 0x358637BD#32
def half : EReal := Ideal.ofBits .f32 0x3F000000#32
def c1 : EReal := Ideal.ofBits .f32 0x3D372713#32
def c0 : EReal := Ideal.ofBits .f32 0x3F4C422A#32

/-- A projection at (n, s, h): the row x[n, s, ·] against the column W[·, h], plus the bias. -/
def lin (x : A3) (W : AW) (b : AB) (n : Fin 8) (s : Fin 4096) (h : Fin 1024) : EReal :=
  (∑ d : Fin 1024, x (ix3 n s d) * W (ix2 d h)) + b (ix1 h)

/-- The feature map: t + 1 where t is positive, exp t elsewhere. -/
def fm (t : EReal) : EReal := if 0 < t then t + one else Ideal.exp t

/-- Σ over the positions of φ(k) · v, per batch and channel. -/
def kv (x : A3) (Wk : AW) (bk : AB) (Wv : AW) (bv : AB) (n : Fin 8) (h : Fin 1024) : EReal :=
  ∑ s : Fin 4096, fm (lin x Wk bk n s h) * lin x Wv bv n s h

/-- Σ over the positions of φ(k), per batch and channel. -/
def ks (x : A3) (Wk : AW) (bk : AB) (n : Fin 8) (h : Fin 1024) : EReal :=
  ∑ s : Fin 4096, fm (lin x Wk bk n s h)

/-- The attention value at (n, s, h). -/
def att (x : A3) (Wq : AW) (bq : AB) (Wk : AW) (bk : AB) (Wv : AW) (bv : AB) (n : Fin 8) (s : Fin 4096) (h : Fin 1024) : EReal :=
  (fm (lin x Wq bq n s h) * kv x Wk bk Wv bv n h)
    * Ideal.div one (fm (lin x Wq bq n s h) * ks x Wk bk n h + eps)

/-- The output projection at (n, s, o). -/
def proj (x : A3) (Wq : AW) (bq : AB) (Wk : AW) (bk : AB) (Wv : AW) (bv : AB) (Wo : AW) (bo : AB)
    (n : Fin 8) (s : Fin 4096) (o : Fin 1024) : EReal :=
  (∑ h : Fin 1024, att x Wq bq Wk bk Wv bv n s h * Wo (ix2 h o)) + bo (ix1 o)

/-- The tanh form of the Gaussian error linear unit of one number. -/
def gelu (y : EReal) : EReal := (half * y) * (one + Ideal.tanh (c0 * (y + c1 * ((y * y) * y))))

/-- The result at (n, s, o). -/
def Gat (x : A3) (Wq : AW) (bq : AB) (Wk : AW) (bk : AB) (Wv : AW) (bv : AB) (Wo : AW) (bo : AB)
    (n : Fin 8) (s : Fin 4096) (o : Fin 1024) : EReal :=
  gelu (proj x Wq bq Wk bk Wv bv Wo bo n s o)

/-- The result array. -/
def G (x : A3) (Wq : AW) (bq : AB) (Wk : AW) (bk : AB) (Wv : AW) (bv : AB) (Wo : AW) (bo : AB) : A3 :=
  fun i => Gat x Wq bq Wk bk Wv bv Wo bo (i 0) (i 1) (i 2)

theorem G_ix3 (x : A3) (Wq : AW) (bq : AB) (Wk : AW) (bk : AB) (Wv : AW) (bv : AB) (Wo : AW) (bo : AB)
    (n : Fin 8) (s : Fin 4096) (o : Fin 1024) :
    G x Wq bq Wk bk Wv bv Wo bo (ix3 n s o) = Gat x Wq bq Wk bk Wv bv Wo bo n s o := rfl

end Cert.Spec

end
-- ==== Proof.KernelPay.lean ====
/-
  The two kernel bodies' arithmetic read at an index, at the ideal instance (floats are extended reals, every
  operation exact, a change of float format the identity): each named value of the bodies — a projection of the tile
  (a matrix product into a zero accumulator plus a bias row), the feature map of one, the two accumulators' steps
  (what they held plus the tile's column sums), the stored query tile, the rows copied out, and the second body's
  whole expression — as a plain expression of the entries of the blocks it is computed from.
-/
import proofs.«165790_j9397388444314_1_alg».proof.Proof.Region0Body
import proofs.«165790_j9397388444314_1_alg».proof.Proof.Region1
import proofs.«165790_j9397388444314_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand.Pay

open Cert.KernelIdeal Cert.KernelIdeal.Gen Cert.KernelIdeal.Hand
open Idealize.ShloMosaic Idealize.ShloMosaic.ValueIdx
open Cert.Spec (fm one eps gelu)

/-! The dot record contracts the left operand's axis 1 with the right operand's axis 0: the operands' indices at a
    result index and a contraction index, coordinate by coordinate. -/
theorem lhs_coord0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem lhs_coord1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_coord0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_coord1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The matrix product into the zero accumulator, at row `r`, column `h`: the sum over the contracted coordinate of the
    products of the two operands' entries. -/
theorem matmul_zero_apply (a : FVec Ideal S512x1024 .bf16) (w : FVec Ideal S1024x1024 .bf16) (r : Fin 512) (h : Fin 1024) :
    matmul dot_S512x1024_S1024x1024_S512x1024_1_0_0_1_n_n none a w (constant (F := Ideal) S512x1024 .f32 0x00000000#32) (ix2 r h)
      = ∑ d : Fin 1024, a (ix2 r d) * w (ix2 d h) := by
  refine (Ideal.matmul_constant_zero_apply dot_S512x1024_S1024x1024_S512x1024_1_0_0_1_n_n none a w (ix2 r h)).trans ?_
  rw [← Equiv.sum_comp (contrEquiv1 dot_S512x1024_S1024x1024_S512x1024_1_0_0_1_n_n 1024 rfl rfl).symm]
  refine Finset.sum_congr rfl fun c _ => ?_
  have hc := contrEquiv1_symm_val dot_S512x1024_S1024x1024_S512x1024_1_0_0_1_n_n 1024 rfl rfl c
  have el : dot_S512x1024_S1024x1024_S512x1024_1_0_0_1_n_n.lhsIdx (ix2 r h)
      ((contrEquiv1 dot_S512x1024_S1024x1024_S512x1024_1_0_0_1_n_n 1024 rfl rfl).symm c) = ix2 r c :=
    funext fun ax => Fin.ext (by
      match ax with
      | ⟨0, _⟩ => exact lhs_coord0 _ _
      | ⟨1, _⟩ => exact (lhs_coord1 _ _).trans hc)
  have er : dot_S512x1024_S1024x1024_S512x1024_1_0_0_1_n_n.rhsIdx (ix2 r h)
      ((contrEquiv1 dot_S512x1024_S1024x1024_S512x1024_1_0_0_1_n_n 1024 rfl rfl).symm c) = ix2 c h :=
    funext fun ax => Fin.ext (by
      match ax with
      | ⟨0, _⟩ => exact (rhs_coord0 _ _).trans hc
      | ⟨1, _⟩ => exact rhs_coord1 _ _)
  rw [el, er]

/-- The tile as the product's left operand: the leading unit axis dropped, the format change the identity. -/
theorem pay9_apply (x : Vec Ideal S1x512x1024 .f32) (r : Fin 512) (d : Fin 1024) :
    k0_pay9 (F := Ideal) x (ix2 r d) = x (ix3 (0 : Fin 1) r d) := by
  unfold k0_pay9
  exact shapeCast_1ab_ab_apply x _ r d

/-- A product into the zero accumulator plus a bias row broadcast over the rows, at row `r`, channel `h`. -/
theorem proj_apply (a : FVec Ideal S512x1024 .bf16) (w : FVec Ideal S1024x1024 .bf16) (b : FVec Ideal S1x1024 .f32) (r : Fin 512) (h : Fin 1024) :
    addf (matmul dot_S512x1024_S1024x1024_S512x1024_1_0_0_1_n_n none a
          (shapeCast S1024x1024 w shapeCasts_S1024x1024_S1024x1024) (constant (F := Ideal) S512x1024 .f32 0x00000000#32))
        (broadcastTo S512x1024 (shapeCast S1x1024 b shapeCasts_S1x1024_S1x1024) broadcasts_S1x1024_S512x1024) (ix2 r h)
      = (∑ d : Fin 1024, a (ix2 r d) * w (ix2 d h)) + b (ix2 (0 : Fin 1) h) := by
  rw [shapeCast_self, shapeCast_self, addf_apply, matmul_zero_apply, broadcastTo_1b_ab_apply]

/-- The key (or value) projection of a tile at row `r`, channel `h`. -/
theorem pay10_apply (x : Vec Ideal S1x512x1024 .f32) (w : Vec Ideal S1024x1024 .bf16) (b : Vec Ideal S1x1024 .f32) (r : Fin 512) (h : Fin 1024) :
    k0_pay10 (F := Ideal) x w b (ix2 r h) = (∑ d : Fin 1024, x (ix3 (0 : Fin 1) r d) * w (ix2 d h)) + b (ix2 (0 : Fin 1) h) := by
  unfold k0_pay10
  refine (proj_apply (k0_pay9 (F := Ideal) x) w b r h).trans ?_
  exact congrArg (· + b (ix2 (0 : Fin 1) h)) (Finset.sum_congr rfl fun d _ => by rw [pay9_apply])
theorem pay11_apply (x : Vec Ideal S1x512x1024 .f32) (w : Vec Ideal S1024x1024 .bf16) (b : Vec Ideal S1x1024 .f32) (r : Fin 512) (h : Fin 1024) :
    k0_pay11 (F := Ideal) x w b (ix2 r h) = (∑ d : Fin 1024, x (ix3 (0 : Fin 1) r d) * w (ix2 d h)) + b (ix2 (0 : Fin 1) h) := by
  unfold k0_pay11
  refine (proj_apply (k0_pay9 (F := Ideal) x) w b r h).trans ?_
  exact congrArg (· + b (ix2 (0 : Fin 1) h)) (Finset.sum_congr rfl fun d _ => by rw [pay9_apply])
/-- The select on "above zero" between `t + 1` and `exp t` is the feature map of `t`. -/
theorem fm_eq (t : EReal) :
    Scalar.select (Ideal.cmp .ogt t (Ideal.ofBits .f32 0x00000000#32)) (t + Ideal.ofBits .f32 0x3F800000#32) (Ideal.exp t) = fm t := by
  rw [Ideal.ofBits_zero_f32]
  unfold fm Scalar.select Ideal.cmp one
  by_cases h : 0 < t
  · rw [if_pos h, decide_eq_true h]; rfl
  · rw [if_neg h, decide_eq_false h]; rfl

/-- The feature map of a whole tile, as the bodies write it against the zero tile, read at an index. -/
theorem pay1_apply (y : FVec Ideal S512x1024 .f32) (i : S512x1024.Idx) :
    k0_pay1 (F := Ideal) y (k0_pay13 (F := Ideal)) i = fm (y i) := by
  unfold k0_pay1 k0_pay13
  exact fm_eq (y i)

/-- The feature-mapped query projection of a tile. -/
theorem pay12_apply (x : Vec Ideal S1x512x1024 .f32) (w : Vec Ideal S1024x1024 .bf16) (b : Vec Ideal S1x1024 .f32) (r : Fin 512) (h : Fin 1024) :
    k0_pay12 (F := Ideal) x w b (ix2 r h) = fm ((∑ d : Fin 1024, x (ix3 (0 : Fin 1) r d) * w (ix2 d h)) + b (ix2 (0 : Fin 1) h)) := by
  have e : k0_pay12 (F := Ideal) x w b (ix2 r h) = fm (k0_pay10 (F := Ideal) x w b (ix2 r h)) := by
    unfold k0_pay12 k0_pay10
    exact fm_eq _
  rw [e, pay10_apply]
/-- The stored query tile. -/
theorem outQ_apply (x : Vec Ideal S1x512x1024 .f32) (wq : Vec Ideal S1024x1024 .bf16) (bq : Vec Ideal S1x1024 .f32) (r : Fin 512) (h : Fin 1024) :
    outQ (F := Ideal) x wq bq (ix3 (0 : Fin 1) r h) = fm ((∑ d : Fin 1024, x (ix3 (0 : Fin 1) r d) * wq (ix2 d h)) + bq (ix2 (0 : Fin 1) h)) := by
  unfold outQ k0_pay4
  exact (shapeCast_ab_1ab_apply _ _ (0 : Fin 1) r h).trans (pay12_apply x wq bq r h)
/-- One step of a row accumulator: what it held plus the sum of the tile's column over the 512 rows (the sum over the
    leading axis, recast as a row, added to the row held). -/
theorem acc_step_apply (src : FVec Ideal S512x1024 .f32) (prev : FVec Ideal S1x1024 .f32) (h : Fin 1024) :
    shapeCast S1x1024 (addf prev (shapeCast S1x1024
        (multiReduction (F := Ideal) .add [0] S1024 src 0x00000000#32 reduces_S512x1024_S1024 (.inl rfl) rfl) shapeCasts_S1024_S1x1024))
      shapeCasts_S1x1024_S1x1024 (ix2 (0 : Fin 1) h)
      = prev (ix2 (0 : Fin 1) h) + ∑ r : Fin 512, src (ix2 r h) := by
  rw [shapeCast_self, addf_apply, shapeCast_a_1a_apply]
  refine congrArg (prev (ix2 (0 : Fin 1) h) + ·) ?_
  refine (Ideal.multiReduction_add_single src _ reduces_S512x1024_S1024 (.inl rfl) rfl (ix1 h)).trans ?_
  refine Finset.sum_congr rfl fun k _ => congrArg src ?_
  funext ax; apply Fin.ext
  match ax with
  | ⟨0, _⟩ => rfl
  | ⟨1, _⟩ => rfl

/-- One step of the φ(k)·v accumulator: what it held plus the tile's column sum. -/
theorem accKV_apply (x : Vec Ideal S1x512x1024 .f32) (wk : Vec Ideal S1024x1024 .bf16) (bk : Vec Ideal S1x1024 .f32)
    (wv : Vec Ideal S1024x1024 .bf16) (bv : Vec Ideal S1x1024 .f32) (prev : Vec Ideal S1x1024 .f32) (h : Fin 1024) :
    accKV (F := Ideal) x wk bk wv bv prev (ix2 (0 : Fin 1) h)
      = prev (ix2 (0 : Fin 1) h) + ∑ r : Fin 512, fm ((∑ d : Fin 1024, x (ix3 (0 : Fin 1) r d) * wk (ix2 d h)) + bk (ix2 (0 : Fin 1) h)) * ((∑ d : Fin 1024, x (ix3 (0 : Fin 1) r d) * wv (ix2 d h)) + bv (ix2 (0 : Fin 1) h)) := by
  unfold accKV k0_pay2
  refine (acc_step_apply (mulf (k0_pay1 (F := Ideal) (k0_pay10 (F := Ideal) x wk bk) (k0_pay13 (F := Ideal))) (k0_pay11 (F := Ideal) x wv bv)) prev h).trans ?_
  refine congrArg (prev (ix2 (0 : Fin 1) h) + ·) (Finset.sum_congr rfl fun r _ => ?_)
  rw [mulf_apply, pay1_apply, pay10_apply, pay11_apply]
/-- One step of the φ(k) accumulator. -/
theorem accKs_apply (x : Vec Ideal S1x512x1024 .f32) (wk : Vec Ideal S1024x1024 .bf16) (bk : Vec Ideal S1x1024 .f32)
    (prev : Vec Ideal S1x1024 .f32) (h : Fin 1024) :
    accKs (F := Ideal) x wk bk prev (ix2 (0 : Fin 1) h)
      = prev (ix2 (0 : Fin 1) h) + ∑ r : Fin 512, fm ((∑ d : Fin 1024, x (ix3 (0 : Fin 1) r d) * wk (ix2 d h)) + bk (ix2 (0 : Fin 1) h)) := by
  unfold accKs k0_pay3
  refine (acc_step_apply (k0_pay1 (F := Ideal) (k0_pay10 (F := Ideal) x wk bk) (k0_pay13 (F := Ideal))) prev h).trans ?_
  refine congrArg (prev (ix2 (0 : Fin 1) h) + ·) (Finset.sum_congr rfl fun r _ => ?_)
  rw [pay1_apply, pay10_apply]
/-- The rows the accumulators restart from are zero. -/
theorem pay7_apply (h : Fin 1024) : k0_pay7 (F := Ideal) (ix2 (0 : Fin 1) h) = 0 := by
  unfold k0_pay7
  rw [shapeCast_self]
  exact Ideal.ofBits_zero_f32
theorem pay8_apply (h : Fin 1024) : k0_pay8 (F := Ideal) (ix2 (0 : Fin 1) h) = 0 := by
  unfold k0_pay8
  rw [shapeCast_self]
  exact Ideal.ofBits_zero_f32
/-- The rows copied out to the two small results are the accumulators' rows. -/
theorem pay5_apply (p : Vec Ideal S1x1024 .f32) (h : Fin 1024) :
    k0_pay5 (F := Ideal) p (ix3 (0 : Fin 1) (0 : Fin 1) h) = p (ix2 (0 : Fin 1) h) := by
  unfold k0_pay5
  exact shapeCast_ab_1ab_apply p _ (0 : Fin 1) (0 : Fin 1) h
theorem pay6_apply (p : Vec Ideal S1x1024 .f32) (h : Fin 1024) :
    k0_pay6 (F := Ideal) p (ix3 (0 : Fin 1) (0 : Fin 1) h) = p (ix2 (0 : Fin 1) h) := by
  unfold k0_pay6
  exact shapeCast_ab_1ab_apply p _ (0 : Fin 1) (0 : Fin 1) h
/-- The tanh form of the Gaussian error linear unit of a whole tile, as the second body writes it, read at an index. -/
theorem gelu_vec_apply (y : FVec Ideal S512x1024 .f32) (i : S512x1024.Idx) :
    mulf (mulf (broadcast S512x1024 (Scalar.ofBits (F := Ideal) .f32 0x3F000000#32)) y)
        (addf (broadcast S512x1024 (Scalar.ofBits (F := Ideal) .f32 0x3F800000#32))
          (tanh (mulf (broadcast S512x1024 (Scalar.ofBits (F := Ideal) .f32 0x3F4C422A#32))
            (addf y (mulf (broadcast S512x1024 (Scalar.ofBits (F := Ideal) .f32 0x3D372713#32)) (mulf (mulf y y) y)))))) i
      = gelu (y i) := rfl

/-- The second body's value before its store, at row `r`, output channel `o`. -/
theorem k1_pay2_apply (q : Vec Ideal S1x512x1024 .f32) (kv ks : Vec Ideal S1x1x1024 .f32) (wo : Vec Ideal S1024x1024 .bf16) (bo : Vec Ideal S1x1024 .f32)
    (r : Fin 512) (o : Fin 1024) :
    k1_pay2 (F := Ideal) q kv ks wo bo (ix2 r o)
      = gelu ((∑ h : Fin 1024, ((q (ix3 (0 : Fin 1) r h) * kv (ix3 (0 : Fin 1) (0 : Fin 1) h))
            * Ideal.div one (q (ix3 (0 : Fin 1) r h) * ks (ix3 (0 : Fin 1) (0 : Fin 1) h) + eps)) * wo (ix2 h o))
          + bo (ix2 (0 : Fin 1) o)) := by
  unfold k1_pay2
  refine (gelu_vec_apply _ _).trans (congrArg gelu ?_)
  refine (proj_apply _ wo bo r o).trans ?_
  refine congrArg (· + bo (ix2 (0 : Fin 1) o)) (Finset.sum_congr rfl fun h _ => congrArg (· * wo (ix2 h o)) ?_)
  rw [truncf_apply, mulf_apply, mulf_apply, divf_apply, addf_apply, mulf_apply, broadcast_apply, broadcast_apply,
    broadcastTo_1b_ab_apply, broadcastTo_1b_ab_apply, shapeCast_1ab_ab_apply, shapeCast_1ab_ab_apply, shapeCast_1ab_ab_apply]
  rfl

/-- The second body's stored tile at row `r`, output channel `o`. -/
theorem out1_5_apply (q : Vec Ideal S1x512x1024 .f32) (kv ks : Vec Ideal S1x1x1024 .f32) (wo : Vec Ideal S1024x1024 .bf16) (bo : Vec Ideal S1x1024 .f32)
    (r : Fin 512) (o : Fin 1024) :
    out1_5 (F := Ideal) q kv ks wo bo (ix3 (0 : Fin 1) r o)
      = gelu ((∑ h : Fin 1024, ((q (ix3 (0 : Fin 1) r h) * kv (ix3 (0 : Fin 1) (0 : Fin 1) h))
            * Ideal.div one (q (ix3 (0 : Fin 1) r h) * ks (ix3 (0 : Fin 1) (0 : Fin 1) h) + eps)) * wo (ix2 h o))
          + bo (ix2 (0 : Fin 1) o)) := by
  unfold out1_5
  rw [View.canon_unit_zero hz3]
  simp only [View.ld_unit_zero (S := S1x512x1024) hz3, View.ld_unit_zero (S := S1x1x1024) hz3,
    View.ld_unit_zero (S := S1024x1024) hz2, View.ld_unit_zero (S := S1x1024) hz2]
  unfold k1_pay1
  exact (shapeCast_ab_1ab_apply _ _ (0 : Fin 1) r o).trans (k1_pay2_apply q kv ks wo bo r o)

end Cert.KernelIdeal.Hand.Pay

end
-- ==== Proof.KernelSpec.lean ====
/-
  The two kernel regions' results as they see their operands (the bias a [1, 1024] row — the bias vector reshaped by
  the host before the first region —, the per-batch sums [8, 1, 1024] arrays):
    linK x W b (n, s, h)          = Σ_d x[n, s, d] · W[d, h] + b[0, h]
    outK q kv ks wo bo (n, s, o)  = the tanh-form unit of  Σ_h ((q[n,s,h] · kv[n,0,h]) · (1 / (q[n,s,h] · ks[n,0,h] + ε))) · wo[h, o] + bo[0, o]
-/
import proofs.«165790_j9397388444314_1_alg».proof.Proof.Spec

noncomputable section

namespace Cert.Spec

open Idealize.ShloMosaic Idealize.ShloMosaic.ValueIdx

/-- A bias row, and a per-batch row array. -/
abbrev AR : Type := (⟨2, ![1, 1024]⟩ : Shape).Idx → EReal
abbrev AS : Type := (⟨3, ![8, 1, 1024]⟩ : Shape).Idx → EReal

/-- The projection at (n, s, h) with the bias as a row. -/
def linK (x : A3) (W : AW) (b : AR) (n : Fin 8) (s : Fin 4096) (h : Fin 1024) : EReal :=
  (∑ d : Fin 1024, x (ix3 n s d) * W (ix2 d h)) + b (ix2 (0 : Fin 1) h)

/-- The second region's result at (n, s, o) from its five operands. -/
def outK (q : A3) (kv ks : AS) (wo : AW) (bo : AR) (n : Fin 8) (s : Fin 4096) (o : Fin 1024) : EReal :=
  gelu ((∑ h : Fin 1024, ((q (ix3 n s h) * kv (ix3 n (0 : Fin 1) h))
        * Ideal.div one (q (ix3 n s h) * ks (ix3 n (0 : Fin 1) h) + eps)) * wo (ix2 h o))
      + bo (ix2 (0 : Fin 1) o))

end Cert.Spec

end
-- ==== Proof.KernelArr0.lean ====
/- the first region's three result arrays at its exit, as functions of the contents it is entered with -/
import proofs.«165790_j9397388444314_1_alg».proof.Proof.Region0
import proofs.«165790_j9397388444314_1_alg».proof.Proof.Region1
import proofs.«165790_j9397388444314_1_alg».proof.Proof.KernelPay
import proofs.«165790_j9397388444314_1_alg».proof.Proof.KernelSpec
import proofs.«165790_j9397388444314_1_alg».proof.Proof.Spec
import Idealize.ShloMosaic.Lib.ValueIdx
import Idealize.ShloMosaic.Lib.Pipeline.Value

set_option maxRecDepth 16384

noncomputable section

namespace Cert.KernelIdeal.Hand.Arr0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Spec (fm one eps gelu linK)

variable (V : (c : Dev nD) → (b : Ref sig .tc) → Buf (Elt Ideal) ((c : Thread nD τ).loc b))

/-! ## Where each window's block sits, decided once over the 64 grid points

Point `t` is tile `t % 8` of batch `t / 8`. -/

/-- The input tile and the query tile are block (batch, tile, 0). -/
theorem idx_tile : ∀ t : Fin cfg0.N, win0_0.index t (0 : Fin 3) = t.val / 8 ∧ win0_0.index t (1 : Fin 3) = t.val % 8 ∧ win0_0.index t (2 : Fin 3) = 0
    ∧ win0_7.index t (0 : Fin 3) = t.val / 8 ∧ win0_7.index t (1 : Fin 3) = t.val % 8 ∧ win0_7.index t (2 : Fin 3) = 0 :=
  (by decide +kernel : ∀ t : Fin grid0.N, _)

/-- The three weight matrices and the three bias rows are whole: block (0, 0). -/
theorem idx_whole : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The two per-batch rows are block (batch, 0, 0). -/
theorem idx_row : ∀ t : Fin cfg0.N, win0_8.index t (0 : Fin 3) = t.val / 8 ∧ win0_8.index t (1 : Fin 3) = 0 ∧ win0_8.index t (2 : Fin 3) = 0
    ∧ win0_9.index t (0 : Fin 3) = t.val / 8 ∧ win0_9.index t (1 : Fin 3) = 0 ∧ win0_9.index t (2 : Fin 3) = 0 :=
  (by decide +kernel : ∀ t : Fin grid0.N, _)

/-! ## The input blocks read at an index -/

/-- Row `r` of the input tile at point `t` is row `512 · (t % 8) + r` of batch `t / 8`. -/
theorem xblk_apply (c : Dev nD) (t : Fin cfg0.N) (y : S1x512x1024.Idx) (k : S8x4096x1024.Idx)
    (hk0 : (k 0).val = t.val / 8) (hk1 : (k 1).val = 512 * (t.val % 8) + (y 1).val) (hk2 : (k 2).val = (y 2).val) :
    (iblk0 V c 0 t : Vec Ideal S1x512x1024 .f32) y = (V c main_arg0 : S8x4096x1024.Idx → EReal) k := by
  obtain ⟨e0, e1, e2, -⟩ := idx_tile t
  have hy0 : (y 0).val = 0 := by have h : (y 0).val < 1 := (y 0).isLt; omega
  unfold iblk0
  rw [View.read_apply]
  show V c main_arg0 _ = V c main_arg0 _
  congr 1
  funext a
  apply Fin.ext
  match a with
  | ⟨0, _⟩ => show win0_0.index t (0 : Fin 3) * 1 + 1 * (y 0).val = (k 0).val; rw [e0, hk0, hy0]; omega
  | ⟨1, _⟩ => show win0_0.index t (1 : Fin 3) * 512 + 1 * (y 1).val = (k 1).val; rw [e1, hk1]; omega
  | ⟨2, _⟩ => show win0_0.index t (2 : Fin 3) * 1024 + 1 * (y 2).val = (k 2).val; rw [e2, hk2]; omega

/-- A weight matrix's block is the matrix, and a bias row's block the row: block (0, 0) of the whole array. -/
theorem wblk_apply (c : Dev nD) (t : Fin cfg0.N) (y : S1024x1024.Idx) :
    (iblk0 V c 1 t : Vec Ideal S1024x1024 .bf16) y = (V c main_v4 : S1024x1024.Idx → EReal) y
    ∧ (iblk0 V c 3 t : Vec Ideal S1024x1024 .bf16) y = (V c main_v5 : S1024x1024.Idx → EReal) y
    ∧ (iblk0 V c 5 t : Vec Ideal S1024x1024 .bf16) y = (V c main_v6 : S1024x1024.Idx → EReal) y := by
  obtain ⟨a0, a1, -, -, b0, b1, -, -, c0, c1, -, -⟩ := idx_whole t
  refine ⟨?_, ?_, ?_⟩
  · unfold iblk0
    rw [View.read_apply]
    show V c main_v4 _ = V c main_v4 _
    congr 1
    funext a
    apply Fin.ext
    match a with
    | ⟨0, _⟩ => show win0_1.index t (0 : Fin 2) * 1024 + 1 * (y 0).val = (y 0).val; rw [a0]; omega
    | ⟨1, _⟩ => show win0_1.index t (1 : Fin 2) * 1024 + 1 * (y 1).val = (y 1).val; rw [a1]; omega
  · unfold iblk0
    rw [View.read_apply]
    show V c main_v5 _ = V c main_v5 _
    congr 1
    funext a
    apply Fin.ext
    match a with
    | ⟨0, _⟩ => show win0_3.index t (0 : Fin 2) * 1024 + 1 * (y 0).val = (y 0).val; rw [b0]; omega
    | ⟨1, _⟩ => show win0_3.index t (1 : Fin 2) * 1024 + 1 * (y 1).val = (y 1).val; rw [b1]; omega
  · unfold iblk0
    rw [View.read_apply]
    show V c main_v6 _ = V c main_v6 _
    congr 1
    funext a
    apply Fin.ext
    match a with
    | ⟨0, _⟩ => show win0_5.index t (0 : Fin 2) * 1024 + 1 * (y 0).val = (y 0).val; rw [c0]; omega
    | ⟨1, _⟩ => show win0_5.index t (1 : Fin 2) * 1024 + 1 * (y 1).val = (y 1).val; rw [c1]; omega

theorem bblk_apply (c : Dev nD) (t : Fin cfg0.N) (y : S1x1024.Idx) :
    (iblk0 V c 2 t : Vec Ideal S1x1024 .f32) y = (V c main_v0 : S1x1024.Idx → EReal) y
    ∧ (iblk0 V c 4 t : Vec Ideal S1x1024 .f32) y = (V c main_v1 : S1x1024.Idx → EReal) y
    ∧ (iblk0 V c 6 t : Vec Ideal S1x1024 .f32) y = (V c main_v2 : S1x1024.Idx → EReal) y := by
  obtain ⟨-, -, a0, a1, -, -, b0, b1, -, -, c0, c1⟩ := idx_whole t
  refine ⟨?_, ?_, ?_⟩
  · unfold iblk0
    rw [View.read_apply]
    show V c main_v0 _ = V c main_v0 _
    congr 1
    funext a
    apply Fin.ext
    match a with
    | ⟨0, _⟩ => show win0_2.index t (0 : Fin 2) * 1 + 1 * (y 0).val = (y 0).val; rw [a0]; omega
    | ⟨1, _⟩ => show win0_2.index t (1 : Fin 2) * 1024 + 1 * (y 1).val = (y 1).val; rw [a1]; omega
  · unfold iblk0
    rw [View.read_apply]
    show V c main_v1 _ = V c main_v1 _
    congr 1
    funext a
    apply Fin.ext
    match a with
    | ⟨0, _⟩ => show win0_4.index t (0 : Fin 2) * 1 + 1 * (y 0).val = (y 0).val; rw [b0]; omega
    | ⟨1, _⟩ => show win0_4.index t (1 : Fin 2) * 1024 + 1 * (y 1).val = (y 1).val; rw [b1]; omega
  · unfold iblk0
    rw [View.read_apply]
    show V c main_v2 _ = V c main_v2 _
    congr 1
    funext a
    apply Fin.ext
    match a with
    | ⟨0, _⟩ => show win0_6.index t (0 : Fin 2) * 1 + 1 * (y 0).val = (y 0).val; rw [c0]; omega
    | ⟨1, _⟩ => show win0_6.index t (1 : Fin 2) * 1024 + 1 * (y 1).val = (y 1).val; rw [c1]; omega

/-! ## A projection of a tile's row is the projection of the array's row -/

/-- Blocks that hold, entry by entry, row `(n, p)` of `x`, the matrix `W` and the row `b` give the projection at `(n, p, h)`. -/
theorem lin_of_blocks (x : Cert.Spec.A3) (W : Cert.Spec.AW) (b : Cert.Spec.AR)
    (xb : Vec Ideal S1x512x1024 .f32) (wb : Vec Ideal S1024x1024 .bf16) (bb : Vec Ideal S1x1024 .f32)
    (n : Fin 8) (p : Fin 4096) (r : Fin 512) (h : Fin 1024)
    (hx : ∀ d : Fin 1024, xb (ix3 (0 : Fin 1) r d) = x (ix3 n p d)) (hw : ∀ d : Fin 1024, wb (ix2 d h) = W (ix2 d h))
    (hb : bb (ix2 (0 : Fin 1) h) = b (ix2 (0 : Fin 1) h)) :
    (∑ d : Fin 1024, xb (ix3 (0 : Fin 1) r d) * wb (ix2 d h)) + bb (ix2 (0 : Fin 1) h) = linK x W b n p h := by
  unfold linK
  rw [hb]
  congr 1
  exact Finset.sum_congr rfl fun d _ => by rw [hx d, hw d]

/-! ## The query tile, and the query array -/

/-- The stored query tile at point `t`, row `r`: φ of the query projection at batch `t / 8`, position `512 · (t % 8) + r`. -/
theorem outQ_tile (c : Dev nD) (t : Fin cfg0.N) (n : Fin 8) (p : Fin 4096) (r : Fin 512) (h : Fin 1024)
    (hn : n.val = t.val / 8) (hp : p.val = 512 * (t.val % 8) + r.val) :
    outQ (iblk0 V c 0 t) (iblk0 V c 1 t) (iblk0 V c 2 t) (ix3 (0 : Fin 1) r h)
      = fm (linK (V c main_arg0) (V c main_v4) (V c main_v0) n p h) :=
  (Pay.outQ_apply _ _ _ r h).trans (congrArg fm (lin_of_blocks _ _ _ _ _ _ n p r h
    (fun d => xblk_apply V c t _ _ hn hp rfl) (fun d => (wblk_apply V c t _).1) (bblk_apply V c t _).1))

/-- The same with the position read off an index of the array whose coordinates are those of the tile's row. -/
theorem outQ_at (c : Dev nD) (t : Fin cfg0.N) (r : Fin 512) (h : Fin 1024) (k : S8x4096x1024.Idx)
    (hk0 : (k 0).val = t.val / 8) (hk1 : (k 1).val = 512 * (t.val % 8) + r.val) (hk2 : (k 2).val = h.val) :
    outQ (iblk0 V c 0 t) (iblk0 V c 1 t) (iblk0 V c 2 t) (ix3 (0 : Fin 1) r h)
      = fm (linK (V c main_arg0) (V c main_v4) (V c main_v0) (k 0) (k 1) (k 2)) := by
  have e : k 2 = h := Fin.ext hk2
  rw [e]
  exact outQ_tile V c t (k 0) (k 1) r h hk0 hk1

/-- What point `t` writes back to the query array is block `t` of φ of the query projection. -/
theorem flushedQ_eq (c : Dev nD) (t : Fin cfg0.N) :
    (dat0 V c).flushed 7 t = ((cfg0.win 7).blk t).view.read (Elt Ideal)
      (fun i => fm (linK (V c main_arg0) (V c main_v4) (V c main_v0) (i 0) (i 1) (i 2))) := by
  show (cfg0.win 7).cut (grid0.coords t) ((dat0 V c).after 7 t) = _
  rw [after0_7]
  obtain ⟨-, -, -, e0, e1, e2⟩ := idx_tile t
  funext j
  obtain ⟨a, r, h, rfl⟩ : ∃ (a : Fin 1) (r : Fin 512) (h : Fin 1024), j = ix3 a r h := ⟨j 0, j 1, j 2, eq_ix3 j⟩
  obtain rfl : a = 0 := Subsingleton.elim _ _
  rw [View.read_apply]
  refine outQ_at V c t r h (((cfg0.win 7).blk t).view.emb (ix3 (0 : Fin 1) r h)) ?_ ?_ ?_
  · show win0_7.index t (0 : Fin 3) * 1 + 1 * (0 : Fin 1).val = t.val / 8
    rw [e0]; simp
  · show win0_7.index t (1 : Fin 3) * 512 + 1 * r.val = 512 * (t.val % 8) + r.val
    rw [e1]; omega
  · show win0_7.index t (2 : Fin 3) * 1024 + 1 * h.val = h.val
    rw [e2]; omega

/-- An index of the query array is in point `t`'s block iff each coordinate is in the block's range on its axis. -/
theorem mem_blkQ (t : Fin cfg0.N) (i : S8x4096x1024.Idx) :
    i ∈ ((cfg0.win 7).blk t).view.set ↔ ∀ a : Fin 3, win0_7.index t a * S1x512x1024.size a ≤ (i a).val ∧ (i a).val < win0_7.index t a * S1x512x1024.size a + S1x512x1024.size a := by
  show i ∈ ((View.whole main_v8_0).slice (win0_7.rect t)).set ↔ _
  rw [View.set_slice_whole, Rect.mem_set_unit]
  exact Iff.rfl

/-- Every index of the query array is in some point's block: position `p` of batch `n` in that of point `8 · n + p / 512`. -/
theorem coverQ (i : S8x4096x1024.Idx) : ∃ t : Fin cfg0.N, (cfg0.win 7).flush t = true ∧ i ∈ ((cfg0.win 7).blk t).view.set := by
  have h0 : (i 0).val < 8 := (i 0).isLt
  have h1 : (i 1).val < 4096 := (i 1).isLt
  have h2 : (i 2).val < 1024 := (i 2).isLt
  have hN : cfg0.N = 64 := N_0
  have ht : 8 * (i 0).val + (i 1).val / 512 < cfg0.N := by rw [hN]; omega
  refine ⟨⟨8 * (i 0).val + (i 1).val / 512, ht⟩, flush0_7 _, ?_⟩
  rw [mem_blkQ]
  obtain ⟨-, -, -, e0, e1, e2⟩ := idx_tile ⟨8 * (i 0).val + (i 1).val / 512, ht⟩
  intro a
  match a with
  | ⟨0, _⟩ =>
    show win0_7.index ⟨8 * (i 0).val + (i 1).val / 512, ht⟩ (0 : Fin 3) * 1 ≤ (i 0).val ∧ (i 0).val < win0_7.index ⟨8 * (i 0).val + (i 1).val / 512, ht⟩ (0 : Fin 3) * 1 + 1
    rw [e0]; dsimp only; omega
  | ⟨1, _⟩ =>
    show win0_7.index ⟨8 * (i 0).val + (i 1).val / 512, ht⟩ (1 : Fin 3) * 512 ≤ (i 1).val ∧ (i 1).val < win0_7.index ⟨8 * (i 0).val + (i 1).val / 512, ht⟩ (1 : Fin 3) * 512 + 512
    rw [e1]; dsimp only; omega
  | ⟨2, _⟩ =>
    show win0_7.index ⟨8 * (i 0).val + (i 1).val / 512, ht⟩ (2 : Fin 3) * 1024 ≤ (i 2).val ∧ (i 2).val < win0_7.index ⟨8 * (i 0).val + (i 1).val / 512, ht⟩ (2 : Fin 3) * 1024 + 1024
    rw [e2]; omega

/-- The feature-mapped queries: every tile is written back, so the array ends holding φ of the query projection. -/
theorem arr7_eq (c : Dev nD) :
    (dat0 V c).arrAt 7 cfg0.N = fun i => fm (linK (V c main_arg0) (V c main_v4) (V c main_v0) (i 0) (i 1) (i 2)) :=
  (dat0 V c).arrAt_eq_of_cover 7 _ (fun t _ => flushedQ_eq V c t) coverQ
/-! ## The two accumulators in closed form

Within a batch the accumulators restart at tile 0 and add one tile's column sums per point, so after tile `s` they hold
the sums over tiles `0 … s`; after tile 7 that is the sum over all 4096 positions. -/

/-- The sum of a function of the 4096 positions over the 512 rows of tile `j` (zero past the eighth tile). -/
def tileSum (F : Fin 4096 → EReal) (j : ℕ) : EReal :=
  if hj : j < 8 then ∑ r : Fin 512, F ⟨512 * j + r.val, by omega⟩ else 0

/-- The 4096 positions are the 512 rows of each of the 8 tiles. -/
def tileEquiv : Fin 8 × Fin 512 ≃ Fin 4096 where
  toFun q := ⟨512 * q.1.val + q.2.val, by omega⟩
  invFun p := (⟨p.val / 512, by omega⟩, ⟨p.val % 512, by omega⟩)
  left_inv q := by
    apply Prod.ext <;> apply Fin.ext
    · show (512 * q.1.val + q.2.val) / 512 = q.1.val; omega
    · show (512 * q.1.val + q.2.val) % 512 = q.2.val; omega
  right_inv p := by
    apply Fin.ext
    show 512 * (p.val / 512) + p.val % 512 = p.val; omega

/-- The sums over the eight tiles add up to the sum over all positions (a regrouping of a finite sum in a commutative monoid). -/
theorem sum_tiles (F : Fin 4096 → EReal) : ∑ j ∈ Finset.range 8, tileSum F j = ∑ p : Fin 4096, F p := by
  rw [Finset.sum_range, ← Equiv.sum_comp tileEquiv F, Fintype.sum_prod_type]
  refine Finset.sum_congr rfl fun j _ => ?_
  unfold tileSum
  rw [dif_pos j.isLt]
  rfl

/-- One step of the φ(k)·v accumulator on blocks that hold, entry by entry, tile `j` of batch `n` of `x`, the two matrices and
    the two rows: what it held plus that tile's sum. -/
theorem accKV_of_blocks (x : Cert.Spec.A3) (Wk Wv : Cert.Spec.AW) (bk bv : Cert.Spec.AR)
    (xb : Vec Ideal S1x512x1024 .f32) (wk : Vec Ideal S1024x1024 .bf16) (bkb : Vec Ideal S1x1024 .f32)
    (wv : Vec Ideal S1024x1024 .bf16) (bvb : Vec Ideal S1x1024 .f32) (prev : Vec Ideal S1x1024 .f32)
    (n : Fin 8) (j : ℕ) (hj : j < 8) (h : Fin 1024)
    (hx : ∀ (r : Fin 512) (d : Fin 1024), xb (ix3 (0 : Fin 1) r d) = x (ix3 n (⟨512 * j + r.val, by omega⟩ : Fin 4096) d))
    (hwk : ∀ d : Fin 1024, wk (ix2 d h) = Wk (ix2 d h)) (hbk : bkb (ix2 (0 : Fin 1) h) = bk (ix2 (0 : Fin 1) h))
    (hwv : ∀ d : Fin 1024, wv (ix2 d h) = Wv (ix2 d h)) (hbv : bvb (ix2 (0 : Fin 1) h) = bv (ix2 (0 : Fin 1) h)) :
    accKV (F := Ideal) xb wk bkb wv bvb prev (ix2 (0 : Fin 1) h)
      = prev (ix2 (0 : Fin 1) h) + tileSum (fun q => fm (linK x Wk bk n q h) * linK x Wv bv n q h) j := by
  rw [Pay.accKV_apply]
  unfold tileSum
  rw [dif_pos hj]
  congr 1
  refine Finset.sum_congr rfl fun r _ => ?_
  rw [lin_of_blocks x Wk bk xb wk bkb n _ r h (hx r) hwk hbk, lin_of_blocks x Wv bv xb wv bvb n _ r h (hx r) hwv hbv]

/-- The same for the φ(k) accumulator. -/
theorem accKs_of_blocks (x : Cert.Spec.A3) (Wk : Cert.Spec.AW) (bk : Cert.Spec.AR)
    (xb : Vec Ideal S1x512x1024 .f32) (wk : Vec Ideal S1024x1024 .bf16) (bkb : Vec Ideal S1x1024 .f32) (prev : Vec Ideal S1x1024 .f32)
    (n : Fin 8) (j : ℕ) (hj : j < 8) (h : Fin 1024)
    (hx : ∀ (r : Fin 512) (d : Fin 1024), xb (ix3 (0 : Fin 1) r d) = x (ix3 n (⟨512 * j + r.val, by omega⟩ : Fin 4096) d))
    (hwk : ∀ d : Fin 1024, wk (ix2 d h) = Wk (ix2 d h)) (hbk : bkb (ix2 (0 : Fin 1) h) = bk (ix2 (0 : Fin 1) h)) :
    accKs (F := Ideal) xb wk bkb prev (ix2 (0 : Fin 1) h)
      = prev (ix2 (0 : Fin 1) h) + tileSum (fun q => fm (linK x Wk bk n q h)) j := by
  rw [Pay.accKs_apply]
  unfold tileSum
  rw [dif_pos hj]
  congr 1
  refine Finset.sum_congr rfl fun r _ => ?_
  rw [lin_of_blocks x Wk bk xb wk bkb n _ r h (hx r) hwk hbk]

/-- One point's step at an index: what the accumulators held plus the sums over tile `t % 8` of batch `t / 8`. -/
theorem step_apply (c : Dev nD) (t : Fin cfg0.N) (n : Fin 8) (hn : n.val = t.val / 8)
    (p : Vec Ideal S1x1024 .f32 × Vec Ideal S1x1024 .f32) (h : Fin 1024) :
    (stepAcc V c t p).1 (ix2 (0 : Fin 1) h) = p.1 (ix2 (0 : Fin 1) h)
        + tileSum (fun q => fm (linK (V c main_arg0) (V c main_v5) (V c main_v1) n q h) * linK (V c main_arg0) (V c main_v6) (V c main_v2) n q h) (t.val % 8)
    ∧ (stepAcc V c t p).2 (ix2 (0 : Fin 1) h) = p.2 (ix2 (0 : Fin 1) h)
        + tileSum (fun q => fm (linK (V c main_arg0) (V c main_v5) (V c main_v1) n q h)) (t.val % 8) := by
  have hj : t.val % 8 < 8 := Nat.mod_lt _ (by norm_num)
  constructor
  · show accKV (iblk0 V c 0 t) (iblk0 V c 3 t) (iblk0 V c 4 t) (iblk0 V c 5 t) (iblk0 V c 6 t) p.1 (ix2 (0 : Fin 1) h) = _
    exact accKV_of_blocks _ _ _ _ _ _ _ _ _ _ _ n _ hj h (fun r d => xblk_apply V c t _ _ hn rfl rfl)
      (fun d => (wblk_apply V c t _).2.1) (bblk_apply V c t _).2.1 (fun d => (wblk_apply V c t _).2.2) (bblk_apply V c t _).2.2
  · show accKs (iblk0 V c 0 t) (iblk0 V c 3 t) (iblk0 V c 4 t) p.2 (ix2 (0 : Fin 1) h) = _
    exact accKs_of_blocks _ _ _ _ _ _ _ n _ hj h (fun r d => xblk_apply V c t _ _ hn rfl rfl)
      (fun d => (wblk_apply V c t _).2.1) (bblk_apply V c t _).2.1

/-- Past the first tile of a batch the accumulators continue from the point before. -/
theorem accAt_succ (c : Dev nD) (m : ℕ) (hm : m + 1 < cfg0.N) (h0 : ¬(m + 1) % 8 = 0) :
    accAt V c (m + 1) hm = stepAcc V c ⟨m + 1, hm⟩ (accAt V c m (Nat.lt_of_succ_lt hm)) :=
  accAt_next V c ⟨m + 1, hm⟩ h0

/-- The accumulators at the same position are the same. -/
theorem accAt_congr (c : Dev nD) {m m' : ℕ} (e : m = m') (hm : m < cfg0.N) (hm' : m' < cfg0.N) :
    accAt V c m hm = accAt V c m' hm' := by
  subst e; rfl

/-- After tile `s` of batch `n` the accumulators hold the sums over tiles `0 … s`. -/
theorem acc_closed (c : Dev nD) (n : Fin 8) (h : Fin 1024) (s : ℕ) (hs : s < 8) :
    (accAt V c (8 * n.val + s) (lt_of_lt_of_eq (by omega : 8 * n.val + s < 64) N_0.symm)).1 (ix2 (0 : Fin 1) h)
        = ∑ j ∈ Finset.range (s + 1), tileSum (fun q => fm (linK (V c main_arg0) (V c main_v5) (V c main_v1) n q h) * linK (V c main_arg0) (V c main_v6) (V c main_v2) n q h) j
    ∧ (accAt V c (8 * n.val + s) (lt_of_lt_of_eq (by omega : 8 * n.val + s < 64) N_0.symm)).2 (ix2 (0 : Fin 1) h)
        = ∑ j ∈ Finset.range (s + 1), tileSum (fun q => fm (linK (V c main_arg0) (V c main_v5) (V c main_v1) n q h)) j := by
  induction s with
  | zero =>
    have ht : 8 * n.val + 0 < cfg0.N := lt_of_lt_of_eq (by omega : 8 * n.val + 0 < 64) N_0.symm
    have e := accAt_first V c ⟨8 * n.val + 0, ht⟩ (by show (8 * n.val + 0) % 8 = 0; omega)
    obtain ⟨s1, s2⟩ := step_apply V c ⟨8 * n.val + 0, ht⟩ n (by show n.val = (8 * n.val + 0) / 8; omega)
      (k0_pay7 (F := Ideal), k0_pay8 (F := Ideal)) h
    dsimp only at s1 s2
    rw [show (8 * n.val + 0) % 8 = 0 from by omega] at s1 s2
    rw [Pay.pay7_apply, zero_add] at s1
    rw [Pay.pay8_apply, zero_add] at s2
    rw [Finset.sum_range_one, Finset.sum_range_one]
    exact ⟨(congrArg (fun p => p.1 (ix2 (0 : Fin 1) h)) e).trans s1, (congrArg (fun p => p.2 (ix2 (0 : Fin 1) h)) e).trans s2⟩
  | succ s ih =>
    obtain ⟨i1, i2⟩ := ih (by omega)
    have ht : 8 * n.val + s + 1 < cfg0.N := lt_of_lt_of_eq (by omega : 8 * n.val + s + 1 < 64) N_0.symm
    have e := accAt_succ V c (8 * n.val + s) ht (by omega)
    obtain ⟨s1, s2⟩ := step_apply V c ⟨8 * n.val + s + 1, ht⟩ n (by show n.val = (8 * n.val + s + 1) / 8; omega)
      (accAt V c (8 * n.val + s) (Nat.lt_of_succ_lt ht)) h
    dsimp only at s1 s2
    rw [show (8 * n.val + s + 1) % 8 = s + 1 from by omega] at s1 s2
    rw [i1] at s1
    rw [i2] at s2
    rw [Finset.sum_range_succ _ (s + 1), Finset.sum_range_succ _ (s + 1)]
    exact ⟨(congrArg (fun p => p.1 (ix2 (0 : Fin 1) h)) e).trans s1, (congrArg (fun p => p.2 (ix2 (0 : Fin 1) h)) e).trans s2⟩

/-! ## The two per-batch rows -/

/-- At the last tile of batch `n` the accumulators hold the sums over all 4096 positions. -/
theorem acc_last (c : Dev nD) (t : Fin cfg0.N) (h7 : t.val % 8 = 7) (n : Fin 8) (hn : n.val = t.val / 8) (h : Fin 1024) :
    (accAt V c t.val t.isLt).1 (ix2 (0 : Fin 1) h) = ∑ s : Fin 4096, fm (linK (V c main_arg0) (V c main_v5) (V c main_v1) n s h) * linK (V c main_arg0) (V c main_v6) (V c main_v2) n s h
    ∧ (accAt V c t.val t.isLt).2 (ix2 (0 : Fin 1) h) = ∑ s : Fin 4096, fm (linK (V c main_arg0) (V c main_v5) (V c main_v1) n s h) := by
  have e := accAt_congr V c (show t.val = 8 * n.val + 7 from by omega) t.isLt (lt_of_lt_of_eq (by omega : 8 * n.val + 7 < 64) N_0.symm)
  obtain ⟨a1, a2⟩ := acc_closed V c n h 7 (by norm_num)
  rw [e]
  exact ⟨a1.trans (sum_tiles _), a2.trans (sum_tiles _)⟩

/-- The row copied out at the last tile of a batch, with the batch and channel read off an index of the row array. -/
theorem rowKV_at (c : Dev nD) (t : Fin cfg0.N) (h7 : t.val % 8 = 7) (h : Fin 1024) (k : S8x1x1024.Idx)
    (hk0 : (k 0).val = t.val / 8) (hk2 : (k 2).val = h.val) :
    k0_pay5 (accAt V c t.val t.isLt).1 (ix3 (0 : Fin 1) (0 : Fin 1) h)
      = ∑ s : Fin 4096, fm (linK (V c main_arg0) (V c main_v5) (V c main_v1) (k 0) s (k 2)) * linK (V c main_arg0) (V c main_v6) (V c main_v2) (k 0) s (k 2) := by
  have e : k 2 = h := Fin.ext hk2
  rw [e]
  exact (Pay.pay5_apply _ h).trans (acc_last V c t h7 (k 0) hk0 h).1

/-- What a last tile's point writes back to the row array is its block of the sums over the 4096 positions. -/
theorem flushedKV_eq (c : Dev nD) (t : Fin cfg0.N) (hf : (cfg0.win 8).flush t = true) :
    (dat0 V c).flushed 8 t = ((cfg0.win 8).blk t).view.read (Elt Ideal)
      (fun i => (∑ s : Fin 4096, fm (linK (V c main_arg0) (V c main_v5) (V c main_v1) (i 0) s (i 2)) * linK (V c main_arg0) (V c main_v6) (V c main_v2) (i 0) s (i 2) : EReal)) := by
  have h7 : t.val % 8 = 7 := (flush0_8 t).mp hf
  show (cfg0.win 8).cut (grid0.coords t) ((dat0 V c).after 8 t) = _
  rw [after0_8]
  obtain ⟨e0, e1, e2, -, -, -⟩ := idx_row t
  funext j
  obtain ⟨a, b, h, rfl⟩ : ∃ (a : Fin 1) (b : Fin 1) (h : Fin 1024), j = ix3 a b h := ⟨j 0, j 1, j 2, eq_ix3 j⟩
  obtain rfl : a = 0 := Subsingleton.elim _ _
  obtain rfl : b = 0 := Subsingleton.elim _ _
  rw [View.read_apply]
  refine rowKV_at V c t h7 h (((cfg0.win 8).blk t).view.emb (ix3 (0 : Fin 1) (0 : Fin 1) h)) ?_ ?_
  · show win0_8.index t (0 : Fin 3) * 1 + 1 * (0 : Fin 1).val = t.val / 8
    rw [e0]; simp
  · show win0_8.index t (2 : Fin 3) * 1024 + 1 * h.val = h.val
    rw [e2]; omega

/-- An index of the row array is in point `t`'s block iff each coordinate is in the block's range on its axis. -/
theorem mem_blkKV (t : Fin cfg0.N) (i : S8x1x1024.Idx) :
    i ∈ ((cfg0.win 8).blk t).view.set ↔ ∀ a : Fin 3, win0_8.index t a * S1x1x1024.size a ≤ (i a).val ∧ (i a).val < win0_8.index t a * S1x1x1024.size a + S1x1x1024.size a := by
  show i ∈ ((View.whole main_v8_1).slice (win0_8.rect t)).set ↔ _
  rw [View.set_slice_whole, Rect.mem_set_unit]
  exact Iff.rfl

/-- Every index of the row array is in the block of a point that writes back: the row of batch `n` in that of the batch's last tile, point `8 · n + 7`. -/
theorem coverKV (i : S8x1x1024.Idx) : ∃ t : Fin cfg0.N, (cfg0.win 8).flush t = true ∧ i ∈ ((cfg0.win 8).blk t).view.set := by
  have h0 : (i 0).val < 8 := (i 0).isLt
  have h1 : (i 1).val < 1 := (i 1).isLt
  have h2 : (i 2).val < 1024 := (i 2).isLt
  have ht : 8 * (i 0).val + 7 < cfg0.N := lt_of_lt_of_eq (by omega : 8 * (i 0).val + 7 < 64) N_0.symm
  refine ⟨⟨8 * (i 0).val + 7, ht⟩, (flush0_8 _).mpr (by show (8 * (i 0).val + 7) % 8 = 7; omega), ?_⟩
  rw [mem_blkKV]
  obtain ⟨e0, e1, e2, -, -, -⟩ := idx_row ⟨8 * (i 0).val + 7, ht⟩
  intro a
  match a with
  | ⟨0, _⟩ =>
    show win0_8.index ⟨8 * (i 0).val + 7, ht⟩ (0 : Fin 3) * 1 ≤ (i 0).val ∧ (i 0).val < win0_8.index ⟨8 * (i 0).val + 7, ht⟩ (0 : Fin 3) * 1 + 1
    rw [e0]; dsimp only; omega
  | ⟨1, _⟩ =>
    show win0_8.index ⟨8 * (i 0).val + 7, ht⟩ (1 : Fin 3) * 1 ≤ (i 1).val ∧ (i 1).val < win0_8.index ⟨8 * (i 0).val + 7, ht⟩ (1 : Fin 3) * 1 + 1
    rw [e1]; omega
  | ⟨2, _⟩ =>
    show win0_8.index ⟨8 * (i 0).val + 7, ht⟩ (2 : Fin 3) * 1024 ≤ (i 2).val ∧ (i 2).val < win0_8.index ⟨8 * (i 0).val + 7, ht⟩ (2 : Fin 3) * 1024 + 1024
    rw [e2]; omega

/-- The row copied out at the last tile of a batch, with the batch and channel read off an index of the row array. -/
theorem rowKs_at (c : Dev nD) (t : Fin cfg0.N) (h7 : t.val % 8 = 7) (h : Fin 1024) (k : S8x1x1024.Idx)
    (hk0 : (k 0).val = t.val / 8) (hk2 : (k 2).val = h.val) :
    k0_pay6 (accAt V c t.val t.isLt).2 (ix3 (0 : Fin 1) (0 : Fin 1) h)
      = ∑ s : Fin 4096, fm (linK (V c main_arg0) (V c main_v5) (V c main_v1) (k 0) s (k 2)) := by
  have e : k 2 = h := Fin.ext hk2
  rw [e]
  exact (Pay.pay6_apply _ h).trans (acc_last V c t h7 (k 0) hk0 h).2

/-- What a last tile's point writes back to the row array is its block of the sums over the 4096 positions. -/
theorem flushedKs_eq (c : Dev nD) (t : Fin cfg0.N) (hf : (cfg0.win 9).flush t = true) :
    (dat0 V c).flushed 9 t = ((cfg0.win 9).blk t).view.read (Elt Ideal)
      (fun i => (∑ s : Fin 4096, fm (linK (V c main_arg0) (V c main_v5) (V c main_v1) (i 0) s (i 2)) : EReal)) := by
  have h7 : t.val % 8 = 7 := (flush0_9 t).mp hf
  show (cfg0.win 9).cut (grid0.coords t) ((dat0 V c).after 9 t) = _
  rw [after0_9]
  obtain ⟨-, -, -, e0, e1, e2⟩ := idx_row t
  funext j
  obtain ⟨a, b, h, rfl⟩ : ∃ (a : Fin 1) (b : Fin 1) (h : Fin 1024), j = ix3 a b h := ⟨j 0, j 1, j 2, eq_ix3 j⟩
  obtain rfl : a = 0 := Subsingleton.elim _ _
  obtain rfl : b = 0 := Subsingleton.elim _ _
  rw [View.read_apply]
  refine rowKs_at V c t h7 h (((cfg0.win 9).blk t).view.emb (ix3 (0 : Fin 1) (0 : Fin 1) h)) ?_ ?_
  · show win0_9.index t (0 : Fin 3) * 1 + 1 * (0 : Fin 1).val = t.val / 8
    rw [e0]; simp
  · show win0_9.index t (2 : Fin 3) * 1024 + 1 * h.val = h.val
    rw [e2]; omega

/-- An index of the row array is in point `t`'s block iff each coordinate is in the block's range on its axis. -/
theorem mem_blkKs (t : Fin cfg0.N) (i : S8x1x1024.Idx) :
    i ∈ ((cfg0.win 9).blk t).view.set ↔ ∀ a : Fin 3, win0_9.index t a * S1x1x1024.size a ≤ (i a).val ∧ (i a).val < win0_9.index t a * S1x1x1024.size a + S1x1x1024.size a := by
  show i ∈ ((View.whole main_v8_2).slice (win0_9.rect t)).set ↔ _
  rw [View.set_slice_whole, Rect.mem_set_unit]
  exact Iff.rfl

/-- Every index of the row array is in the block of a point that writes back: the row of batch `n` in that of the batch's last tile, point `8 · n + 7`. -/
theorem coverKs (i : S8x1x1024.Idx) : ∃ t : Fin cfg0.N, (cfg0.win 9).flush t = true ∧ i ∈ ((cfg0.win 9).blk t).view.set := by
  have h0 : (i 0).val < 8 := (i 0).isLt
  have h1 : (i 1).val < 1 := (i 1).isLt
  have h2 : (i 2).val < 1024 := (i 2).isLt
  have ht : 8 * (i 0).val + 7 < cfg0.N := lt_of_lt_of_eq (by omega : 8 * (i 0).val + 7 < 64) N_0.symm
  refine ⟨⟨8 * (i 0).val + 7, ht⟩, (flush0_9 _).mpr (by show (8 * (i 0).val + 7) % 8 = 7; omega), ?_⟩
  rw [mem_blkKs]
  obtain ⟨-, -, -, e0, e1, e2⟩ := idx_row ⟨8 * (i 0).val + 7, ht⟩
  intro a
  match a with
  | ⟨0, _⟩ =>
    show win0_9.index ⟨8 * (i 0).val + 7, ht⟩ (0 : Fin 3) * 1 ≤ (i 0).val ∧ (i 0).val < win0_9.index ⟨8 * (i 0).val + 7, ht⟩ (0 : Fin 3) * 1 + 1
    rw [e0]; dsimp only; omega
  | ⟨1, _⟩ =>
    show win0_9.index ⟨8 * (i 0).val + 7, ht⟩ (1 : Fin 3) * 1 ≤ (i 1).val ∧ (i 1).val < win0_9.index ⟨8 * (i 0).val + 7, ht⟩ (1 : Fin 3) * 1 + 1
    rw [e1]; omega
  | ⟨2, _⟩ =>
    show win0_9.index ⟨8 * (i 0).val + 7, ht⟩ (2 : Fin 3) * 1024 ≤ (i 2).val ∧ (i 2).val < win0_9.index ⟨8 * (i 0).val + 7, ht⟩ (2 : Fin 3) * 1024 + 1024
    rw [e2]; omega

/-- The sums of φ(k) · v over the 4096 positions, per batch and channel. -/
theorem arr8_eq (c : Dev nD) :
    (dat0 V c).arrAt 8 cfg0.N = fun i => ∑ s : Fin 4096, fm (linK (V c main_arg0) (V c main_v5) (V c main_v1) (i 0) s (i 2))
        * linK (V c main_arg0) (V c main_v6) (V c main_v2) (i 0) s (i 2) :=
  (dat0 V c).arrAt_eq_of_cover 8 _ (flushedKV_eq V c) coverKV
/-- The sums of φ(k) over the 4096 positions, per batch and channel. -/
theorem arr9_eq (c : Dev nD) :
    (dat0 V c).arrAt 9 cfg0.N = fun i => ∑ s : Fin 4096, fm (linK (V c main_arg0) (V c main_v5) (V c main_v1) (i 0) s (i 2)) :=
  (dat0 V c).arrAt_eq_of_cover 9 _ (flushedKs_eq V c) coverKs

end Cert.KernelIdeal.Hand.Arr0

end
-- ==== Proof.KernelArr1.lean ====
/- the second region's result array at its exit, as a function of the contents it is entered with -/
import proofs.«165790_j9397388444314_1_alg».proof.Proof.Region0
import proofs.«165790_j9397388444314_1_alg».proof.Proof.Region1
import proofs.«165790_j9397388444314_1_alg».proof.Proof.KernelPay
import proofs.«165790_j9397388444314_1_alg».proof.Proof.KernelSpec
import proofs.«165790_j9397388444314_1_alg».proof.Proof.Spec
import Idealize.ShloMosaic.Lib.ValueIdx
import Idealize.ShloMosaic.Lib.Pipeline.Value

set_option maxRecDepth 16384

noncomputable section

namespace Cert.KernelIdeal.Hand.Arr1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Spec (fm one eps gelu linK outK)

variable (V : (c : Dev nD) → (b : Ref sig .tc) → Buf (Elt Ideal) ((c : Thread nD τ).loc b))

/-- The block indices of the six windows at the grid's point t = 8 n + s (n the batch, s the sequence tile), decided over
    the 64 points: the query tile and the result tile sit at (n, s, 0), the two per-batch rows at (n, 0, 0), the weights
    and the bias at (0, 0). -/
theorem block_index : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 8 ∧ win1_5.index t (1 : Fin 3) = t.val % 8 ∧ win1_5.index t (2 : Fin 3) = 0 :=
  (by decide +kernel : ∀ t : Fin grid1.N, _)

/-- The query tile at point t: its row r is row 512 (t % 8) + r of batch t / 8. -/
theorem query_tile (c : Dev nD) (t : Fin cfg1.N) (y : S1x512x1024.Idx) (k : S8x4096x1024.Idx)
    (hk0 : (k 0).val = t.val / 8) (hk1 : (k 1).val = 512 * (t.val % 8) + (y 1).val) (hk2 : (k 2).val = (y 2).val) :
    (iblk1 V c 0 t : Vec Ideal S1x512x1024 .f32) y = (V c main_v8_0 : S8x4096x1024.Idx → Elt Ideal .f32) k := by
  obtain ⟨e0, e1, e2, -⟩ := block_index t
  unfold iblk1
  rw [View.read_apply]
  show V c main_v8_0 _ = V c main_v8_0 _
  congr 1
  funext a
  apply Fin.ext
  have h0 : (y 0).val < 1 := (y 0).isLt
  match a with
  | ⟨0, _⟩ => show win1_0.index t (0 : Fin 3) * 1 + 1 * (y 0).val = (k 0).val; omega
  | ⟨1, _⟩ => show win1_0.index t (1 : Fin 3) * 512 + 1 * (y 1).val = (k 1).val; omega
  | ⟨2, _⟩ => show win1_0.index t (2 : Fin 3) * 1024 + 1 * (y 2).val = (k 2).val; omega

/-- The first per-batch row at point t is the row of batch t / 8. -/
theorem kv_row (c : Dev nD) (t : Fin cfg1.N) (y : S1x1x1024.Idx) (k : S8x1x1024.Idx)
    (hk0 : (k 0).val = t.val / 8) (hk2 : (k 2).val = (y 2).val) :
    (iblk1 V c 1 t : Vec Ideal S1x1x1024 .f32) y = (V c main_v8_1 : S8x1x1024.Idx → Elt Ideal .f32) k := by
  obtain ⟨-, -, -, e0, e1, e2, -⟩ := block_index t
  unfold iblk1
  rw [View.read_apply]
  show V c main_v8_1 _ = V c main_v8_1 _
  congr 1
  funext a
  apply Fin.ext
  have h0 : (y 0).val < 1 := (y 0).isLt
  have h1 : (y 1).val < 1 := (y 1).isLt
  have h1' : (k 1).val < 1 := (k 1).isLt
  match a with
  | ⟨0, _⟩ => show win1_1.index t (0 : Fin 3) * 1 + 1 * (y 0).val = (k 0).val; omega
  | ⟨1, _⟩ => show win1_1.index t (1 : Fin 3) * 1 + 1 * (y 1).val = (k 1).val; omega
  | ⟨2, _⟩ => show win1_1.index t (2 : Fin 3) * 1024 + 1 * (y 2).val = (k 2).val; omega

/-- The second per-batch row at point t is the row of batch t / 8. -/
theorem ks_row (c : Dev nD) (t : Fin cfg1.N) (y : S1x1x1024.Idx) (k : S8x1x1024.Idx)
    (hk0 : (k 0).val = t.val / 8) (hk2 : (k 2).val = (y 2).val) :
    (iblk1 V c 2 t : Vec Ideal S1x1x1024 .f32) y = (V c main_v8_2 : S8x1x1024.Idx → Elt Ideal .f32) k := by
  obtain ⟨-, -, -, -, -, -, e0, e1, e2, -⟩ := block_index t
  unfold iblk1
  rw [View.read_apply]
  show V c main_v8_2 _ = V c main_v8_2 _
  congr 1
  funext a
  apply Fin.ext
  have h0 : (y 0).val < 1 := (y 0).isLt
  have h1 : (y 1).val < 1 := (y 1).isLt
  have h1' : (k 1).val < 1 := (k 1).isLt
  match a with
  | ⟨0, _⟩ => show win1_2.index t (0 : Fin 3) * 1 + 1 * (y 0).val = (k 0).val; omega
  | ⟨1, _⟩ => show win1_2.index t (1 : Fin 3) * 1 + 1 * (y 1).val = (k 1).val; omega
  | ⟨2, _⟩ => show win1_2.index t (2 : Fin 3) * 1024 + 1 * (y 2).val = (k 2).val; omega

/-- The weights' block at every point is the whole matrix. -/
theorem weight_block (c : Dev nD) (t : Fin cfg1.N) (y : S1024x1024.Idx) :
    (iblk1 V c 3 t : Vec Ideal S1024x1024 .bf16) y = (V c main_v7 : S1024x1024.Idx → Elt Ideal .bf16) y := by
  obtain ⟨-, -, -, -, -, -, -, -, -, e0, e1, -⟩ := block_index t
  unfold iblk1
  rw [View.read_apply]
  show V c main_v7 _ = V c main_v7 _
  congr 1
  funext a
  apply Fin.ext
  match a with
  | ⟨0, _⟩ => show win1_3.index t (0 : Fin 2) * 1024 + 1 * (y 0).val = (y 0).val; omega
  | ⟨1, _⟩ => show win1_3.index t (1 : Fin 2) * 1024 + 1 * (y 1).val = (y 1).val; omega

/-- The bias's block at every point is the whole row. -/
theorem bias_block (c : Dev nD) (t : Fin cfg1.N) (y : S1x1024.Idx) :
    (iblk1 V c 4 t : Vec Ideal S1x1024 .f32) y = (V c main_v3 : S1x1024.Idx → Elt Ideal .f32) y := by
  obtain ⟨-, -, -, -, -, -, -, -, -, -, -, e0, e1, -⟩ := block_index t
  unfold iblk1
  rw [View.read_apply]
  show V c main_v3 _ = V c main_v3 _
  congr 1
  funext a
  apply Fin.ext
  match a with
  | ⟨0, _⟩ => show win1_4.index t (0 : Fin 2) * 1 + 1 * (y 0).val = (y 0).val; omega
  | ⟨1, _⟩ => show win1_4.index t (1 : Fin 2) * 1024 + 1 * (y 1).val = (y 1).val; omega

/-- The stored tile's entry (r, o) at point t is the result's closed form at batch t / 8, row 512 (t % 8) + r, channel o:
    stated at any array index k with those coordinates. -/
theorem tile_entry (c : Dev nD) (t : Fin cfg1.N) (r : Fin 512) (o : Fin 1024) (k : S8x4096x1024.Idx)
    (hk0 : (k 0).val = t.val / 8) (hk1 : (k 1).val = 512 * (t.val % 8) + r.val) (hk2 : (k 2).val = o.val) :
    out1_5 (F := Ideal) (iblk1 V c 0 t) (iblk1 V c 1 t) (iblk1 V c 2 t) (iblk1 V c 3 t) (iblk1 V c 4 t) (ix3 (0 : Fin 1) r o)
      = outK (V c main_v8_0) (V c main_v8_1) (V c main_v8_2) (V c main_v7) (V c main_v3) (k 0) (k 1) (k 2) := by
  refine (Pay.out1_5_apply _ _ _ _ _ r o).trans ?_
  unfold outK
  have eq : ∀ h : Fin 1024, (iblk1 V c 0 t : Vec Ideal S1x512x1024 .f32) (ix3 (0 : Fin 1) r h)
      = (V c main_v8_0 : S8x4096x1024.Idx → Elt Ideal .f32) (ix3 (k 0) (k 1) h) :=
    fun h => query_tile V c t _ _ hk0 hk1 rfl
  have ekv : ∀ h : Fin 1024, (iblk1 V c 1 t : Vec Ideal S1x1x1024 .f32) (ix3 (0 : Fin 1) (0 : Fin 1) h)
      = (V c main_v8_1 : S8x1x1024.Idx → Elt Ideal .f32) (ix3 (k 0) (0 : Fin 1) h) :=
    fun h => kv_row V c t _ _ hk0 rfl
  have eks : ∀ h : Fin 1024, (iblk1 V c 2 t : Vec Ideal S1x1x1024 .f32) (ix3 (0 : Fin 1) (0 : Fin 1) h)
      = (V c main_v8_2 : S8x1x1024.Idx → Elt Ideal .f32) (ix3 (k 0) (0 : Fin 1) h) :=
    fun h => ks_row V c t _ _ hk0 rfl
  have ko : k 2 = o := Fin.ext hk2
  rw [ko]
  refine congrArg gelu ?_
  refine congrArg₂ (· + ·) ?_ (bias_block V c t _)
  refine Finset.sum_congr rfl fun h _ => ?_
  rw [eq h, ekv h, eks h]
  exact congrArg _ (weight_block V c t _)

/-- The closed form of the whole result array. -/
abbrev resultArr (c : Dev nD) : S8x4096x1024.Idx → Elt Ideal .f32 := fun i =>
  outK (V c main_v8_0) (V c main_v8_1) (V c main_v8_2) (V c main_v7) (V c main_v3) (i 0) (i 1) (i 2)

/-- What point t writes back is its tile of the closed form. -/
theorem flushed_tile (c : Dev nD) (t : Fin cfg1.N) :
    (dat1 V c).flushed 5 t = ((cfg1.win 5).blk t).view.read (Elt Ideal) (resultArr V c) := by
  show (cfg1.win 5).cut (grid1.coords t) ((dat1 V c).after 5 t) = _
  rw [after1_5]
  obtain ⟨-, -, -, -, -, -, -, -, -, -, -, -, -, e0, e1, e2⟩ := block_index t
  funext j
  obtain ⟨a, r, o, rfl⟩ : ∃ (a : Fin 1) (r : Fin 512) (o : Fin 1024), j = ix3 a r o := ⟨j 0, j 1, j 2, eq_ix3 j⟩
  obtain rfl : a = 0 := Subsingleton.elim _ _
  rw [View.read_apply]
  show out1_5 (F := Ideal) (iblk1 V c 0 t) (iblk1 V c 1 t) (iblk1 V c 2 t) (iblk1 V c 3 t) (iblk1 V c 4 t) (ix3 (0 : Fin 1) r o)
    = resultArr V c (((cfg1.win 5).blk t).view.emb (ix3 (0 : Fin 1) r o))
  refine tile_entry V c t r o _ ?_ ?_ ?_
  · show win1_5.index t (0 : Fin 3) * 1 + 1 * 0 = t.val / 8; omega
  · show win1_5.index t (1 : Fin 3) * 512 + 1 * r.val = 512 * (t.val % 8) + r.val; omega
  · show win1_5.index t (2 : Fin 3) * 1024 + 1 * o.val = o.val; omega

/-- An index of the result array is in point t's tile iff each coordinate is in the tile's range on its axis. -/
theorem mem_tile (t : Fin cfg1.N) (i : S8x4096x1024.Idx) :
    i ∈ ((cfg1.win 5).blk t).view.set ↔ ∀ a : Fin 3, win1_5.index t a * S1x512x1024.size a ≤ (i a).val ∧ (i a).val < win1_5.index t a * S1x512x1024.size a + S1x512x1024.size a := by
  show i ∈ ((View.whole main_v9).slice (win1_5.rect t)).set ↔ _
  rw [View.set_slice_whole, Rect.mem_set_unit]
  exact Iff.rfl

/-- Every index (n, p, o) of the result array is in the tile of the point 8 n + p / 512, and every point writes back. -/
theorem tiles_cover (i : S8x4096x1024.Idx) :
    ∃ t : Fin cfg1.N, (cfg1.win 5).flush t = true ∧ i ∈ ((cfg1.win 5).blk t).view.set := by
  have hi0 : (i 0).val < 8 := (i 0).isLt
  have hi1 : (i 1).val < 4096 := (i 1).isLt
  have hi2 : (i 2).val < 1024 := (i 2).isLt
  have hN : cfg1.N = 64 := by decide +kernel
  let t : Fin cfg1.N := ⟨8 * (i 0).val + (i 1).val / 512, by rw [hN]; omega⟩
  have ht : t.val = 8 * (i 0).val + (i 1).val / 512 := rfl
  obtain ⟨-, -, -, -, -, -, -, -, -, -, -, -, -, e0, e1, e2⟩ := block_index t
  refine ⟨t, flush1_5 t, ?_⟩
  rw [mem_tile]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 1024 ≤ (i 2).val ∧ (i 2).val < win1_5.index t (2 : Fin 3) * 1024 + 1024; omega

/-- Every tile is written back, so the result array ends holding, at (n, s, o), the tanh-form unit of the projected
    attention value computed from the region's five operands. -/
theorem arr5_eq (c : Dev nD) :
    (dat1 V c).arrAt 5 cfg1.N = fun i =>
      outK (V c main_v8_0) (V c main_v8_1) (V c main_v8_2) (V c main_v7) (V c main_v3) (i 0) (i 1) (i 2) :=
  (dat1 V c).arrAt_eq_of_cover 5 (resultArr V c) (fun t _ => flushed_tile V c t) tiles_cover

end Cert.KernelIdeal.Hand.Arr1

end
-- ==== Proof.KernelValue.lean ====
/-
  The kernel's result array as the specification's function of the nine argument arrays, at the ideal instance.
  The entry function's host operations only relabel: a bias vector reshaped to a [1, 1024] row holds at (0, h) the
  vector's entry h, and a weight matrix's change of float format is the identity on extended reals. So the first
  region, entered with those, leaves the feature-mapped queries φ(lin x Wq bq), and per batch and channel the sums
  Σ_s φ(k)·v and Σ_s φ(k) over all 4096 positions; the second region, entered with these three arrays beside the
  output weights and the output bias row (no host operation and no write-back of the first region touches those two),
  leaves the tanh-form unit of the projected attention value: the specification, index by index.
-/
import proofs.«165790_j9397388444314_1_alg».proof.Proof.Run
import proofs.«165790_j9397388444314_1_alg».proof.Proof.KernelArr0
import proofs.«165790_j9397388444314_1_alg».proof.Proof.KernelArr1
import proofs.«165790_j9397388444314_1_alg».proof.Proof.KernelSpec
import proofs.«165790_j9397388444314_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand.Value

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Idealize.ShloMosaic.Pipeline (Dat)
open Cert.Spec (fm one eps gelu linK outK)

variable (m : (ℓ : Loc nD τ sig) → Buf (Elt Ideal) ℓ) (ρ : Dev nD → PrngReg)

/-! ## What the host operations leave -/

theorem V1_arg0 (c : Dev nD) : (V1 m ρ c main_arg0 : S8x4096x1024.Idx → EReal) = (m ((c : Thread nD τ).loc main_arg0)) :=
  StableHlo.after_of_writes_sub hostOps0 _ hostOps0_writes (by decide)

/-- A weight matrix's change of float format is the identity. -/
theorem V1_v4 (c : Dev nD) : (V1 m ρ c main_v4 : S1024x1024.Idx → EReal) = (m ((c : Thread nD τ).loc main_arg1)) := by
  show StableHlo.after hostOps0 _ (Proc.devRef .tc main_v4) = _
  after_results
  rfl
/-- A weight matrix's change of float format is the identity. -/
theorem V1_v5 (c : Dev nD) : (V1 m ρ c main_v5 : S1024x1024.Idx → EReal) = (m ((c : Thread nD τ).loc main_arg3)) := by
  show StableHlo.after hostOps0 _ (Proc.devRef .tc main_v5) = _
  after_results
  rfl
/-- A weight matrix's change of float format is the identity. -/
theorem V1_v6 (c : Dev nD) : (V1 m ρ c main_v6 : S1024x1024.Idx → EReal) = (m ((c : Thread nD τ).loc main_arg5)) := by
  show StableHlo.after hostOps0 _ (Proc.devRef .tc main_v6) = _
  after_results
  rfl
/-- A weight matrix's change of float format is the identity. -/
theorem V1_v7 (c : Dev nD) : (V1 m ρ c main_v7 : S1024x1024.Idx → EReal) = (m ((c : Thread nD τ).loc main_arg7)) := by
  show StableHlo.after hostOps0 _ (Proc.devRef .tc main_v7) = _
  after_results
  rfl

/-- A bias vector reshaped to a row holds at (0, h) the vector's entry h. -/
theorem V1_v0 (c : Dev nD) (h : Fin 1024) :
    (V1 m ρ c main_v0 : S1x1024.Idx → EReal) (ix2 (0 : Fin 1) h) = ((m ((c : Thread nD τ).loc main_arg2)) : S1024.Idx → EReal) (ix1 h) := by
  have e : (V1 m ρ c main_v0 : S1x1024.Idx → EReal)
      = shapeCast S1x1024 ((m ((c : Thread nD τ).loc main_arg2)) : S1024.Idx → EReal) shapeCasts_S1024_S1x1024 := by
    show StableHlo.after hostOps0 _ (Proc.devRef .tc main_v0) = _
    after_results
    rfl
  rw [e]
  exact shapeCast_a_1a_apply _ _ _ _
/-- A bias vector reshaped to a row holds at (0, h) the vector's entry h. -/
theorem V1_v1 (c : Dev nD) (h : Fin 1024) :
    (V1 m ρ c main_v1 : S1x1024.Idx → EReal) (ix2 (0 : Fin 1) h) = ((m ((c : Thread nD τ).loc main_arg4)) : S1024.Idx → EReal) (ix1 h) := by
  have e : (V1 m ρ c main_v1 : S1x1024.Idx → EReal)
      = shapeCast S1x1024 ((m ((c : Thread nD τ).loc main_arg4)) : S1024.Idx → EReal) shapeCasts_S1024_S1x1024 := by
    show StableHlo.after hostOps0 _ (Proc.devRef .tc main_v1) = _
    after_results
    rfl
  rw [e]
  exact shapeCast_a_1a_apply _ _ _ _
/-- A bias vector reshaped to a row holds at (0, h) the vector's entry h. -/
theorem V1_v2 (c : Dev nD) (h : Fin 1024) :
    (V1 m ρ c main_v2 : S1x1024.Idx → EReal) (ix2 (0 : Fin 1) h) = ((m ((c : Thread nD τ).loc main_arg6)) : S1024.Idx → EReal) (ix1 h) := by
  have e : (V1 m ρ c main_v2 : S1x1024.Idx → EReal)
      = shapeCast S1x1024 ((m ((c : Thread nD τ).loc main_arg6)) : S1024.Idx → EReal) shapeCasts_S1024_S1x1024 := by
    show StableHlo.after hostOps0 _ (Proc.devRef .tc main_v2) = _
    after_results
    rfl
  rw [e]
  exact shapeCast_a_1a_apply _ _ _ _
/-- A bias vector reshaped to a row holds at (0, h) the vector's entry h. -/
theorem V1_v3 (c : Dev nD) (h : Fin 1024) :
    (V1 m ρ c main_v3 : S1x1024.Idx → EReal) (ix2 (0 : Fin 1) h) = ((m ((c : Thread nD τ).loc main_arg8)) : S1024.Idx → EReal) (ix1 h) := by
  have e : (V1 m ρ c main_v3 : S1x1024.Idx → EReal)
      = shapeCast S1x1024 ((m ((c : Thread nD τ).loc main_arg8)) : S1024.Idx → EReal) shapeCasts_S1024_S1x1024 := by
    show StableHlo.after hostOps0 _ (Proc.devRef .tc main_v3) = _
    after_results
    rfl
  rw [e]
  exact shapeCast_a_1a_apply _ _ _ _

/-- The three projections as the first region sees its operands are the specification's. -/
theorem linK_q (c : Dev nD) (n : Fin 8) (s : Fin 4096) (h : Fin 1024) :
    linK (V1 m ρ c main_arg0) (V1 m ρ c main_v4) (V1 m ρ c main_v0) n s h = Cert.Spec.lin (m ((c : Thread nD τ).loc main_arg0)) (m ((c : Thread nD τ).loc main_arg1)) (m ((c : Thread nD τ).loc main_arg2)) n s h := by
  unfold linK Cert.Spec.lin
  rw [V1_arg0, V1_v4, V1_v0]
theorem linK_k (c : Dev nD) (n : Fin 8) (s : Fin 4096) (h : Fin 1024) :
    linK (V1 m ρ c main_arg0) (V1 m ρ c main_v5) (V1 m ρ c main_v1) n s h = Cert.Spec.lin (m ((c : Thread nD τ).loc main_arg0)) (m ((c : Thread nD τ).loc main_arg3)) (m ((c : Thread nD τ).loc main_arg4)) n s h := by
  unfold linK Cert.Spec.lin
  rw [V1_arg0, V1_v5, V1_v1]
theorem linK_v (c : Dev nD) (n : Fin 8) (s : Fin 4096) (h : Fin 1024) :
    linK (V1 m ρ c main_arg0) (V1 m ρ c main_v6) (V1 m ρ c main_v2) n s h = Cert.Spec.lin (m ((c : Thread nD τ).loc main_arg0)) (m ((c : Thread nD τ).loc main_arg5)) (m ((c : Thread nD τ).loc main_arg6)) n s h := by
  unfold linK Cert.Spec.lin
  rw [V1_arg0, V1_v6, V1_v2]

/-! ## What the second region is entered with -/

/-- The feature-mapped queries. -/
theorem q_at (c : Dev nD) (n : Fin 8) (s : Fin 4096) (h : Fin 1024) :
    (V2 m ρ c main_v8_0 : S8x4096x1024.Idx → EReal) (ix3 n s h) = fm (Cert.Spec.lin (m ((c : Thread nD τ).loc main_arg0)) (m ((c : Thread nD τ).loc main_arg1)) (m ((c : Thread nD τ).loc main_arg2)) n s h) := by
  have e : (V2 m ρ c main_v8_0 : S8x4096x1024.Idx → EReal) = (dat0 (V1 m ρ) c).arrAt 7 cfg0.N := (hF0 m ρ c 7).symm
  rw [e, Arr0.arr7_eq (V1 m ρ) c]
  exact congrArg fm (linK_q m ρ c n s h)

/-- The sums of φ(k) · v. -/
theorem kv_at (c : Dev nD) (n : Fin 8) (h : Fin 1024) :
    (V2 m ρ c main_v8_1 : S8x1x1024.Idx → EReal) (ix3 n (0 : Fin 1) h) = Cert.Spec.kv (m ((c : Thread nD τ).loc main_arg0)) (m ((c : Thread nD τ).loc main_arg3)) (m ((c : Thread nD τ).loc main_arg4)) (m ((c : Thread nD τ).loc main_arg5)) (m ((c : Thread nD τ).loc main_arg6)) n h := by
  have e : (V2 m ρ c main_v8_1 : S8x1x1024.Idx → EReal) = (dat0 (V1 m ρ) c).arrAt 8 cfg0.N := (hF0 m ρ c 8).symm
  rw [e, Arr0.arr8_eq (V1 m ρ) c]
  show (∑ s : Fin 4096, fm (linK _ _ _ n s h) * linK _ _ _ n s h : EReal) = _
  unfold Cert.Spec.kv
  exact Finset.sum_congr rfl fun s _ => by
    show fm (linK _ _ _ n s h) * linK _ _ _ n s h = _
    rw [linK_k, linK_v]

/-- The sums of φ(k). -/
theorem ks_at (c : Dev nD) (n : Fin 8) (h : Fin 1024) :
    (V2 m ρ c main_v8_2 : S8x1x1024.Idx → EReal) (ix3 n (0 : Fin 1) h) = Cert.Spec.ks (m ((c : Thread nD τ).loc main_arg0)) (m ((c : Thread nD τ).loc main_arg3)) (m ((c : Thread nD τ).loc main_arg4)) n h := by
  have e : (V2 m ρ c main_v8_2 : S8x1x1024.Idx → EReal) = (dat0 (V1 m ρ) c).arrAt 9 cfg0.N := (hF0 m ρ c 9).symm
  rw [e, Arr0.arr9_eq (V1 m ρ) c]
  show (∑ s : Fin 4096, fm (linK _ _ _ n s h) : EReal) = _
  unfold Cert.Spec.ks
  exact Finset.sum_congr rfl fun s _ => by
    show fm (linK _ _ _ n s h) = _
    rw [linK_k]

/-- The output weights and the output bias row, untouched by the first region. -/
theorem wo_at (c : Dev nD) : (V2 m ρ c main_v7 : S1024x1024.Idx → EReal) = (m ((c : Thread nD τ).loc main_arg7)) := by
  have e : (V2 m ρ c main_v7 : S1024x1024.Idx → EReal) = V1 m ρ c main_v7 := W2_of_ne m ρ c main_v7 (by decide)
  rw [e, V1_v7]
theorem bo_at (c : Dev nD) (o : Fin 1024) :
    (V2 m ρ c main_v3 : S1x1024.Idx → EReal) (ix2 (0 : Fin 1) o) = ((m ((c : Thread nD τ).loc main_arg8)) : S1024.Idx → EReal) (ix1 o) := by
  have e : (V2 m ρ c main_v3 : S1x1024.Idx → EReal) = V1 m ρ c main_v3 := W2_of_ne m ρ c main_v3 (by decide)
  rw [e, V1_v3]

/-! ## The result -/

/-- The result array after the run is the specification's function of the nine argument arrays. -/
theorem result_eq (c : Dev nD) :
    (dat1 (V2 m ρ) c).arrAt 5 cfg1.N
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Arr1.arr5_eq (V2 m ρ) c]
  funext i
  obtain ⟨n, s, o, rfl⟩ : ∃ (n : Fin 8) (s : Fin 4096) (o : Fin 1024), i = ix3 n s o := ⟨i 0, i 1, i 2, eq_ix3 i⟩
  show outK (V2 m ρ c main_v8_0) (V2 m ρ c main_v8_1) (V2 m ρ c main_v8_2) (V2 m ρ c main_v7) (V2 m ρ c main_v3) n s o
    = Cert.Spec.Gat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) n s o
  unfold outK Cert.Spec.Gat Cert.Spec.proj Cert.Spec.att
  rw [bo_at, wo_at]
  refine congrArg gelu (congrArg (· + _) (Finset.sum_congr rfl fun h _ => ?_))
  rw [q_at, kv_at, ks_at]

end Cert.KernelIdeal.Hand.Value

end
-- ==== Proof.RefTerm.lean ====
/-
  The reference program's result as ONE pure term of its nine argument arrays: each host operation of its
  entry function applied to the terms of its operands, in the program's order, the two calls of the
  exponential-linear-unit helper (and the two selects it calls) written out where they are called.
  With x : [8, 4096, 1024], four weight matrices [1024, 1024] and four bias vectors [1024]:
    q = x·Wq + bq,  k = x·Wk + bk,  v = x·Wv + bv               (contraction over the last axis of x)
    Q = elu q + 1,  K = elu k + 1                                (elu t = t if t > 0, else 1·expm1 t)
    KV[n, h] = Σ_s K[n, s, h]·v[n, s, h],   Ks[n, h] = Σ_s K[n, s, h]
    Z = 1 / (Q·Ks + ε),   V = (Q·KV)·Z,   y = V·Wo + bo
    result = y · (½ · (1 + tanh (c₀ · (y + c₁ · ((y·y)·y)))))
-/
import proofs.«165790_j9397388444314_1_alg».proof.ReferenceIdeal

noncomputable section

namespace Cert.ReferenceIdeal.Hand

open Cert.ReferenceIdeal Idealize.ShloMosaic
open Cert.ReferenceIdeal.Facts₀

variable {F : FTy → Type} [FloatOps F] [Cert.ReferenceIdeal.Facts]

/-- The arrays' types. -/
abbrev T3 (F : FTy → Type) : Type := (⟨S8x4096x1024, .f32⟩ : BufTy).Contents (Elt F)
abbrev TW (F : FTy → Type) : Type := (⟨S1024x1024, .f32⟩ : BufTy).Contents (Elt F)
abbrev TB (F : FTy → Type) : Type := (⟨S1024, .f32⟩ : BufTy).Contents (Elt F)
abbrev T2 (F : FTy → Type) : Type := (⟨S8x1024, .f32⟩ : BufTy).Contents (Elt F)

/-- A scalar literal spread over the whole [8, 4096, 1024] array. -/
def splat (w : BitVec 32) : T3 F :=
  broadcastInDim S8x4096x1024 ![] bcast_S_S8x4096x1024 (constant (F := F) S_ .f32 w)

/-- A bias vector [1024] spread along the two leading axes. -/
def spreadBias (b : TB F) : T3 F :=
  broadcastInDim S8x4096x1024 ![0, 1, 2] bcast_S1x1x1024_S8x4096x1024_0_1_2
    (broadcastInDim S1x1x1024 ![2] bcast_S1024_S1x1x1024_2 b)

/-- A projection: the contraction of the last axis of `x` with the first of `W`, plus the bias. -/
def lin (x : T3 F) (W : TW F) (b : TB F) : T3 F :=
  addf (Host.dotGeneral dot_S8x4096x1024_S1024x1024_S8x4096x1024_2_0_01_1_n_n none x W) (spreadBias b)

/-- The exponential linear unit as the program spells it: `a` where `a > 0`, else `1 · expm1` of (`0` where `a > 0`, else `a`). -/
def elu (a : T3 F) : T3 F :=
  select (cmpf .ogt a (splat 0x00000000#32)) a
    (mulf (splat 0x3F800000#32)
      (Host.expm1 (select (cmpf .ogt a (splat 0x00000000#32))
        (broadcastInDim S8x4096x1024 ![] bcast_S_S8x4096x1024 (id (constant (F := F) S_ .f32 0x00000000#32))) a)))

/-- The feature map: `elu + 1`. -/
def fmap (a : T3 F) : T3 F := addf (elu a) (splat 0x3F800000#32)

/-- The sum along the sequence axis, from zero. -/
def seqSum (a : T3 F) : T2 F :=
  Host.reduceAdd a (constant (F := F) S_ .f32 0x00000000#32) reducesTo_S8x4096x1024_S8x1024_d1 h_S_

/-- A per-(batch, channel) array [8, 1024] spread along the sequence axis. -/
def spreadSeq (a : T2 F) : T3 F :=
  broadcastInDim S8x4096x1024 ![0, 1, 2] bcast_S8x1x1024_S8x4096x1024_0_1_2
    (broadcastInDim S8x1x1024 ![0, 2] bcast_S8x1024_S8x1x1024_0_2 a)

/-- The normalised attention values `(Q · KV) · (1 / (Q · Ks + ε))`. -/
def attn (Q K v : T3 F) : T3 F :=
  mulf (mulf Q (spreadSeq (seqSum (mulf K v))))
    (Host.divf (splat 0x3F800000#32) (addf (mulf Q (spreadSeq (seqSum K))) (splat 0x358637BD#32)))

/-- The tanh form of the Gaussian error linear unit, as the program associates it. -/
def gelu (y : T3 F) : T3 F :=
  mulf y (mulf (splat 0x3F000000#32)
    (addf (splat 0x3F800000#32)
      (Host.tanh (mulf (splat 0x3F4C422A#32) (addf y (mulf (splat 0x3D372713#32) (mulf (mulf y y) y)))))))

/-- The program's result from its nine arguments. -/
def refOut (x : T3 F) (Wq : TW F) (bq : TB F) (Wk : TW F) (bk : TB F) (Wv : TW F) (bv : TB F) (Wo : TW F) (bo : TB F) : T3 F :=
  gelu (lin (attn (fmap (lin x Wq bq)) (fmap (lin x Wk bk)) (lin x Wv bv)) Wo bo)

end Cert.ReferenceIdeal.Hand

end
-- ==== Proof.RefRun.lean ====
/-
  The reference program's run: its entry function is a straight line of eighty-seven whole-array operations
  once the two calls of the exponential-linear-unit helper are written out where they are called, so every
  execution ends with each buffer at the fold of the operations' functions over the launch contents. At the
  result buffer that fold is the pure term `refOut` of the nine arguments; no operation writes an argument.
-/
import proofs.«165790_j9397388444314_1_alg».proof.Proof.RefTerm
import proofs.«165790_j9397388444314_1_alg».proof.Proof.Gen.ReferenceIdeal
import Idealize.ShloMosaic.Lib.StableHlo.Run

noncomputable section

namespace Cert.ReferenceIdeal.Hand.Run

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

/-- The entry function's eighty-seven operations, in order, the two calls of the exponential-linear-unit
    helper (fifteen operations each, its two selects among them) listed where they are called, over the
    buffers of that call's record. -/
abbrev ops : List (HloOp τ sig (Elt F)) :=
  [ binary main_arg0 main_arg1 main_v0 ((fun l r => Host.dotGeneral dot_S8x4096x1024_S1024x1024_S8x4096x1024_2_0_01_1_n_n none l r) : (⟨S8x4096x1024, .f32⟩ : BufTy).Contents (Elt F) → (⟨S1024x1024, .f32⟩ : BufTy).Contents (Elt F) → (⟨S8x4096x1024, .f32⟩ : BufTy).Contents (Elt F)),
    unary main_arg2 main_v1 (broadcastInDim S1x1x1024 ![2] bcast_S1024_S1x1x1024_2 : (⟨S1024, .f32⟩ : BufTy).Contents (Elt F) → (⟨S1x1x1024, .f32⟩ : BufTy).Contents (Elt F)),
    unary main_v1 main_v2 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v0 main_v2 main_v3 (addf : (⟨S8x4096x1024, .f32⟩ : BufTy).Contents (Elt F) → (⟨S8x4096x1024, .f32⟩ : BufTy).Contents (Elt F) → (⟨S8x4096x1024, .f32⟩ : BufTy).Contents (Elt F)),
    binary main_arg0 main_arg3 main_v4 ((fun l r => Host.dotGeneral dot_S8x4096x1024_S1024x1024_S8x4096x1024_2_0_01_1_n_n none l r) : (⟨S8x4096x1024, .f32⟩ : BufTy).Contents (Elt F) → (⟨S1024x1024, .f32⟩ : BufTy).Contents (Elt F) → (⟨S8x4096x1024, .f32⟩ : BufTy).Contents (Elt F)),
    unary main_arg4 main_v5 (broadcastInDim S1x1x1024 ![2] bcast_S1024_S1x1x1024_2 : (⟨S1024, .f32⟩ : BufTy).Contents (Elt F) → (⟨S1x1x1024, .f32⟩ : BufTy).Contents (Elt F)),
    unary main_v5 main_v6 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v4 main_v6 main_v7 (addf : (⟨S8x4096x1024, .f32⟩ : BufTy).Contents (Elt F) → (⟨S8x4096x1024, .f32⟩ : BufTy).Contents (Elt F) → (⟨S8x4096x1024, .f32⟩ : BufTy).Contents (Elt F)),
    binary main_arg0 main_arg5 main_v8 ((fun l r => Host.dotGeneral dot_S8x4096x1024_S1024x1024_S8x4096x1024_2_0_01_1_n_n none l r) : (⟨S8x4096x1024, .f32⟩ : BufTy).Contents (Elt F) → (⟨S1024x1024, .f32⟩ : BufTy).Contents (Elt F) → (⟨S8x4096x1024, .f32⟩ : BufTy).Contents (Elt F)),
    unary main_arg6 main_v9 (broadcastInDim S1x1x1024 ![2] bcast_S1024_S1x1x1024_2 : (⟨S1024, .f32⟩ : BufTy).Contents (Elt F) → (⟨S1x1x1024, .f32⟩ : BufTy).Contents (Elt F)),
    unary main_v9 main_v10 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v8 main_v10 main_v11 (addf : (⟨S8x4096x1024, .f32⟩ : BufTy).Contents (Elt F) → (⟨S8x4096x1024, .f32⟩ : BufTy).Contents (Elt F) → (⟨S8x4096x1024, .f32⟩ : BufTy).Contents (Elt F)),
    TRef.nullary main_call0.cst (constant S_ .f32 0x00000000#32),
    TRef.unary main_call0.cst main_call0.v0 (broadcastInDim S8x4096x1024 ![] bcast_S_S8x4096x1024),
    TRef.binary (.of main_v3 : TRef sig ⟨S8x4096x1024, .f32⟩) main_call0.v0 main_call0.v1 (cmpf .ogt),
    TRef.nullary main_call0.cst_0 (constant S_ .f32 0x00000000#32),
    TRef.unary main_call0.cst_0 main_call0.v2 (broadcastInDim S8x4096x1024 ![] bcast_S_S8x4096x1024),
    TRef.binary (.of main_v3 : TRef sig ⟨S8x4096x1024, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S8x4096x1024 ![] bcast_S_S8x4096x1024),
    TRef.ternary main_call0.v3 main_call0.call0.v1 (.of main_v3 : TRef sig ⟨S8x4096x1024, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S8x4096x1024 ![] bcast_S_S8x4096x1024),
    TRef.binary main_call0.v6 main_call0.v5 main_call0.v7 mulf,
    TRef.ternary main_call0.v1 (.of main_v3 : TRef sig ⟨S8x4096x1024, .f32⟩) main_call0.v7 main_call0.call1.v0 select,
    nullary main_cst (constant S_ .f32 0x3F800000#32),
    unary main_cst main_v13 (broadcastInDim S8x4096x1024 ![] bcast_S_S8x4096x1024 : (⟨S_, .f32⟩ : BufTy).Contents (Elt F) → (⟨S8x4096x1024, .f32⟩ : BufTy).Contents (Elt F)),
    binary main_v12 main_v13 main_v14 (addf : (⟨S8x4096x1024, .f32⟩ : BufTy).Contents (Elt F) → (⟨S8x4096x1024, .f32⟩ : BufTy).Contents (Elt F) → (⟨S8x4096x1024, .f32⟩ : BufTy).Contents (Elt F)),
    TRef.nullary main_call1.cst (constant S_ .f32 0x00000000#32),
    TRef.unary main_call1.cst main_call1.v0 (broadcastInDim S8x4096x1024 ![] bcast_S_S8x4096x1024),
    TRef.binary (.of main_v7 : TRef sig ⟨S8x4096x1024, .f32⟩) main_call1.v0 main_call1.v1 (cmpf .ogt),
    TRef.nullary main_call1.cst_0 (constant S_ .f32 0x00000000#32),
    TRef.unary main_call1.cst_0 main_call1.v2 (broadcastInDim S8x4096x1024 ![] bcast_S_S8x4096x1024),
    TRef.binary (.of main_v7 : TRef sig ⟨S8x4096x1024, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S8x4096x1024 ![] bcast_S_S8x4096x1024),
    TRef.ternary main_call1.v3 main_call1.call0.v1 (.of main_v7 : TRef sig ⟨S8x4096x1024, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S8x4096x1024 ![] bcast_S_S8x4096x1024),
    TRef.binary main_call1.v6 main_call1.v5 main_call1.v7 mulf,
    TRef.ternary main_call1.v1 (.of main_v7 : TRef sig ⟨S8x4096x1024, .f32⟩) main_call1.v7 main_call1.call1.v0 select,
    nullary main_cst_0 (constant S_ .f32 0x3F800000#32),
    unary main_cst_0 main_v16 (broadcastInDim S8x4096x1024 ![] bcast_S_S8x4096x1024 : (⟨S_, .f32⟩ : BufTy).Contents (Elt F) → (⟨S8x4096x1024, .f32⟩ : BufTy).Contents (Elt F)),
    binary main_v15 main_v16 main_v17 (addf : (⟨S8x4096x1024, .f32⟩ : BufTy).Contents (Elt F) → (⟨S8x4096x1024, .f32⟩ : BufTy).Contents (Elt F) → (⟨S8x4096x1024, .f32⟩ : BufTy).Contents (Elt F)),
    binary main_v17 main_v11 main_v18 (mulf : (⟨S8x4096x1024, .f32⟩ : BufTy).Contents (Elt F) → (⟨S8x4096x1024, .f32⟩ : BufTy).Contents (Elt F) → (⟨S8x4096x1024, .f32⟩ : BufTy).Contents (Elt F)),
    nullary main_cst_1 (constant S_ .f32 0x00000000#32),
    binary main_v18 main_cst_1 main_v19 ((fun x v => Host.reduceAdd x v reducesTo_S8x4096x1024_S8x1024_d1 h_S_) : (⟨S8x4096x1024, .f32⟩ : BufTy).Contents (Elt F) → (⟨S_, .f32⟩ : BufTy).Contents (Elt F) → (⟨S8x1024, .f32⟩ : BufTy).Contents (Elt F)),
    nullary main_cst_2 (constant S_ .f32 0x00000000#32),
    binary main_v17 main_cst_2 main_v20 ((fun x v => Host.reduceAdd x v reducesTo_S8x4096x1024_S8x1024_d1 h_S_) : (⟨S8x4096x1024, .f32⟩ : BufTy).Contents (Elt F) → (⟨S_, .f32⟩ : BufTy).Contents (Elt F) → (⟨S8x1024, .f32⟩ : BufTy).Contents (Elt F)),
    unary main_v20 main_v21 (broadcastInDim S8x1x1024 ![0, 2] bcast_S8x1024_S8x1x1024_0_2 : (⟨S8x1024, .f32⟩ : BufTy).Contents (Elt F) → (⟨S8x1x1024, .f32⟩ : BufTy).Contents (Elt F)),
    unary main_v21 main_v22 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
    binary main_v14 main_v22 main_v23 (mulf : (⟨S8x4096x1024, .f32⟩ : BufTy).Contents (Elt F) → (⟨S8x4096x1024, .f32⟩ : BufTy).Contents (Elt F) → (⟨S8x4096x1024, .f32⟩ : BufTy).Contents (Elt F)),
    nullary main_cst_3 (constant S_ .f32 0x358637BD#32),
    unary main_cst_3 main_v24 (broadcastInDim S8x4096x1024 ![] bcast_S_S8x4096x1024 : (⟨S_, .f32⟩ : BufTy).Contents (Elt F) → (⟨S8x4096x1024, .f32⟩ : BufTy).Contents (Elt F)),
    binary main_v23 main_v24 main_v25 (addf : (⟨S8x4096x1024, .f32⟩ : BufTy).Contents (Elt F) → (⟨S8x4096x1024, .f32⟩ : BufTy).Contents (Elt F) → (⟨S8x4096x1024, .f32⟩ : BufTy).Contents (Elt F)),
    nullary main_cst_4 (constant S_ .f32 0x3F800000#32),
    unary main_cst_4 main_v26 (broadcastInDim S8x4096x1024 ![] bcast_S_S8x4096x1024 : (⟨S_, .f32⟩ : BufTy).Contents (Elt F) → (⟨S8x4096x1024, .f32⟩ : BufTy).Contents (Elt F)),
    binary main_v26 main_v25 main_v27 (Host.divf : (⟨S8x4096x1024, .f32⟩ : BufTy).Contents (Elt F) → (⟨S8x4096x1024, .f32⟩ : BufTy).Contents (Elt F) → (⟨S8x4096x1024, .f32⟩ : BufTy).Contents (Elt F)),
    unary main_v19 main_v28 (broadcastInDim S8x1x1024 ![0, 2] bcast_S8x1024_S8x1x1024_0_2 : (⟨S8x1024, .f32⟩ : BufTy).Contents (Elt F) → (⟨S8x1x1024, .f32⟩ : BufTy).Contents (Elt F)),
    unary main_v28 main_v29 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
    binary main_v14 main_v29 main_v30 (mulf : (⟨S8x4096x1024, .f32⟩ : BufTy).Contents (Elt F) → (⟨S8x4096x1024, .f32⟩ : BufTy).Contents (Elt F) → (⟨S8x4096x1024, .f32⟩ : BufTy).Contents (Elt F)),
    binary main_v30 main_v27 main_v31 (mulf : (⟨S8x4096x1024, .f32⟩ : BufTy).Contents (Elt F) → (⟨S8x4096x1024, .f32⟩ : BufTy).Contents (Elt F) → (⟨S8x4096x1024, .f32⟩ : BufTy).Contents (Elt F)),
    binary main_v31 main_arg7 main_v32 ((fun l r => Host.dotGeneral dot_S8x4096x1024_S1024x1024_S8x4096x1024_2_0_01_1_n_n none l r) : (⟨S8x4096x1024, .f32⟩ : BufTy).Contents (Elt F) → (⟨S1024x1024, .f32⟩ : BufTy).Contents (Elt F) → (⟨S8x4096x1024, .f32⟩ : BufTy).Contents (Elt F)),
    unary main_arg8 main_v33 (broadcastInDim S1x1x1024 ![2] bcast_S1024_S1x1x1024_2 : (⟨S1024, .f32⟩ : BufTy).Contents (Elt F) → (⟨S1x1x1024, .f32⟩ : BufTy).Contents (Elt F)),
    unary main_v33 main_v34 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v32 main_v34 main_v35 (addf : (⟨S8x4096x1024, .f32⟩ : BufTy).Contents (Elt F) → (⟨S8x4096x1024, .f32⟩ : BufTy).Contents (Elt F) → (⟨S8x4096x1024, .f32⟩ : BufTy).Contents (Elt F)),
    binary main_v35 main_v35 main_v36 (mulf : (⟨S8x4096x1024, .f32⟩ : BufTy).Contents (Elt F) → (⟨S8x4096x1024, .f32⟩ : BufTy).Contents (Elt F) → (⟨S8x4096x1024, .f32⟩ : BufTy).Contents (Elt F)),
    binary main_v36 main_v35 main_v37 (mulf : (⟨S8x4096x1024, .f32⟩ : BufTy).Contents (Elt F) → (⟨S8x4096x1024, .f32⟩ : BufTy).Contents (Elt F) → (⟨S8x4096x1024, .f32⟩ : BufTy).Contents (Elt F)),
    nullary main_cst_5 (constant S_ .f32 0x3D372713#32),
    unary main_cst_5 main_v38 (broadcastInDim S8x4096x1024 ![] bcast_S_S8x4096x1024 : (⟨S_, .f32⟩ : BufTy).Contents (Elt F) → (⟨S8x4096x1024, .f32⟩ : BufTy).Contents (Elt F)),
    binary main_v38 main_v37 main_v39 (mulf : (⟨S8x4096x1024, .f32⟩ : BufTy).Contents (Elt F) → (⟨S8x4096x1024, .f32⟩ : BufTy).Contents (Elt F) → (⟨S8x4096x1024, .f32⟩ : BufTy).Contents (Elt F)),
    binary main_v35 main_v39 main_v40 (addf : (⟨S8x4096x1024, .f32⟩ : BufTy).Contents (Elt F) → (⟨S8x4096x1024, .f32⟩ : BufTy).Contents (Elt F) → (⟨S8x4096x1024, .f32⟩ : BufTy).Contents (Elt F)),
    nullary main_cst_6 (constant S_ .f32 0x3F4C422A#32),
    unary main_cst_6 main_v41 (broadcastInDim S8x4096x1024 ![] bcast_S_S8x4096x1024 : (⟨S_, .f32⟩ : BufTy).Contents (Elt F) → (⟨S8x4096x1024, .f32⟩ : BufTy).Contents (Elt F)),
    binary main_v41 main_v40 main_v42 (mulf : (⟨S8x4096x1024, .f32⟩ : BufTy).Contents (Elt F) → (⟨S8x4096x1024, .f32⟩ : BufTy).Contents (Elt F) → (⟨S8x4096x1024, .f32⟩ : BufTy).Contents (Elt F)),
    unary main_v42 main_v43 (Host.tanh : (⟨S8x4096x1024, .f32⟩ : BufTy).Contents (Elt F) → (⟨S8x4096x1024, .f32⟩ : BufTy).Contents (Elt F)),
    nullary main_cst_7 (constant S_ .f32 0x3F800000#32),
    unary main_cst_7 main_v44 (broadcastInDim S8x4096x1024 ![] bcast_S_S8x4096x1024 : (⟨S_, .f32⟩ : BufTy).Contents (Elt F) → (⟨S8x4096x1024, .f32⟩ : BufTy).Contents (Elt F)),
    binary main_v44 main_v43 main_v45 (addf : (⟨S8x4096x1024, .f32⟩ : BufTy).Contents (Elt F) → (⟨S8x4096x1024, .f32⟩ : BufTy).Contents (Elt F) → (⟨S8x4096x1024, .f32⟩ : BufTy).Contents (Elt F)),
    nullary main_cst_8 (constant S_ .f32 0x3F000000#32),
    unary main_cst_8 main_v46 (broadcastInDim S8x4096x1024 ![] bcast_S_S8x4096x1024 : (⟨S_, .f32⟩ : BufTy).Contents (Elt F) → (⟨S8x4096x1024, .f32⟩ : BufTy).Contents (Elt F)),
    binary main_v46 main_v45 main_v47 (mulf : (⟨S8x4096x1024, .f32⟩ : BufTy).Contents (Elt F) → (⟨S8x4096x1024, .f32⟩ : BufTy).Contents (Elt F) → (⟨S8x4096x1024, .f32⟩ : BufTy).Contents (Elt F)),
    binary main_v35 main_v47 main_v48 (mulf : (⟨S8x4096x1024, .f32⟩ : BufTy).Contents (Elt F) → (⟨S8x4096x1024, .f32⟩ : BufTy).Contents (Elt F) → (⟨S8x4096x1024, .f32⟩ : BufTy).Contents (Elt F)) ]

set_option maxRecDepth 16384 in
/-- The entry function is that straight line: sequencing in the free monad grafts a callee's chain of
    steps onto the caller's by computation, so both sides are one chain of the same steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., binary_bufs_sub .., nullary_bufs_sub .., binary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub ..⟩

/-- The fold of the operations at the result buffer: each operation's result read at its own buffer is its
    function of its operands' contents, every other buffer keeps what it held; what is left is the composed
    term of the nine arguments, which is `refOut` with its small definitions opened (the typed references'
    transports are the identity at literal references). -/
theorem out_eq (V : Valuation τ sig (Elt F)) :
    after ops V (main_v48 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  after_results_simp
  unfold refOut gelu lin attn fmap elu seqSum spreadSeq spreadBias splat
  rfl

/-! No operation writes an argument's buffer, so each keeps its launch contents. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

/-- On every device, for any float values, from any memory with zero counters: every weakly fair execution of
    the entry function terminates with the result buffer at `refOut` of the arguments' launch contents and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) =
          refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v48).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

end Cert.ReferenceIdeal.Hand.Run

end
-- ==== Proof.RefValuePt.lean ====
/-
  The two pointwise laws behind the reference program's result, over the extended reals, and the two literals
  they evaluate.

  * The exponential linear unit plus one. The program computes, of one number t,
        (t where t > 0, else 1 · (exp u − 1)) + 1,   u = (0 where t > 0, else t),
    and the specification's feature map is t + 1 where 0 < t, else exp t. Where 0 < t both are t + 1. Elsewhere
    u = t and the claim is 1 · (exp t − 1) + 1 = exp t, true because exp t is 0 (at −∞) or a real number, so that the
    subtraction and the addition are the real ones. No finiteness of t is assumed.
  * The tanh form of the Gaussian error linear unit: the program associates y · (½ · (1 + T)), the specification
    (½ · y) · (1 + T); multiplication of extended reals is commutative and associative.
-/
import proofs.«165790_j9397388444314_1_alg».proof.Proof.Spec
import Idealize.ShloMosaic.PureOps.Ideal.Laws
import Idealize.ShloMosaic.Lib.IdealHost

noncomputable section

namespace Cert.ReferenceIdeal.Hand.Value

open Idealize.ShloMosaic

/-- The word 0x3F800000 denotes the extended real one. -/
theorem one_eq : Cert.Spec.one = 1 := Ideal.ofBits_one_f32

/-- For an exponential's value `e` that is not −∞ … in fact for 0 and for every real: (e − 1) + 1 = e. -/
theorem exp_sub_one_add_one (t : EReal) (ht : ¬ 0 < t) : 1 * (Ideal.exp t - 1) + 1 = Ideal.exp t := by
  rw [one_mul]
  induction t using EReal.rec with
  | bot =>
    rw [Ideal.exp_bot]
    rw [show (0 : EReal) = ((0 : ℝ) : EReal) from rfl, show (1 : EReal) = ((1 : ℝ) : EReal) from rfl,
      ← EReal.coe_sub, ← EReal.coe_add]
    norm_num
  | top => exact absurd (EReal.zero_lt_top) ht
  | coe r =>
    rw [Ideal.exp_coe, show (1 : EReal) = ((1 : ℝ) : EReal) from rfl, ← EReal.coe_sub, ← EReal.coe_add, sub_add_cancel]

/-- The exponential linear unit plus one, as the program computes it of one number, is the specification's feature map. -/
theorem elu_add_one (t : EReal) :
    Scalar.select (Ideal.cmp .ogt t 0) t
        (1 * (Ideal.exp (Scalar.select (Ideal.cmp .ogt t 0) 0 t) - 1)) + 1 = Cert.Spec.fm t := by
  unfold Cert.Spec.fm
  rw [one_eq]
  by_cases h : 0 < t
  · have hc : Ideal.cmp .ogt t 0 = 1#1 := by simp [Ideal.cmp, h]
    rw [hc, if_pos h]
    rfl
  · have hc : Ideal.cmp .ogt t 0 = 0#1 := by simp [Ideal.cmp, h]
    rw [hc, if_neg h]
    show 1 * (Ideal.exp t - 1) + 1 = Ideal.exp t
    exact exp_sub_one_add_one t h

/-- The program's association of the Gaussian error linear unit against the specification's. -/
theorem gelu_assoc (y T : EReal) :
    y * (Cert.Spec.half * (Cert.Spec.one + T)) = (Cert.Spec.half * y) * (Cert.Spec.one + T) := by
  rw [← mul_assoc, mul_comm y Cert.Spec.half]

end Cert.ReferenceIdeal.Hand.Value

end
-- ==== Proof.RefValueRead.lean ====
/-
  The reference program's layout operations, its one reduction and its one contraction, each read at an index given
  by its coordinates.

  * A scalar literal spread over the whole array reads the extended real its word denotes, everywhere.
  * A bias vector [1024] spread along the two leading axes reads, at (n, s, h), the vector at h; an array [8, 1024]
    spread along the sequence axis reads, at (n, s, h), the array at (n, h). Each is two broadcasts in a row: into a
    shape with unit axes, then along those unit axes; a broadcast reads its operand at the coordinates it keeps and at 0
    on the operand's unit axes.
  * The sum along the sequence axis from the zero word reads, at (n, h), 0 + Σ_s of the operand at (n, s, h).
  * The projection reads, at (n, s, h), Σ_d x[n, s, d] · W[d, h] + b[h]: the contraction's index set has one axis of
    extent 1024, identified with its coordinate, and the two operand indices at output index (n, s, h) and contraction
    coordinate d are (n, s, d) and (d, h).
-/
import proofs.«165790_j9397388444314_1_alg».proof.Proof.RefTerm
import proofs.«165790_j9397388444314_1_alg».proof.Proof.Spec
import proofs.«165790_j9397388444314_1_alg».proof.Proof.Gen.ReferenceIdeal
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.Hand.Value

open Cert.ReferenceIdeal Cert.ReferenceIdeal.Hand Idealize.ShloMosaic Idealize.ShloMosaic.ValueIdx
open Cert.ReferenceIdeal.Facts₀

/-! ## Layout -/

/-- A spread scalar literal reads the extended real its word denotes. -/
theorem splat_apply (w : BitVec 32) (i : S8x4096x1024.Idx) : splat (F := Ideal) w i = Ideal.ofBits .f32 w := by
  unfold splat
  exact broadcastInDim_scalar_apply _ _ i

/-- The same for the literal the program passes through a format change that is the identity. -/
theorem splat_id_apply (w : BitVec 32) (i : S8x4096x1024.Idx) :
    broadcastInDim S8x4096x1024 ![] bcast_S_S8x4096x1024 (id (constant (F := Ideal) S_ .f32 w)) i = Ideal.ofBits .f32 w :=
  broadcastInDim_scalar_apply _ _ i

/-- A spread bias vector at (n, s, h) is the vector at h. -/
theorem spreadBias_apply (b : TB Ideal) (n : Fin 8) (s : Fin 4096) (h : Fin 1024) :
    spreadBias (F := Ideal) b (ix3 n s h) = b (ix1 h) := by
  unfold spreadBias
  refine (broadcastInDim_apply _ _ _ (ix3 n s h) (ix3 (0 : Fin 1) (0 : Fin 1) h) ?_).trans ?_
  · intro a
    match a with
    | ⟨0, _⟩ => rfl
    | ⟨1, _⟩ => rfl
    | ⟨2, _⟩ => rfl
  · refine broadcastInDim_apply _ _ _ _ (ix1 h) ?_
    intro a
    match a with
    | ⟨0, _⟩ => rfl

/-- An array [8, 1024] spread along the sequence axis, at (n, s, h), is the array at (n, h). -/
theorem spreadSeq_apply (a : T2 Ideal) (n : Fin 8) (s : Fin 4096) (h : Fin 1024) :
    spreadSeq (F := Ideal) a (ix3 n s h) = a (ix2 n h) := by
  unfold spreadSeq
  refine (broadcastInDim_apply _ _ _ (ix3 n s h) (ix3 n (0 : Fin 1) h) ?_).trans ?_
  · intro c
    match c with
    | ⟨0, _⟩ => rfl
    | ⟨1, _⟩ => rfl
    | ⟨2, _⟩ => rfl
  · refine broadcastInDim_apply _ _ _ _ (ix2 n h) ?_
    intro c
    match c with
    | ⟨0, _⟩ => rfl
    | ⟨1, _⟩ => rfl

/-! ## The sum along the sequence axis -/

/-- The sum along the sequence axis at (n, h): the sum over s of the operand at (n, s, h). -/
theorem seqSum_apply (a : T3 Ideal) (n : Fin 8) (h : Fin 1024) :
    seqSum (F := Ideal) a (ix2 n h) = ∑ s : Fin 4096, a (ix3 n s h) := by
  unfold seqSum
  refine (hostReduceAdd_apply a _ reducesTo_S8x4096x1024_S8x1024_d1 h_S_ (ix2 n h)).trans ?_
  refine (Ideal.hostReduceAdd_single reducesTo_S8x4096x1024_S8x1024_d1 (by decide) a _ (ix2 n h)).trans ?_
  rw [constant_apply, Ideal.ofBits_zero_f32, zero_add]
  refine Finset.sum_congr rfl fun s _ => ?_
  exact congrArg a (funext fun c => Fin.ext (by match c with | ⟨0, _⟩ => rfl | ⟨1, _⟩ => rfl | ⟨2, _⟩ => rfl))

/-! ## The projection -/

/-- The left operand's index at output index i and contraction index q, axis by axis … -/
theorem lhs_0 (i : S8x4096x1024.Idx) (q : dot_S8x4096x1024_S1024x1024_S8x4096x1024_2_0_01_1_n_n.contr.Idx) :
    (dot_S8x4096x1024_S1024x1024_S8x4096x1024_2_0_01_1_n_n.lhsIdx i q 0).val = (i 0).val := by
  unfold DotDims.lhsIdx
  rw [dif_neg (show ¬(0 : Fin S8x4096x1024.rank) ∈ dot_S8x4096x1024_S1024x1024_S8x4096x1024_2_0_01_1_n_n.lhsBatch by decide),
    dif_pos (show (0 : Fin S8x4096x1024.rank) ∈ dot_S8x4096x1024_S1024x1024_S8x4096x1024_2_0_01_1_n_n.lhsNonContracting by decide)]
  rfl
theorem lhs_1 (i : S8x4096x1024.Idx) (q : dot_S8x4096x1024_S1024x1024_S8x4096x1024_2_0_01_1_n_n.contr.Idx) :
    (dot_S8x4096x1024_S1024x1024_S8x4096x1024_2_0_01_1_n_n.lhsIdx i q 1).val = (i 1).val := by
  unfold DotDims.lhsIdx
  rw [dif_neg (show ¬(1 : Fin S8x4096x1024.rank) ∈ dot_S8x4096x1024_S1024x1024_S8x4096x1024_2_0_01_1_n_n.lhsBatch by decide),
    dif_pos (show (1 : Fin S8x4096x1024.rank) ∈ dot_S8x4096x1024_S1024x1024_S8x4096x1024_2_0_01_1_n_n.lhsNonContracting by decide)]
  rfl
theorem lhs_2 (i : S8x4096x1024.Idx) (q : dot_S8x4096x1024_S1024x1024_S8x4096x1024_2_0_01_1_n_n.contr.Idx) :
    (dot_S8x4096x1024_S1024x1024_S8x4096x1024_2_0_01_1_n_n.lhsIdx i q 2).val = (q ⟨0, by decide⟩).val :=
  dot_S8x4096x1024_S1024x1024_S8x4096x1024_2_0_01_1_n_n.lhsIdx_val_of_single rfl i q
/-- … and the right operand's. -/
theorem rhs_0 (i : S8x4096x1024.Idx) (q : dot_S8x4096x1024_S1024x1024_S8x4096x1024_2_0_01_1_n_n.contr.Idx) :
    (dot_S8x4096x1024_S1024x1024_S8x4096x1024_2_0_01_1_n_n.rhsIdx i q 0).val = (q ⟨0, by decide⟩).val :=
  dot_S8x4096x1024_S1024x1024_S8x4096x1024_2_0_01_1_n_n.rhsIdx_val_of_single rfl i q
theorem rhs_1 (i : S8x4096x1024.Idx) (q : dot_S8x4096x1024_S1024x1024_S8x4096x1024_2_0_01_1_n_n.contr.Idx) :
    (dot_S8x4096x1024_S1024x1024_S8x4096x1024_2_0_01_1_n_n.rhsIdx i q 1).val = (i 2).val := by
  unfold DotDims.rhsIdx
  rw [dif_neg (show ¬(1 : Fin S1024x1024.rank) ∈ dot_S8x4096x1024_S1024x1024_S8x4096x1024_2_0_01_1_n_n.rhsBatch by decide),
    dif_pos (show (1 : Fin S1024x1024.rank) ∈ dot_S8x4096x1024_S1024x1024_S8x4096x1024_2_0_01_1_n_n.rhsNonContracting by decide)]
  rfl

/-- The contraction at (n, s, h): the sum over d of x at (n, s, d) times W at (d, h). -/
theorem dot_apply (x : T3 Ideal) (W : TW Ideal) (n : Fin 8) (s : Fin 4096) (h : Fin 1024) :
    Host.dotGeneral (F := Ideal) (φ₁ := .f32) (φ₂ := .f32) dot_S8x4096x1024_S1024x1024_S8x4096x1024_2_0_01_1_n_n none x W (ix3 n s h)
      = ∑ d : Fin 1024, x (ix3 n s d) * W (ix2 d h) := by
  simp only [Host.dotGeneral]
  rw [Ideal.dotGeneral_apply,
    ← Equiv.sum_comp (contrEquiv1 dot_S8x4096x1024_S1024x1024_S8x4096x1024_2_0_01_1_n_n 1024 rfl rfl).symm]
  refine Finset.sum_congr rfl fun k _ => ?_
  have hk := contrEquiv1_symm_val dot_S8x4096x1024_S1024x1024_S8x4096x1024_2_0_01_1_n_n 1024 rfl rfl k
  have el : dot_S8x4096x1024_S1024x1024_S8x4096x1024_2_0_01_1_n_n.lhsIdx (ix3 n s h)
      ((contrEquiv1 dot_S8x4096x1024_S1024x1024_S8x4096x1024_2_0_01_1_n_n 1024 rfl rfl).symm k) = ix3 n s k :=
    funext fun a => Fin.ext (by
      match a with
      | ⟨0, _⟩ => exact lhs_0 _ _
      | ⟨1, _⟩ => exact lhs_1 _ _
      | ⟨2, _⟩ => exact (lhs_2 _ _).trans hk)
  have er : dot_S8x4096x1024_S1024x1024_S8x4096x1024_2_0_01_1_n_n.rhsIdx (ix3 n s h)
      ((contrEquiv1 dot_S8x4096x1024_S1024x1024_S8x4096x1024_2_0_01_1_n_n 1024 rfl rfl).symm k) = ix2 k h :=
    funext fun a => Fin.ext (by
      match a with
      | ⟨0, _⟩ => exact (rhs_0 _ _).trans hk
      | ⟨1, _⟩ => exact rhs_1 _ _)
  rw [el, er]

/-- The projection at (n, s, h) is the specification's. -/
theorem lin_apply (x : T3 Ideal) (W : TW Ideal) (b : TB Ideal) (n : Fin 8) (s : Fin 4096) (h : Fin 1024) :
    lin (F := Ideal) x W b (ix3 n s h) = Cert.Spec.lin x W b n s h := by
  unfold lin Cert.Spec.lin
  rw [addf_apply, dot_apply, spreadBias_apply]

end Cert.ReferenceIdeal.Hand.Value

end
-- ==== Proof.RefValue.lean ====
/-
  The reference program's result is the specification, index by index.

  Each definition of the program's result term is read at an index (n, s, h): the feature map is the specification's
  feature map of the operand there (the pointwise law of the exponential linear unit); the attention value is
  (Q · Σ_s K·v) · (1 / (Q · Σ_s K + ε)) with both sums over the sequence axis; the Gaussian error linear unit is the
  specification's of the operand there (multiplication re-associated). The result at (n, s, o) is then the
  specification's, the output projection's sum over h compared term by term. Nothing here distributes or cancels, so
  nothing is assumed finite.
-/
import proofs.«165790_j9397388444314_1_alg».proof.Proof.RefTerm
import proofs.«165790_j9397388444314_1_alg».proof.Proof.Spec
import proofs.«165790_j9397388444314_1_alg».proof.Proof.Gen.ReferenceIdeal
import proofs.«165790_j9397388444314_1_alg».proof.Proof.RefValuePt
import proofs.«165790_j9397388444314_1_alg».proof.Proof.RefValueRead
import Idealize.ShloMosaic.Lib.ValueIdx
import Idealize.ShloMosaic.Lib.IdealHost
import Idealize.ShloMosaic.PureOps.Ideal.Laws

noncomputable section

namespace Cert.ReferenceIdeal.Hand.Value

open Cert.ReferenceIdeal Cert.ReferenceIdeal.Hand Idealize.ShloMosaic Idealize.ShloMosaic.ValueIdx
open Cert.ReferenceIdeal.Facts₀

/-- The host's exponential-minus-one at an index. -/
theorem hostExpm1_apply (a : T3 Ideal) (i : S8x4096x1024.Idx) : Host.expm1 (F := Ideal) (φ := .f32) a i = Ideal.exp (a i) - 1 := rfl

/-- The host's hyperbolic tangent at an index. -/
theorem hostTanh_apply (a : T3 Ideal) (i : S8x4096x1024.Idx) : Host.tanh (F := Ideal) (φ := .f32) a i = Ideal.tanh (a i) := rfl

/-- The feature map at an index is the specification's feature map of the operand there. -/
theorem fmap_apply (a : T3 Ideal) (i : S8x4096x1024.Idx) : fmap (F := Ideal) a i = Cert.Spec.fm (a i) := by
  unfold fmap elu
  simp only [addf_apply, mulf_apply, select_apply, cmpf_apply, hostExpm1_apply, splat_apply, Ideal.cmpf_def]
  rw [splat_id_apply 0x00000000#32 i]
  simp only [Ideal.ofBits_zero_f32, Ideal.ofBits_one_f32]
  exact elu_add_one (a i)

/-- The attention value at (n, s, h). -/
theorem attn_apply (Q K v : T3 Ideal) (n : Fin 8) (s : Fin 4096) (h : Fin 1024) :
    attn (F := Ideal) Q K v (ix3 n s h)
      = (Q (ix3 n s h) * ∑ s' : Fin 4096, K (ix3 n s' h) * v (ix3 n s' h))
          * Ideal.div Cert.Spec.one (Q (ix3 n s h) * (∑ s' : Fin 4096, K (ix3 n s' h)) + Cert.Spec.eps) := by
  unfold attn
  simp only [mulf_apply, addf_apply, hostDivf_apply, splat_apply, spreadSeq_apply, seqSum_apply]
  rfl

/-- The Gaussian error linear unit at an index is the specification's of the operand there. -/
theorem gelu_apply (y : T3 Ideal) (i : S8x4096x1024.Idx) : gelu (F := Ideal) y i = Cert.Spec.gelu (y i) := by
  unfold gelu Cert.Spec.gelu
  simp only [mulf_apply, addf_apply, hostTanh_apply, splat_apply]
  exact gelu_assoc (y i) _

/-- THE REFERENCE'S RESULT IS THE SPECIFICATION. -/
theorem refOut_eq (x : T3 Ideal) (Wq : TW Ideal) (bq : TB Ideal) (Wk : TW Ideal) (bk : TB Ideal) (Wv : TW Ideal) (bv : TB Ideal) (Wo : TW Ideal) (bo : TB Ideal) :
    refOut (F := Ideal) x Wq bq Wk bk Wv bv Wo bo = Cert.Spec.G x Wq bq Wk bk Wv bv Wo bo := by
  funext i
  obtain ⟨n, s, o, rfl⟩ : ∃ (n : Fin 8) (s : Fin 4096) (o : Fin 1024), i = ix3 n s o := ⟨i 0, i 1, i 2, eq_ix3 i⟩
  rw [Cert.Spec.G_ix3]
  unfold refOut Cert.Spec.Gat
  rw [gelu_apply]
  refine congrArg Cert.Spec.gelu ?_
  rw [lin_apply]
  unfold Cert.Spec.lin Cert.Spec.proj
  refine congrArg (· + bo (ix1 o)) (Finset.sum_congr rfl fun h _ => ?_)
  refine congrArg (· * Wo (ix2 h o)) ?_
  rw [attn_apply]
  unfold Cert.Spec.att Cert.Spec.kv Cert.Spec.ks
  simp only [fmap_apply, lin_apply]

end Cert.ReferenceIdeal.Hand.Value

end
-- ==== Proof.lean ====
/-
  Linear attention with the feature map φ(t) = t + 1 for t > 0 and exp t otherwise, followed by an output projection and
  the tanh form of the Gaussian error linear unit, over x : [8, 4096, 1024], four weight matrices [1024, 1024] and four
  bias vectors [1024]:
      q = x·Wq + bq,  k = x·Wk + bk,  v = x·Wv + bv,
      KV[n, h] = Σ_s φ(k[n, s, h]) · v[n, s, h],    Ks[n, h] = Σ_s φ(k[n, s, h]),
      a = (φ(q) · KV) · (1 / (φ(q) · Ks + ε)),      y = a·Wo + bo,
      result = (½ · y) · (1 + tanh (c₀ · (y + c₁ · y³))).
  The kernel computes this in two regions over a grid of (batch, sequence tile of 512 rows): the first projects each
  tile three ways, stores φ(q), and accumulates the two sums over the eight tiles of a batch in scratch rows that it
  zeroes at a batch's first tile and copies out at its last; the second reads φ(q), KV and Ks and finishes. The
  reference is the same chain of whole-array host operations, the exponential linear unit spelt through expm1.

  Over the extended reals the two agree index by index, for every input (no finiteness is used): a change of float
  format is the identity; a matrix product into a zero accumulator is the contraction; the tiled, accumulated sum is the
  sum over all positions, because addition of extended reals is commutative and associative; where t ≤ 0 the value
  exp t is a real in [0, 1], so 1 · (exp t − 1) + 1 = exp t, while where t > 0 both sides are t + 1; and the two
  spellings of the last product differ by associativity and commutativity of multiplication only.

  Each kernel program's frame (it terminates, faults nowhere, leaves its arguments unchanged) is its run as a list of
  segments — eight host operations, the first region, the second — with each region's proof data stated at the contents
  it is entered with and the first region's invariant carrying the two scratch rows at the accumulators after each
  point; the same run, read at the result array, gives the kernel's value. The reference's frame is its run with the
  result dropped. The idealisation rewrote no operation, so there is nothing to preserve.
-/
import proofs.«165790_j9397388444314_1_alg».proof.Defs
import proofs.«165790_j9397388444314_1_alg».proof.Proof.Gen.Kernel
import proofs.«165790_j9397388444314_1_alg».proof.Proof.Gen.KernelIdeal
import proofs.«165790_j9397388444314_1_alg».proof.Proof.Gen.ReferenceIdeal
import proofs.«165790_j9397388444314_1_alg».proof.Proof.Gen.Pre_finite_inputs
import proofs.«165790_j9397388444314_1_alg».proof.Proof.KRun
import proofs.«165790_j9397388444314_1_alg».proof.Proof.Run
import proofs.«165790_j9397388444314_1_alg».proof.Proof.KernelValue
import proofs.«165790_j9397388444314_1_alg».proof.Proof.RefRun
import proofs.«165790_j9397388444314_1_alg».proof.Proof.RefValue

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame (F := Bits) m ρ

/-- So does the kernel read at the ideal instance. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.Run.run (F := Ideal) m ρ)

/-- The idealisation rewrote nothing. -/
theorem preserves : Cert.preserves_Kernel_KernelIdeal := trivial

/-- Both programs, from memories agreeing on the nine arguments, end with the specification's function of those
    arguments in their result arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Hand.Value.result_eq m ρ c), (h c).2⟩)
      (Cert.KernelIdeal.Hand.run_result (F := Ideal) m ρ)
  · refine (θ_run Cert.ReferenceIdeal.defs _ _).mono (fun _ h c => ⟨?_, (h c).2⟩)
      (Cert.ReferenceIdeal.Hand.Run.run (F := Ideal) m' ρ')
    rw [(h c).1, Cert.ReferenceIdeal.Hand.Value.refOut_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
